-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S1x128 : Shape := ⟨2, ![1, 128]⟩
abbrev S8000x128 : Shape := ⟨2, ![8000, 128]⟩
abbrev S5000x128 : Shape := ⟨2, ![5000, 128]⟩

abbrev nBuf : Space → Nat
  | .hbm => 72
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S800000x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S1x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35_0 : Ref sig .tc := ⟨.hbm, 60, rfl⟩
abbrev main_v35_1 : Ref sig .tc := ⟨.hbm, 61, rfl⟩
abbrev main_v35_2 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S8000x128 : S1x128.Broadcasts S8000x128
  reduces_S8000x128_S128 : S8000x128.Reduces [0] S128
  bcast_S_S1x128 : S_.BroadcastsInDim S1x128 (![] : Fin 0 → Fin S1x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S800000x128.size a
  hwx1_6 : ∀ i : grid1.Coords, EltTy.bits .f32 = 32 ∨ (Rect.block (s := S800000x128) S8000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v35_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v35_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x128, .f32⟩
  | 35 => ⟨S800000x128, .f32⟩
  | 36 => ⟨S800000x128, .f32⟩
  | 37 => ⟨S1x128, .f32⟩
  | 38 => ⟨S800000x128, .f32⟩
  | 39 => ⟨S800000x128, .f32⟩
  | 40 => ⟨S_, .f32⟩
  | 41 => ⟨S800000x128, .f32⟩
  | 42 => ⟨S800000x128, .f32⟩
  | 43 => ⟨S800000x128, .f32⟩
  | 44 => ⟨S1x128, .f32⟩
  | 45 => ⟨S800000x128, .f32⟩
  | 46 => ⟨S800000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S800000x128, .f32⟩
  | 60 => ⟨S800000x128, .f32⟩
  | 61 => ⟨S800000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S800000x128, .f32⟩
  | 77 => ⟨S800000x128, .f32⟩
  | 78 => ⟨S_, .f32⟩
  | 79 => ⟨S128, .f32⟩
  | 80 => ⟨S128, .f32⟩
  | 81 => ⟨S128, .f32⟩
  | 82 => ⟨S1x128, .f32⟩
  | 83 => ⟨S800000x128, .f32⟩
  | 84 => ⟨S800000x128, .f32⟩
  | 85 => ⟨S1x128, .f32⟩
  | 86 => ⟨S800000x128, .f32⟩
  | 87 => ⟨S800000x128, .f32⟩
  | 88 => ⟨S1x128, .f32⟩
  | 89 => ⟨S800000x128, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S_, .f32⟩
  | 125 => ⟨S_, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_6 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_call2_cst : Ref sig .tc := ⟨.hbm, 101, rfl⟩
abbrev main_call2_v0 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_7 : Ref sig .tc := ⟨.hbm, 108, rfl⟩
abbrev main_v58 : Ref sig .tc := ⟨.hbm, 109, rfl⟩
abbrev main_cst_8 : Ref sig .tc := ⟨.hbm, 110, rfl⟩
abbrev main_v59 : Ref sig .tc := ⟨.hbm, 111, rfl⟩
abbrev main_v60 : Ref sig .tc := ⟨.hbm, 112, rfl⟩
abbrev main_c_9 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_cst_2 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_cst_3 : Ref sig .tc := ⟨.hbm, 130, rfl⟩
abbrev main_call3_v12 : Ref sig .tc := ⟨.hbm, 131, rfl⟩
abbrev main_call3_cst_4 : Ref sig .tc := ⟨.hbm, 132, rfl⟩
abbrev main_call3_call0_v0 : Ref sig .tc := ⟨.hbm, 133, rfl⟩
abbrev main_call3_call0_v1 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_10 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, read whole: from any launch memory every weakly fair execution of @main — four stretches
  of host operations alternating with the four kernel regions — terminates without a fault, and every buffer that
  outlives a region ends holding what the last segment boundary's contents say: the launch memory folded through the
  host stretches and through each region's write-backs.  The frame claim (the arguments end unchanged) and the two
  results' values are both read off this one statement.
-/
import proofs.«164139_j1597727834590_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped to a region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The two results and the sixteen arguments, read off `run_all`: the results at the last boundary's contents, the
    arguments as launched. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
      ⟨h c _ (mem_uc main_v42 (by decide)),
       h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)
    (run_all m ρ)

end Cert.KernelIdeal.RunValue

end
-- ==== Proof.RefRunOps.lean ====
/-
  The reference program's straight line of 137 tensor operations (its calls of the rectifier, of the variance and of
  the variance's guard unfolded in place over each call's own buffers), cut into nine consecutive stretches, one per
  step of the mathematics.  For each stretch: the list, that it touches tensor buffers only, the buffers it writes,
  and that every other buffer passes through it unchanged.
-/
import proofs.«164139_j1597727834590_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is a member of a literal list of buffers. -/
local macro "written_in_list" : tactic =>
  `(tactic| (simp only [nullary_writes, unary_writes, binary_writes, ternary_writes, Finset.singleton_subset_iff, List.mem_toFinset]
             exact List.mem_map_of_mem (by decide)))

/-- Running one list after another is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations 1 … 20 of the program's straight line (calls unfolded in place): the endpoint rows of the node table gathered at the two index columns (a negative index wraps by the number of nodes), summed, plus the edge table. -/
def opsA : List (HloOp τ sig (Elt F)) :=
  [
    nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg3 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v9 (broadcastInDim S800000 ![] bcast_S_S800000 : (⟨S_, .i32⟩ : BufTy).Contents (Elt F) → (⟨S800000, .i32⟩ : BufTy).Contents (Elt F)),
    binary main_arg3 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg0 main_v12 main_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v6 main_v13 main_v14 (addf : (⟨S800000x128, .f32⟩ : BufTy).Contents (Elt F) → (⟨S800000x128, .f32⟩ : BufTy).Contents (Elt F) → (⟨S800000x128, .f32⟩ : BufTy).Contents (Elt F)),
    binary main_v14 main_arg1 main_v15 (addf : (⟨S800000x128, .f32⟩ : BufTy).Contents (Elt F) → (⟨S800000x128, .f32⟩ : BufTy).Contents (Elt F) → (⟨S800000x128, .f32⟩ : BufTy).Contents (Elt F)) ]

theorem opsA_sub : (opsA : List (HloOp τ sig (Elt F))).Forall fun op => op.bufs ⊆ tcRefs τ sig := by
  unfold opsA
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- The buffers those operations write. -/
abbrev opsA_W : List (Ref sig .tc) := [main_c, main_v0, main_v1, main_c_0, main_v2, main_v3, main_v4, main_v5, main_v6, main_c_1, main_v7, main_v8, main_c_2, main_v9, main_v10, main_v11, main_v12, main_v13, main_v14, main_v15]

theorem opsA_writes : (opsA : List (HloOp τ sig (Elt F))).Forall fun op =>
    op.writes ⊆ (opsA_W.map (Proc.devRef (τ := τ) .tc)).toFinset := by
  unfold opsA
  simp only [List.Forall]
  repeat' apply And.intro
  all_goals written_in_list

/-- A buffer none of them writes keeps its contents. -/
theorem afterA_keep (V : Valuation τ sig (Elt F)) (r : Ref sig .tc) (h : r ∉ opsA_W) :
    after (opsA (F := F)) V (Proc.devRef .tc r) = V (Proc.devRef .tc r) :=
  after_of_writes_sub opsA V opsA_writes h

/-- Operations 21 … 31 of the program's straight line (calls unfolded in place): the edge half's two-layer perceptron: an affine layer, the rectifier, an affine layer. -/
def opsB : List (HloOp τ sig (Elt F)) :=
  [
    binary main_v15 main_arg8 main_v16 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg9 main_v17 (broadcastInDim S1x128 ![1] bcast_S128_S1x128_1 : (⟨S128, .f32⟩ : BufTy).Contents (Elt F) → (⟨S1x128, .f32⟩ : BufTy).Contents (Elt F)),
    unary main_v17 main_v18 (broadcastInDim S800000x128 ![0, 1] bcast_S1x128_S800000x128_0_1 : (⟨S1x128, .f32⟩ : BufTy).Contents (Elt F) → (⟨S800000x128, .f32⟩ : BufTy).Contents (Elt F)),
    binary main_v16 main_v18 main_v19 (addf : (⟨S800000x128, .f32⟩ : BufTy).Contents (Elt F) → (⟨S800000x128, .f32⟩ : BufTy).Contents (Elt F) → (⟨S800000x128, .f32⟩ : BufTy).Contents (Elt F)),
    TRef.nullary main_call0.cst (constant S_ .f32 0x00000000#32),
    TRef.unary main_call0.cst main_call0.v0 (broadcastInDim S800000x128 ![] bcast_S_S800000x128),
    TRef.binary (TRef.of (T := ⟨S800000x128, .f32⟩) main_v19) main_call0.v0 main_call0.v1 maximumf,
    binary main_v20 main_arg10 main_v21 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg11 main_v22 (broadcastInDim S1x128 ![1] bcast_S128_S1x128_1 : (⟨S128, .f32⟩ : BufTy).Contents (Elt F) → (⟨S1x128, .f32⟩ : BufTy).Contents (Elt F)),
    unary main_v22 main_v23 (broadcastInDim S800000x128 ![0, 1] bcast_S1x128_S800000x128_0_1 : (⟨S1x128, .f32⟩ : BufTy).Contents (Elt F) → (⟨S800000x128, .f32⟩ : BufTy).Contents (Elt F)),
    binary main_v21 main_v23 main_v24 (addf : (⟨S800000x128, .f32⟩ : BufTy).Contents (Elt F) → (⟨S800000x128, .f32⟩ : BufTy).Contents (Elt F) → (⟨S800000x128, .f32⟩ : BufTy).Contents (Elt F)) ]

theorem opsB_sub : (opsB : List (HloOp τ sig (Elt F))).Forall fun op => op.bufs ⊆ tcRefs τ sig := by
  unfold opsB
  exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers those operations write. -/
abbrev opsB_W : List (Ref sig .tc) := [main_v16, main_v17, main_v18, main_v19, main_call0_cst, main_call0_v0, main_v20, main_v21, main_v22, main_v23, main_v24]

theorem opsB_writes : (opsB : List (HloOp τ sig (Elt F))).Forall fun op =>
    op.writes ⊆ (opsB_W.map (Proc.devRef (τ := τ) .tc)).toFinset := by
  unfold opsB
  simp only [List.Forall]
  repeat' apply And.intro
  all_goals written_in_list

/-- A buffer none of them writes keeps its contents. -/
theorem afterB_keep (V : Valuation τ sig (Elt F)) (r : Ref sig .tc) (h : r ∉ opsB_W) :
    after (opsB (F := F)) V (Proc.devRef .tc r) = V (Proc.devRef .tc r) :=
  after_of_writes_sub opsB V opsB_writes h

/-- Operations 32 … 59 of the program's straight line (calls unfolded in place): the edge half's column means, and the column variances as the mean of the squared deviations (which recomputes the means and is guarded by the row count being positive). -/
def opsC1 : List (HloOp τ sig (Elt F)) :=
  [
    nullary main_cst (constant S_ .f32 0x00000000#32),
    binary main_v24 main_cst main_v25 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_3 (constant S_ .f32 0x49435000#32),
    unary main_cst_3 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call1.cst (constant S_ .f32 0x00000000#32),
    TRef.binary (TRef.of (T := ⟨S800000x128, .f32⟩) main_v24) main_call1.cst main_call1.v0 (fun x v => Host.reduceAdd x v reducesTo_S800000x128_S128_d0 h_S_),
    TRef.unary main_call1.v0 main_call1.v1 (broadcastInDim S1x128 ![1] bcast_S128_S1x128_1),
    TRef.nullary main_call1.cst_0 (constant S_ .f32 0x49435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S800000x128 ![0, 1] bcast_S1x128_S800000x128_0_1),
    TRef.binary (TRef.of (T := ⟨S800000x128, .f32⟩) main_v24) main_call1.v4 main_call1.v5 subf,
    TRef.binary main_call1.v5 main_call1.v5 main_call1.v6 mulf,
    TRef.unary (TRef.of (T := ⟨S_, .i32⟩) main_c_4) main_call1.v7 (sitofp .f32),
    TRef.nullary main_call1.cst_1 (constant S_ .f32 0x49435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S800000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

theorem opsC1_sub : (opsC1 : List (HloOp τ sig (Elt F))).Forall fun op => op.bufs ⊆ tcRefs τ sig := by
  unfold opsC1
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers those operations write. -/
abbrev opsC1_W : List (Ref sig .tc) := [main_cst, main_v25, main_cst_3, main_v26, main_v27, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v28]

theorem opsC1_writes : (opsC1 : List (HloOp τ sig (Elt F))).Forall fun op =>
    op.writes ⊆ (opsC1_W.map (Proc.devRef (τ := τ) .tc)).toFinset := by
  unfold opsC1
  simp only [List.Forall]
  repeat' apply And.intro
  all_goals written_in_list

/-- A buffer none of them writes keeps its contents. -/
theorem afterC1_keep (V : Valuation τ sig (Elt F)) (r : Ref sig .tc) (h : r ∉ opsC1_W) :
    after (opsC1 (F := F)) V (Proc.devRef .tc r) = V (Proc.devRef .tc r) :=
  after_of_writes_sub opsC1 V opsC1_writes h

/-- Operations 60 … 76 of the program's straight line (calls unfolded in place): the edge half's normalization: centre, scale by the inverse root of variance plus epsilon, scale, shift, add the edge table. -/
def opsC2 : List (HloOp τ sig (Elt F)) :=
  [
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S800000x128 ![0, 1] bcast_S1x128_S800000x128_0_1 : (⟨S1x128, .f32⟩ : BufTy).Contents (Elt F) → (⟨S800000x128, .f32⟩ : BufTy).Contents (Elt F)),
    binary main_v24 main_v30 main_v31 (subf : (⟨S800000x128, .f32⟩ : BufTy).Contents (Elt F) → (⟨S800000x128, .f32⟩ : BufTy).Contents (Elt F) → (⟨S800000x128, .f32⟩ : BufTy).Contents (Elt F)),
    nullary main_cst_5 (constant S_ .f32 0x3727C5AC#32),
    unary main_cst_5 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S800000x128 ![0, 1] bcast_S1x128_S800000x128_0_1 : (⟨S1x128, .f32⟩ : BufTy).Contents (Elt F) → (⟨S800000x128, .f32⟩ : BufTy).Contents (Elt F)),
    binary main_v31 main_v36 main_v37 (mulf : (⟨S800000x128, .f32⟩ : BufTy).Contents (Elt F) → (⟨S800000x128, .f32⟩ : BufTy).Contents (Elt F) → (⟨S800000x128, .f32⟩ : BufTy).Contents (Elt F)),
    unary main_arg14 main_v38 (broadcastInDim S1x128 ![1] bcast_S128_S1x128_1 : (⟨S128, .f32⟩ : BufTy).Contents (Elt F) → (⟨S1x128, .f32⟩ : BufTy).Contents (Elt F)),
    unary main_v38 main_v39 (broadcastInDim S800000x128 ![0, 1] bcast_S1x128_S800000x128_0_1 : (⟨S1x128, .f32⟩ : BufTy).Contents (Elt F) → (⟨S800000x128, .f32⟩ : BufTy).Contents (Elt F)),
    binary main_v37 main_v39 main_v40 (mulf : (⟨S800000x128, .f32⟩ : BufTy).Contents (Elt F) → (⟨S800000x128, .f32⟩ : BufTy).Contents (Elt F) → (⟨S800000x128, .f32⟩ : BufTy).Contents (Elt F)),
    unary main_arg15 main_v41 (broadcastInDim S1x128 ![1] bcast_S128_S1x128_1 : (⟨S128, .f32⟩ : BufTy).Contents (Elt F) → (⟨S1x128, .f32⟩ : BufTy).Contents (Elt F)),
    unary main_v41 main_v42 (broadcastInDim S800000x128 ![0, 1] bcast_S1x128_S800000x128_0_1 : (⟨S1x128, .f32⟩ : BufTy).Contents (Elt F) → (⟨S800000x128, .f32⟩ : BufTy).Contents (Elt F)),
    binary main_v40 main_v42 main_v43 (addf : (⟨S800000x128, .f32⟩ : BufTy).Contents (Elt F) → (⟨S800000x128, .f32⟩ : BufTy).Contents (Elt F) → (⟨S800000x128, .f32⟩ : BufTy).Contents (Elt F)),
    binary main_v43 main_arg1 main_v44 (addf : (⟨S800000x128, .f32⟩ : BufTy).Contents (Elt F) → (⟨S800000x128, .f32⟩ : BufTy).Contents (Elt F) → (⟨S800000x128, .f32⟩ : BufTy).Contents (Elt F)) ]

theorem opsC2_sub : (opsC2 : List (HloOp τ sig (Elt F))).Forall fun op => op.bufs ⊆ tcRefs τ sig := by
  unfold opsC2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- The buffers those operations write. -/
abbrev opsC2_W : List (Ref sig .tc) := [main_v29, main_v30, main_v31, main_cst_5, main_v32, main_v33, main_v34, main_v35, main_v36, main_v37, main_v38, main_v39, main_v40, main_v41, main_v42, main_v43, main_v44]

theorem opsC2_writes : (opsC2 : List (HloOp τ sig (Elt F))).Forall fun op =>
    op.writes ⊆ (opsC2_W.map (Proc.devRef (τ := τ) .tc)).toFinset := by
  unfold opsC2
  simp only [List.Forall]
  repeat' apply And.intro
  all_goals written_in_list

/-- A buffer none of them writes keeps its contents. -/
theorem afterC2_keep (V : Valuation τ sig (Elt F)) (r : Ref sig .tc) (h : r ∉ opsC2_W) :
    after (opsC2 (F := F)) V (Proc.devRef .tc r) = V (Proc.devRef .tc r) :=
  after_of_writes_sub opsC2 V opsC2_writes h

/-- Operations 77 … 81 of the program's straight line (calls unfolded in place): the new edge rows summed into their destination nodes, added to the node table. -/
def opsD : List (HloOp τ sig (Elt F)) :=
  [
    nullary main_cst_6 (constant S_ .f32 0x00000000#32),
    unary main_cst_6 main_v45 (broadcastInDim S50000x128 ![] bcast_S_S50000x128 : (⟨S_, .f32⟩ : BufTy).Contents (Elt F) → (⟨S50000x128, .f32⟩ : BufTy).Contents (Elt F)),
    unary main_arg3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v47 main_v48 (addf : (⟨S50000x128, .f32⟩ : BufTy).Contents (Elt F) → (⟨S50000x128, .f32⟩ : BufTy).Contents (Elt F) → (⟨S50000x128, .f32⟩ : BufTy).Contents (Elt F)) ]

theorem opsD_sub : (opsD : List (HloOp τ sig (Elt F))).Forall fun op => op.bufs ⊆ tcRefs τ sig := by
  unfold opsD
  exact ⟨nullary_bufs_sub .., unary_bufs_sub .., unary_bufs_sub .., ternary_bufs_sub .., binary_bufs_sub ..⟩

/-- The buffers those operations write. -/
abbrev opsD_W : List (Ref sig .tc) := [main_cst_6, main_v45, main_v46, main_v47, main_v48]

theorem opsD_writes : (opsD : List (HloOp τ sig (Elt F))).Forall fun op =>
    op.writes ⊆ (opsD_W.map (Proc.devRef (τ := τ) .tc)).toFinset := by
  unfold opsD
  simp only [List.Forall]
  repeat' apply And.intro
  all_goals written_in_list

/-- A buffer none of them writes keeps its contents. -/
theorem afterD_keep (V : Valuation τ sig (Elt F)) (r : Ref sig .tc) (h : r ∉ opsD_W) :
    after (opsD (F := F)) V (Proc.devRef .tc r) = V (Proc.devRef .tc r) :=
  after_of_writes_sub opsD V opsD_writes h

/-- Operations 82 … 83 of the program's straight line (calls unfolded in place): the node half's first matrix product and its bias as a row. -/
def opsE0 : List (HloOp τ sig (Elt F)) :=
  [
    binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v50 (broadcastInDim S1x128 ![1] bcast_S128_S1x128_1 : (⟨S128, .f32⟩ : BufTy).Contents (Elt F) → (⟨S1x128, .f32⟩ : BufTy).Contents (Elt F)) ]

theorem opsE0_sub : (opsE0 : List (HloOp τ sig (Elt F))).Forall fun op => op.bufs ⊆ tcRefs τ sig := by
  unfold opsE0
  exact ⟨binary_bufs_sub .., unary_bufs_sub ..⟩

/-- The buffers those operations write. -/
abbrev opsE0_W : List (Ref sig .tc) := [main_v49, main_v50]

theorem opsE0_writes : (opsE0 : List (HloOp τ sig (Elt F))).Forall fun op =>
    op.writes ⊆ (opsE0_W.map (Proc.devRef (τ := τ) .tc)).toFinset := by
  unfold opsE0
  simp only [List.Forall]
  repeat' apply And.intro
  all_goals written_in_list

/-- A buffer none of them writes keeps its contents. -/
theorem afterE0_keep (V : Valuation τ sig (Elt F)) (r : Ref sig .tc) (h : r ∉ opsE0_W) :
    after (opsE0 (F := F)) V (Proc.devRef .tc r) = V (Proc.devRef .tc r) :=
  after_of_writes_sub opsE0 V opsE0_writes h

/-- Operations 84 … 92 of the program's straight line (calls unfolded in place): the rest of the node half's two-layer perceptron. -/
def opsE1 : List (HloOp τ sig (Elt F)) :=
  [
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of (T := ⟨S50000x128, .f32⟩) main_v52) main_call2.v0 main_call2.v1 maximumf,
    binary main_v53 main_arg6 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)) ]

theorem opsE1_sub : (opsE1 : List (HloOp τ sig (Elt F))).Forall fun op => op.bufs ⊆ tcRefs τ sig := by
  unfold opsE1
  exact ⟨unary_bufs_sub .., binary_bufs_sub .., nullary_bufs_sub .., unary_bufs_sub .., binary_bufs_sub .., binary_bufs_sub .., unary_bufs_sub .., unary_bufs_sub .., binary_bufs_sub ..⟩

/-- The buffers those operations write. -/
abbrev opsE1_W : List (Ref sig .tc) := [main_v51, main_v52, main_call2_cst, main_call2_v0, main_v53, main_v54, main_v55, main_v56, main_v57]

theorem opsE1_writes : (opsE1 : List (HloOp τ sig (Elt F))).Forall fun op =>
    op.writes ⊆ (opsE1_W.map (Proc.devRef (τ := τ) .tc)).toFinset := by
  unfold opsE1
  simp only [List.Forall]
  repeat' apply And.intro
  all_goals written_in_list

/-- A buffer none of them writes keeps its contents. -/
theorem afterE1_keep (V : Valuation τ sig (Elt F)) (r : Ref sig .tc) (h : r ∉ opsE1_W) :
    after (opsE1 (F := F)) V (Proc.devRef .tc r) = V (Proc.devRef .tc r) :=
  after_of_writes_sub opsE1 V opsE1_writes h

/-- Operations 93 … 120 of the program's straight line (calls unfolded in place): the node half's column means and variances. -/
def opsF1 : List (HloOp τ sig (Elt F)) :=
  [
    nullary main_cst_7 (constant S_ .f32 0x00000000#32),
    binary main_v57 main_cst_7 main_v58 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v59 (broadcastInDim S128 ![] bcast_S_S128 : (⟨S_, .f32⟩ : BufTy).Contents (Elt F) → (⟨S128, .f32⟩ : BufTy).Contents (Elt F)),
    binary main_v58 main_v59 main_v60 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    TRef.nullary main_call3.cst (constant S_ .f32 0x00000000#32),
    TRef.binary (TRef.of (T := ⟨S50000x128, .f32⟩) main_v57) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (TRef.of (T := ⟨S50000x128, .f32⟩) main_v57) main_call3.v4 main_call3.v5 subf,
    TRef.binary main_call3.v5 main_call3.v5 main_call3.v6 mulf,
    TRef.unary (TRef.of (T := ⟨S_, .i32⟩) main_c_9) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]

theorem opsF1_sub : (opsF1 : List (HloOp τ sig (Elt F))).Forall fun op => op.bufs ⊆ tcRefs τ sig := by
  unfold opsF1
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers those operations write. -/
abbrev opsF1_W : List (Ref sig .tc) := [main_cst_7, main_v58, main_cst_8, main_v59, main_v60, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v61]

theorem opsF1_writes : (opsF1 : List (HloOp τ sig (Elt F))).Forall fun op =>
    op.writes ⊆ (opsF1_W.map (Proc.devRef (τ := τ) .tc)).toFinset := by
  unfold opsF1
  simp only [List.Forall]
  repeat' apply And.intro
  all_goals written_in_list

/-- A buffer none of them writes keeps its contents. -/
theorem afterF1_keep (V : Valuation τ sig (Elt F)) (r : Ref sig .tc) (h : r ∉ opsF1_W) :
    after (opsF1 (F := F)) V (Proc.devRef .tc r) = V (Proc.devRef .tc r) :=
  after_of_writes_sub opsF1 V opsF1_writes h

/-- Operations 121 … 137 of the program's straight line (calls unfolded in place): the node half's normalization and residual. -/
def opsF2 : List (HloOp τ sig (Elt F)) :=
  [
    unary main_v60 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v57 main_v63 main_v64 (subf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v61 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v64 main_v69 main_v70 (mulf : (⟨S50000x128, .f32⟩ : BufTy).Contents (Elt F) → (⟨S50000x128, .f32⟩ : BufTy).Contents (Elt F) → (⟨S50000x128, .f32⟩ : BufTy).Contents (Elt F)),
    unary main_arg12 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (mulf : (⟨S50000x128, .f32⟩ : BufTy).Contents (Elt F) → (⟨S50000x128, .f32⟩ : BufTy).Contents (Elt F) → (⟨S50000x128, .f32⟩ : BufTy).Contents (Elt F)),
    unary main_arg13 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    binary main_v76 main_arg0 main_v77 (addf : (⟨S50000x128, .f32⟩ : BufTy).Contents (Elt F) → (⟨S50000x128, .f32⟩ : BufTy).Contents (Elt F) → (⟨S50000x128, .f32⟩ : BufTy).Contents (Elt F)) ]

theorem opsF2_sub : (opsF2 : List (HloOp τ sig (Elt F))).Forall fun op => op.bufs ⊆ tcRefs τ sig := by
  unfold opsF2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- The buffers those operations write. -/
abbrev opsF2_W : List (Ref sig .tc) := [main_v62, main_v63, main_v64, main_cst_10, main_v65, main_v66, main_v67, main_v68, main_v69, main_v70, main_v71, main_v72, main_v73, main_v74, main_v75, main_v76, main_v77]

theorem opsF2_writes : (opsF2 : List (HloOp τ sig (Elt F))).Forall fun op =>
    op.writes ⊆ (opsF2_W.map (Proc.devRef (τ := τ) .tc)).toFinset := by
  unfold opsF2
  simp only [List.Forall]
  repeat' apply And.intro
  all_goals written_in_list

/-- A buffer none of them writes keeps its contents. -/
theorem afterF2_keep (V : Valuation τ sig (Elt F)) (r : Ref sig .tc) (h : r ∉ opsF2_W) :
    after (opsF2 (F := F)) V (Proc.devRef .tc r) = V (Proc.devRef .tc r) :=
  after_of_writes_sub opsF2 V opsF2_writes h

end Cert.ReferenceIdeal.RefRun

end
-- ==== Proof.RefRunDefs.lean ====
/-
  The reference program's values as functions of the argument arrays, one definition per step of the mathematics,
  each the tensor operations' composed term.  The edge half: the gathered endpoint rows plus the edge table (`me`),
  the two-layer perceptron, the column means and variances, the normalization with its residual (`edgeOut`).  The
  node half: the new edge rows summed into their destination nodes (`agg`), then the same four steps on the node
  table plus that sum (`nodeOut`).
-/
import proofs.«164139_j1597727834590_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An index column as the gather reads it: a negative entry wraps around by the number of nodes; then as a
    one-column table. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The perceptron's input on the edges: the node table's rows at the source and at the destination of each edge,
    summed, plus the edge's own row. -/
def me (h : FVec F S50000x128 .f32) (e : FVec F S800000x128 .f32) (src dst : IVec S800000 32) :
    FVec F S800000x128 .f32 :=
  addf (addf (Host.gather gather_S50000x128_S800000x1_S800000x128_1_0_n_n_0_1_1128 h (wrapCol src)) (Host.gather gather_S50000x128_S800000x1_S800000x128_1_0_n_n_0_1_1128 h (wrapCol dst))) e

/-- The edge half's two-layer perceptron on the whole table: `x · W1 + b1` row by row, the rectifier against zero,
    `· W2 + b2`. -/
def mlpE (x : FVec F S800000x128 .f32) (W1 : FVec F S128x128 .f32) (b1 : FVec F S128 .f32)
    (W2 : FVec F S128x128 .f32) (b2 : FVec F S128 .f32) : FVec F S800000x128 .f32 :=
  addf
    (Host.dotGeneral dot_S800000x128_S128x128_S800000x128_1_0_0_1_n_n none
      (maximumf
        (addf (Host.dotGeneral dot_S800000x128_S128x128_S800000x128_1_0_0_1_n_n none x W1)
          (broadcastInDim S800000x128 ![0, 1] bcast_S1x128_S800000x128_0_1 (broadcastInDim S1x128 ![1] bcast_S128_S1x128_1 b1)))
        (broadcastInDim S800000x128 ![] bcast_S_S800000x128 (constant S_ .f32 0x00000000#32)))
      W2)
    (broadcastInDim S800000x128 ![0, 1] bcast_S1x128_S800000x128_0_1 (broadcastInDim S1x128 ![1] bcast_S128_S1x128_1 b2))

/-- The edge half's column means: each column's sum over all rows divided by the row count. -/
def meanE (y : FVec F S800000x128 .f32) : FVec F S128 .f32 :=
  Host.divf (Host.reduceAdd y (constant S_ .f32 0x00000000#32) reducesTo_S800000x128_S128_d0 h_S_)
    (broadcastInDim S128 ![] bcast_S_S128 (constant S_ .f32 0x49435000#32))

/-- The row count less the zero correction, as the variance spells its divisor. -/
def dofE : FVec F S_ .f32 :=
  subf (constant S_ .f32 0x49435000#32) (sitofp .f32 (constantI S_ 32 0#32))

/-- The table's deviations from its column means, the means recomputed as the variance does (as a one-row table,
    divided by a one-row table of the row count, then spread over the rows). -/
def devE (y : FVec F S800000x128 .f32) : FVec F S800000x128 .f32 :=
  subf y
    (broadcastInDim S800000x128 ![0, 1] bcast_S1x128_S800000x128_0_1
      (Host.divf
        (broadcastInDim S1x128 ![1] bcast_S128_S1x128_1
          (Host.reduceAdd y (constant S_ .f32 0x00000000#32) reducesTo_S800000x128_S128_d0 h_S_))
        (broadcastInDim S1x128 ![] bcast_S_S1x128 (constant S_ .f32 0x49435000#32))))

/-- The edge half's column variances: the sum of the squared deviations over the divisor where the divisor is
    positive, and the not-a-number word elsewhere. -/
def varE (y : FVec F S800000x128 .f32) : FVec F S128 .f32 :=
  select
    (broadcastInDim S128 ![] bcast_S_S128 (cmpf .ogt (dofE (F := F)) (constant S_ .f32 0x00000000#32)))
    (Host.divf
      (Host.reduceAdd (mulf (devE y) (devE y)) (constant S_ .f32 0x00000000#32) reducesTo_S800000x128_S128_d0 h_S_)
      (broadcastInDim S128 ![] bcast_S_S128 (dofE (F := F))))
    (broadcastInDim S128 ![] bcast_S_S128 (id (constant S_ .f32 0x7FC00000#32)))

/-- The edge half's normalization given the column means and variances:
    `(y - mean) · rsqrt (var + ε) · γ + β + res`, each column quantity spread over the rows. -/
def bnE (y : FVec F S800000x128 .f32) (mean var γ β : FVec F S128 .f32) (res : FVec F S800000x128 .f32) : FVec F S800000x128 .f32 :=
  addf
    (addf
      (mulf
        (mulf
          (subf y (broadcastInDim S800000x128 ![0, 1] bcast_S1x128_S800000x128_0_1 (broadcastInDim S1x128 ![1] bcast_S128_S1x128_1 mean)))
          (broadcastInDim S800000x128 ![0, 1] bcast_S1x128_S800000x128_0_1
            (broadcastInDim S1x128 ![1] bcast_S128_S1x128_1
              (Host.rsqrt (addf var (broadcastInDim S128 ![] bcast_S_S128 (constant S_ .f32 0x3727C5AC#32)))))))
        (broadcastInDim S800000x128 ![0, 1] bcast_S1x128_S800000x128_0_1 (broadcastInDim S1x128 ![1] bcast_S128_S1x128_1 γ)))
      (broadcastInDim S800000x128 ![0, 1] bcast_S1x128_S800000x128_0_1 (broadcastInDim S1x128 ![1] bcast_S128_S1x128_1 β)))
    res

/-- The new edge table: the perceptron of `me`, normalized over all edges, plus the old edge table. -/
def edgeOut (me e : FVec F S800000x128 .f32) (Wb1 : FVec F S128x128 .f32) (bb1 : FVec F S128 .f32)
    (Wb2 : FVec F S128x128 .f32) (bb2 γb βb : FVec F S128 .f32) : FVec F S800000x128 .f32 :=
  bnE (mlpE me Wb1 bb1 Wb2 bb2) (meanE (mlpE me Wb1 bb1 Wb2 bb2)) (varE (mlpE me Wb1 bb1 Wb2 bb2)) γb βb e

/-- The new edge rows summed into their destination nodes, from a table of zeros. -/
def agg (dst : IVec S800000 32) (eNew : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) eNew

/-- The node half's two-layer perceptron on the whole table: `x · W1 + b1` row by row, the rectifier against zero,
    `· W2 + b2`. -/
def mlpN (x : FVec F S50000x128 .f32) (W1 : FVec F S128x128 .f32) (b1 : FVec F S128 .f32)
    (W2 : FVec F S128x128 .f32) (b2 : FVec F S128 .f32) : FVec F S50000x128 .f32 :=
  addf
    (Host.dotGeneral dot_S50000x128_S128x128_S50000x128_1_0_0_1_n_n none
      (maximumf
        (addf (Host.dotGeneral dot_S50000x128_S128x128_S50000x128_1_0_0_1_n_n none x W1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32)))
      W2)
    (broadcastInDim S50000x128 ![0, 1] bcast_S1x128_S50000x128_0_1 (broadcastInDim S1x128 ![1] bcast_S128_S1x128_1 b2))

/-- The node half's column means: each column's sum over all rows divided by the row count. -/
def meanN (y : FVec F S50000x128 .f32) : FVec F S128 .f32 :=
  Host.divf (Host.reduceAdd y (constant S_ .f32 0x00000000#32) reducesTo_S50000x128_S128_d0 h_S_)
    (broadcastInDim S128 ![] bcast_S_S128 (constant S_ .f32 0x47435000#32))

/-- The row count less the zero correction, as the variance spells its divisor. -/
def dofN : FVec F S_ .f32 :=
  subf (constant S_ .f32 0x47435000#32) (sitofp .f32 (constantI S_ 32 0#32))

/-- The table's deviations from its column means, the means recomputed as the variance does (as a one-row table,
    divided by a one-row table of the row count, then spread over the rows). -/
def devN (y : FVec F S50000x128 .f32) : FVec F S50000x128 .f32 :=
  subf y
    (broadcastInDim S50000x128 ![0, 1] bcast_S1x128_S50000x128_0_1
      (Host.divf
        (broadcastInDim S1x128 ![1] bcast_S128_S1x128_1
          (Host.reduceAdd y (constant S_ .f32 0x00000000#32) reducesTo_S50000x128_S128_d0 h_S_))
        (broadcastInDim S1x128 ![] bcast_S_S1x128 (constant S_ .f32 0x47435000#32))))

/-- The node half's column variances: the sum of the squared deviations over the divisor where the divisor is
    positive, and the not-a-number word elsewhere. -/
def varN (y : FVec F S50000x128 .f32) : FVec F S128 .f32 :=
  select
    (broadcastInDim S128 ![] bcast_S_S128 (cmpf .ogt (dofN (F := F)) (constant S_ .f32 0x00000000#32)))
    (Host.divf
      (Host.reduceAdd (mulf (devN y) (devN y)) (constant S_ .f32 0x00000000#32) reducesTo_S50000x128_S128_d0 h_S_)
      (broadcastInDim S128 ![] bcast_S_S128 (dofN (F := F))))
    (broadcastInDim S128 ![] bcast_S_S128 (id (constant S_ .f32 0x7FC00000#32)))

/-- The node half's normalization given the column means and variances:
    `(y - mean) · rsqrt (var + ε) · γ + β + res`, each column quantity spread over the rows. -/
def bnN (y : FVec F S50000x128 .f32) (mean var γ β : FVec F S128 .f32) (res : FVec F S50000x128 .f32) : FVec F S50000x128 .f32 :=
  addf
    (addf
      (mulf
        (mulf
          (subf y (broadcastInDim S50000x128 ![0, 1] bcast_S1x128_S50000x128_0_1 (broadcastInDim S1x128 ![1] bcast_S128_S1x128_1 mean)))
          (broadcastInDim S50000x128 ![0, 1] bcast_S1x128_S50000x128_0_1
            (broadcastInDim S1x128 ![1] bcast_S128_S1x128_1
              (Host.rsqrt (addf var (broadcastInDim S128 ![] bcast_S_S128 (constant S_ .f32 0x3727C5AC#32)))))))
        (broadcastInDim S50000x128 ![0, 1] bcast_S1x128_S50000x128_0_1 (broadcastInDim S1x128 ![1] bcast_S128_S1x128_1 γ)))
      (broadcastInDim S50000x128 ![0, 1] bcast_S1x128_S50000x128_0_1 (broadcastInDim S1x128 ![1] bcast_S128_S1x128_1 β)))
    res

/-- The new node table: the perceptron of the node table plus the summed edge rows, normalized over all nodes,
    plus the old node table. -/
def nodeOut (h agg : FVec F S50000x128 .f32) (Wa1 : FVec F S128x128 .f32) (ba1 : FVec F S128 .f32)
    (Wa2 : FVec F S128x128 .f32) (ba2 γa βa : FVec F S128 .f32) : FVec F S50000x128 .f32 :=
  bnN (mlpN (addf h agg) Wa1 ba1 Wa2 ba2) (meanN (mlpN (addf h agg) Wa1 ba1 Wa2 ba2))
    (varN (mlpN (addf h agg) Wa1 ba1 Wa2 ba2)) γa βa h

end Cert.ReferenceIdeal.RefRun

end
-- ==== Proof.RefRunA.lean ====
/-
  The first stretch of the reference's run: after it the buffer of the perceptron's edge input holds `me` of the four
  arrays it is computed from.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterA_v15 (V : Valuation τ sig (Elt F)) :
    after (opsA : List (HloOp τ sig (Elt F))) V (Proc.devRef .tc main_v15) = me (V (Proc.devRef .tc main_arg0)) (V (Proc.devRef .tc main_arg1)) (V (Proc.devRef .tc main_arg2)) (V (Proc.devRef .tc main_arg3)) := by
  unfold opsA
  after_results_simp
  all_goals rfl

end Cert.ReferenceIdeal.RefRun

end
-- ==== Proof.RefRunB.lean ====
/-
  The second stretch: after it the perceptron's output buffer on the edges holds `mlpE` of its input and the four
  parameter arrays.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterB_v24 (V : Valuation τ sig (Elt F)) :
    after (opsB : List (HloOp τ sig (Elt F))) V (Proc.devRef .tc main_v24) = mlpE (V (Proc.devRef .tc main_v15)) (V (Proc.devRef .tc main_arg8)) (V (Proc.devRef .tc main_arg9)) (V (Proc.devRef .tc main_arg10)) (V (Proc.devRef .tc main_arg11)) := by
  unfold opsB
  after_results_simp
  all_goals rfl

end Cert.ReferenceIdeal.RefRun

end
-- ==== Proof.RefRunC1.lean ====
/-
  The third stretch: after it the edge half's mean and variance buffers hold `meanE` and `varE` of the perceptron's
  output.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterC1_v27 (V : Valuation τ sig (Elt F)) :
    after (opsC1 : List (HloOp τ sig (Elt F))) V (Proc.devRef .tc main_v27) = meanE (V (Proc.devRef .tc main_v24)) := by
  unfold opsC1
  after_results_simp
  all_goals rfl

set_option maxRecDepth 8192 in
set_option maxHeartbeats 4000000 in
theorem afterC1_v28 (V : Valuation τ sig (Elt F)) :
    after (opsC1 : List (HloOp τ sig (Elt F))) V (Proc.devRef .tc main_v28) = varE (V (Proc.devRef .tc main_v24)) := by
  unfold opsC1
  after_results_simp
  all_goals rfl

end Cert.ReferenceIdeal.RefRun

end
-- ==== Proof.RefRunC2.lean ====
/-
  The fourth stretch: after it the new edge table's buffer holds `bnE` of the perceptron's output, its column means
  and variances, the scale, the shift and the old edge table.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterC2_v44 (V : Valuation τ sig (Elt F)) :
    after (opsC2 : List (HloOp τ sig (Elt F))) V (Proc.devRef .tc main_v44) = bnE (V (Proc.devRef .tc main_v24)) (V (Proc.devRef .tc main_v27)) (V (Proc.devRef .tc main_v28)) (V (Proc.devRef .tc main_arg14)) (V (Proc.devRef .tc main_arg15)) (V (Proc.devRef .tc main_arg1)) := by
  unfold opsC2
  after_results_simp
  all_goals rfl

end Cert.ReferenceIdeal.RefRun

end
-- ==== Proof.RefRunD.lean ====
/-
  The fifth stretch: after it the perceptron's node input holds the node table plus `agg` of the destination column
  and the new edge table.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterD_v48 (V : Valuation τ sig (Elt F)) :
    after (opsD : List (HloOp τ sig (Elt F))) V (Proc.devRef .tc main_v48) = addf (V (Proc.devRef .tc main_arg0)) (agg (V (Proc.devRef .tc main_arg3)) (V (Proc.devRef .tc main_v44))) := by
  unfold opsD
  after_results_simp
  all_goals rfl

end Cert.ReferenceIdeal.RefRun

end
-- ==== Proof.RefRunE.lean ====
/-
  The sixth and seventh stretches together: after them the perceptron's output buffer on the nodes holds `mlpN` of
  its input and the four parameter arrays; a buffer neither writes passes through both.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterE_v57 (V : Valuation τ sig (Elt F)) :
    after (opsE0 ++ opsE1 : List (HloOp τ sig (Elt F))) V (Proc.devRef .tc main_v57) = mlpN (V (Proc.devRef .tc main_v48)) (V (Proc.devRef .tc main_arg4)) (V (Proc.devRef .tc main_arg5)) (V (Proc.devRef .tc main_arg6)) (V (Proc.devRef .tc main_arg7)) := by
  unfold opsE0 opsE1
  simp only [List.cons_append, List.nil_append]
  after_results_simp
  all_goals rfl

/-- A buffer neither stretch writes keeps its contents through both. -/
theorem afterE_keep (V : Valuation τ sig (Elt F)) (r : Ref sig .tc) (h0 : r ∉ opsE0_W) (h1 : r ∉ opsE1_W) :
    after ((opsE0 ++ opsE1 : List (HloOp τ sig (Elt F)))) V (Proc.devRef .tc r) = V (Proc.devRef .tc r) := by
  rw [after_app, afterE1_keep _ r h1, afterE0_keep _ r h0]

end Cert.ReferenceIdeal.RefRun

end
-- ==== Proof.RefRunF1.lean ====
/-
  The eighth stretch: after it the node half's mean and variance buffers hold `meanN` and `varN` of the perceptron's
  output.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterF1_v60 (V : Valuation τ sig (Elt F)) :
    after (opsF1 : List (HloOp τ sig (Elt F))) V (Proc.devRef .tc main_v60) = meanN (V (Proc.devRef .tc main_v57)) := by
  unfold opsF1
  after_results_simp
  all_goals rfl

set_option maxRecDepth 8192 in
set_option maxHeartbeats 4000000 in
theorem afterF1_v61 (V : Valuation τ sig (Elt F)) :
    after (opsF1 : List (HloOp τ sig (Elt F))) V (Proc.devRef .tc main_v61) = varN (V (Proc.devRef .tc main_v57)) := by
  unfold opsF1
  after_results_simp
  all_goals rfl

end Cert.ReferenceIdeal.RefRun

end
-- ==== Proof.RefRunF2.lean ====
/-
  The ninth stretch: after it the new node table's buffer holds `bnN` of the perceptron's output, its column means
  and variances, the scale, the shift and the old node table.
-/
import proofs.«164139_j1597727834590_1_alg».proof.Proof.RefRunOps
import proofs.«164139_j1597727834590_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem afterF2_v77 (V : Valuation τ sig (Elt F)) :
    after (opsF2 : List (HloOp τ sig (Elt F))) V (Proc.devRef .tc main_v77) = bnN (V (Proc.devRef .tc main_v57)) (V (Proc.devRef .tc main_v60)) (V (Proc.devRef .tc main_v61)) (V (Proc.devRef .tc main_arg12)) (V (Proc.devRef .tc main_arg13)) (V (Proc.devRef .tc main_arg0)) := by
  unfold opsF2
  after_results_simp
  all_goals rfl

end Cert.ReferenceIdeal.RefRun

end
-- ==== Proof.RefRunEq0.lean ====
/-
  The first window of the reference's program is the straight line of its first 83 operations: the three calls in it
  unfolded at their sites, sequencing reassociated.
-/
import proofs.«164139_j1597727834590_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem part0_eq (c : Dev nD) :
    main_part0 (F := F) c = seq (opsA ++ (opsB ++ (opsC1 ++ (opsC2 ++ (opsD ++ opsE0))))) := by
  unfold opsA opsB opsC1 opsC2 opsD opsE0
  simp only [List.cons_append, List.nil_append, main_part0, fn_relu.body, fn_var.body, fn_where.body, seq, bind_assoc,
    pure_bind]
  all_goals rfl

end Cert.ReferenceIdeal.RefRun

end
-- ==== Proof.RefRunEq1.lean ====
/-
  The second window of the reference's program is the straight line of its last 54 operations, then the return: the
  two calls in it unfolded at their sites, sequencing reassociated.
-/
import proofs.«164139_j1597727834590_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem part1_eq (c : Dev nD) :
    main_part1 (F := F) c = seq (opsE1 ++ (opsF1 ++ opsF2)) := by
  unfold opsE1 opsF1 opsF2
  simp only [List.cons_append, List.nil_append, main_part1, fn_relu_0.body, fn_var_1.body, fn_where.body, seq, bind_assoc,
    pure_bind]
  all_goals rfl

end Cert.ReferenceIdeal.RefRun

end
-- ==== Proof.RefRunFresh.lean ====
/-
  Every operation of the nine stretches determines its results: none of them allocates a buffer of unspecified
  contents.
-/
import proofs.«164139_j1597727834590_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem opsA_fresh : ∀ op ∈ (opsA : List (HloOp τ sig (Elt F))), op.fresh = ∅ := by
  unfold opsA
  intro _ h
  (repeat (cases h with | head => rfl | tail _ h => ?_))
  exact nomatch h

set_option maxRecDepth 8192 in
theorem opsB_fresh : ∀ op ∈ (opsB : List (HloOp τ sig (Elt F))), op.fresh = ∅ := by
  unfold opsB
  intro _ h
  (repeat (cases h with | head => rfl | tail _ h => ?_))
  exact nomatch h

set_option maxRecDepth 8192 in
theorem opsC1_fresh : ∀ op ∈ (opsC1 : List (HloOp τ sig (Elt F))), op.fresh = ∅ := by
  unfold opsC1
  intro _ h
  (repeat (cases h with | head => rfl | tail _ h => ?_))
  exact nomatch h

set_option maxRecDepth 8192 in
theorem opsC2_fresh : ∀ op ∈ (opsC2 : List (HloOp τ sig (Elt F))), op.fresh = ∅ := by
  unfold opsC2
  intro _ h
  (repeat (cases h with | head => rfl | tail _ h => ?_))
  exact nomatch h

set_option maxRecDepth 8192 in
theorem opsD_fresh : ∀ op ∈ (opsD : List (HloOp τ sig (Elt F))), op.fresh = ∅ := by
  unfold opsD
  intro _ h
  (repeat (cases h with | head => rfl | tail _ h => ?_))
  exact nomatch h

set_option maxRecDepth 8192 in
theorem opsE0_fresh : ∀ op ∈ (opsE0 : List (HloOp τ sig (Elt F))), op.fresh = ∅ := by
  unfold opsE0
  intro _ h
  (repeat (cases h with | head => rfl | tail _ h => ?_))
  exact nomatch h

set_option maxRecDepth 8192 in
theorem opsE1_fresh : ∀ op ∈ (opsE1 : List (HloOp τ sig (Elt F))), op.fresh = ∅ := by
  unfold opsE1
  intro _ h
  (repeat (cases h with | head => rfl | tail _ h => ?_))
  exact nomatch h

set_option maxRecDepth 8192 in
theorem opsF1_fresh : ∀ op ∈ (opsF1 : List (HloOp τ sig (Elt F))), op.fresh = ∅ := by
  unfold opsF1
  intro _ h
  (repeat (cases h with | head => rfl | tail _ h => ?_))
  exact nomatch h

set_option maxRecDepth 8192 in
theorem opsF2_fresh : ∀ op ∈ (opsF2 : List (HloOp τ sig (Elt F))), op.fresh = ∅ := by
  unfold opsF2
  intro _ h
  (repeat (cases h with | head => rfl | tail _ h => ?_))
  exact nomatch h

end Cert.ReferenceIdeal.RefRun

end
-- ==== Proof.RefRunWhole.lean ====
/-
  The reference's run.  The nine stretches in order are the program; each buffer the program returns is read off the
  stretches one after the other: the new edge table is `edgeOut` of `me` and the edge half's arguments, the new node
  table is `nodeOut` of the node table, of `agg` of the destination column and the new edge table, and of the node
  half's arguments; no argument array is written.
-/
import proofs.«164139_j1597727834590_1_alg».proof.Proof.RefRunA
import proofs.«164139_j1597727834590_1_alg».proof.Proof.RefRunB
import proofs.«164139_j1597727834590_1_alg».proof.Proof.RefRunC1
import proofs.«164139_j1597727834590_1_alg».proof.Proof.RefRunC2
import proofs.«164139_j1597727834590_1_alg».proof.Proof.RefRunD
import proofs.«164139_j1597727834590_1_alg».proof.Proof.RefRunE
import proofs.«164139_j1597727834590_1_alg».proof.Proof.RefRunF1
import proofs.«164139_j1597727834590_1_alg».proof.Proof.RefRunF2
import proofs.«164139_j1597727834590_1_alg».proof.Proof.RefRunEq0
import proofs.«164139_j1597727834590_1_alg».proof.Proof.RefRunEq1
import proofs.«164139_j1597727834590_1_alg».proof.Proof.RefRunFresh

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 137 operations, in order. -/
def ops : List (HloOp τ sig (Elt F)) :=
  opsA ++ (opsB ++ (opsC1 ++ (opsC2 ++ (opsD ++ ((opsE0 ++ opsE1) ++ (opsF1 ++ opsF2))))))

theorem ops_eq_windows : (ops : List (HloOp τ sig (Elt F)))
    = (opsA ++ (opsB ++ (opsC1 ++ (opsC2 ++ (opsD ++ opsE0))))) ++ (opsE1 ++ (opsF1 ++ opsF2)) := by
  simp only [ops, List.append_assoc]

theorem main_eq (c : Dev nD) : main (F := F) c = seq ops := by
  rw [ops_eq_windows, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h
    exacts [List.forall_iff_forall_mem.mp opsA_sub op h,
      List.forall_iff_forall_mem.mp opsB_sub op h,
      List.forall_iff_forall_mem.mp opsC1_sub op h,
      List.forall_iff_forall_mem.mp opsC2_sub op h,
      List.forall_iff_forall_mem.mp opsD_sub op h,
      List.forall_iff_forall_mem.mp opsE0_sub op h,
      List.forall_iff_forall_mem.mp opsE1_sub op h,
      List.forall_iff_forall_mem.mp opsF1_sub op h,
      List.forall_iff_forall_mem.mp opsF2_sub op h]

theorem ops_fresh : ∀ op ∈ (ops : List (HloOp τ sig (Elt F))), op.fresh = ∅ := fun op h => by
  simp only [ops, List.mem_append, or_assoc] at h
  rcases h with h | h | h | h | h | h | h | h | h
  exacts [opsA_fresh op h, opsB_fresh op h, opsC1_fresh op h, opsC2_fresh op h, opsD_fresh op h, opsE0_fresh op h, opsE1_fresh op h, opsF1_fresh op h, opsF2_fresh op h]

/-- Reads a buffer through the stretches, last to first: at a stretch that computes it, the stretch's value lemma;
    at a stretch that does not write it, what was there before. -/
local macro "read_back" : tactic =>
  `(tactic| repeat (first
      | rw [afterF2_v77] | rw [afterF1_v60] | rw [afterF1_v61] | rw [afterE_v57] | rw [afterD_v48] | rw [afterC2_v44]
      | rw [afterC1_v27] | rw [afterC1_v28] | rw [afterB_v24] | rw [afterA_v15]
      | (rw [afterF2_keep]; rotate_left; decide)
      | (rw [afterF1_keep]; rotate_left; decide)
      | (rw [afterE_keep]; rotate_left; decide; decide)
      | (rw [afterD_keep]; rotate_left; decide)
      | (rw [afterC2_keep]; rotate_left; decide)
      | (rw [afterC1_keep]; rotate_left; decide)
      | (rw [afterB_keep]; rotate_left; decide)
      | (rw [afterA_keep]; rotate_left; decide)))

theorem after_ops_eq (V : Valuation τ sig (Elt F)) :
    after ops V = after opsF2 (after opsF1 (after (opsE0 ++ opsE1) (after opsD (after opsC2 (after opsC1 (after opsB (after opsA V))))))) := by
  rw [ops, after_app, after_app, after_app, after_app, after_app, after_app, after_app]

/-- The new edge table. -/
theorem ops_v44 (V : Valuation τ sig (Elt F)) :
    after ops V (Proc.devRef .tc main_v44) = edgeOut (me (V (Proc.devRef .tc main_arg0)) (V (Proc.devRef .tc main_arg1)) (V (Proc.devRef .tc main_arg2)) (V (Proc.devRef .tc main_arg3))) (V (Proc.devRef .tc main_arg1)) (V (Proc.devRef .tc main_arg8)) (V (Proc.devRef .tc main_arg9)) (V (Proc.devRef .tc main_arg10)) (V (Proc.devRef .tc main_arg11)) (V (Proc.devRef .tc main_arg14)) (V (Proc.devRef .tc main_arg15)) := by
  rw [after_ops_eq]
  read_back
  first | rfl | done

/-- The new node table. -/
theorem ops_v77 (V : Valuation τ sig (Elt F)) :
    after ops V (Proc.devRef .tc main_v77) = nodeOut (V (Proc.devRef .tc main_arg0)) (agg (V (Proc.devRef .tc main_arg3)) (edgeOut (me (V (Proc.devRef .tc main_arg0)) (V (Proc.devRef .tc main_arg1)) (V (Proc.devRef .tc main_arg2)) (V (Proc.devRef .tc main_arg3))) (V (Proc.devRef .tc main_arg1)) (V (Proc.devRef .tc main_arg8)) (V (Proc.devRef .tc main_arg9)) (V (Proc.devRef .tc main_arg10)) (V (Proc.devRef .tc main_arg11)) (V (Proc.devRef .tc main_arg14)) (V (Proc.devRef .tc main_arg15)))) (V (Proc.devRef .tc main_arg4)) (V (Proc.devRef .tc main_arg5)) (V (Proc.devRef .tc main_arg6)) (V (Proc.devRef .tc main_arg7)) (V (Proc.devRef .tc main_arg12)) (V (Proc.devRef .tc main_arg13)) := by
  rw [after_ops_eq]
  read_back
  first | rfl | done

theorem ops_arg0 (V : Valuation τ sig (Elt F)) :
    after ops V (Proc.devRef .tc main_arg0) = V (Proc.devRef .tc main_arg0) := by
  rw [after_ops_eq]
  read_back
  first | rfl | done

theorem ops_arg1 (V : Valuation τ sig (Elt F)) :
    after ops V (Proc.devRef .tc main_arg1) = V (Proc.devRef .tc main_arg1) := by
  rw [after_ops_eq]
  read_back
  first | rfl | done

theorem ops_arg2 (V : Valuation τ sig (Elt F)) :
    after ops V (Proc.devRef .tc main_arg2) = V (Proc.devRef .tc main_arg2) := by
  rw [after_ops_eq]
  read_back
  first | rfl | done

theorem ops_arg3 (V : Valuation τ sig (Elt F)) :
    after ops V (Proc.devRef .tc main_arg3) = V (Proc.devRef .tc main_arg3) := by
  rw [after_ops_eq]
  read_back
  first | rfl | done

theorem ops_arg4 (V : Valuation τ sig (Elt F)) :
    after ops V (Proc.devRef .tc main_arg4) = V (Proc.devRef .tc main_arg4) := by
  rw [after_ops_eq]
  read_back
  first | rfl | done

theorem ops_arg5 (V : Valuation τ sig (Elt F)) :
    after ops V (Proc.devRef .tc main_arg5) = V (Proc.devRef .tc main_arg5) := by
  rw [after_ops_eq]
  read_back
  first | rfl | done

theorem ops_arg6 (V : Valuation τ sig (Elt F)) :
    after ops V (Proc.devRef .tc main_arg6) = V (Proc.devRef .tc main_arg6) := by
  rw [after_ops_eq]
  read_back
  first | rfl | done

theorem ops_arg7 (V : Valuation τ sig (Elt F)) :
    after ops V (Proc.devRef .tc main_arg7) = V (Proc.devRef .tc main_arg7) := by
  rw [after_ops_eq]
  read_back
  first | rfl | done

theorem ops_arg8 (V : Valuation τ sig (Elt F)) :
    after ops V (Proc.devRef .tc main_arg8) = V (Proc.devRef .tc main_arg8) := by
  rw [after_ops_eq]
  read_back
  first | rfl | done

theorem ops_arg9 (V : Valuation τ sig (Elt F)) :
    after ops V (Proc.devRef .tc main_arg9) = V (Proc.devRef .tc main_arg9) := by
  rw [after_ops_eq]
  read_back
  first | rfl | done

theorem ops_arg10 (V : Valuation τ sig (Elt F)) :
    after ops V (Proc.devRef .tc main_arg10) = V (Proc.devRef .tc main_arg10) := by
  rw [after_ops_eq]
  read_back
  first | rfl | done

theorem ops_arg11 (V : Valuation τ sig (Elt F)) :
    after ops V (Proc.devRef .tc main_arg11) = V (Proc.devRef .tc main_arg11) := by
  rw [after_ops_eq]
  read_back
  first | rfl | done

theorem ops_arg12 (V : Valuation τ sig (Elt F)) :
    after ops V (Proc.devRef .tc main_arg12) = V (Proc.devRef .tc main_arg12) := by
  rw [after_ops_eq]
  read_back
  first | rfl | done

theorem ops_arg13 (V : Valuation τ sig (Elt F)) :
    after ops V (Proc.devRef .tc main_arg13) = V (Proc.devRef .tc main_arg13) := by
  rw [after_ops_eq]
  read_back
  first | rfl | done

theorem ops_arg14 (V : Valuation τ sig (Elt F)) :
    after ops V (Proc.devRef .tc main_arg14) = V (Proc.devRef .tc main_arg14) := by
  rw [after_ops_eq]
  read_back
  first | rfl | done

theorem ops_arg15 (V : Valuation τ sig (Elt F)) :
    after ops V (Proc.devRef .tc main_arg15) = V (Proc.devRef .tc main_arg15) := by
  rw [after_ops_eq]
  read_back
  first | rfl | done

/-- On every device, from any memory with zero counters: every weakly fair execution of the reference program
    terminates with the new node table at `nodeOut`, the new edge table at `edgeOut`, and the sixteen arguments
    unchanged. -/
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = nodeOut (m ((c.tc : Thread nD τ).loc main_arg0)) (agg (m ((c.tc : Thread nD τ).loc main_arg3)) (edgeOut (me (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13))
      ∧ r.2.mem ((c.tc : Thread nD τ).loc main_v44) = edgeOut (me (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v77).trans (ops_v77 (launchContents m c)),
      (h c main_v44).trans (ops_v44 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c)),
      (h c main_arg10).trans (ops_arg10 (launchContents m c)),
      (h c main_arg11).trans (ops_arg11 (launchContents m c)),
      (h c main_arg12).trans (ops_arg12 (launchContents m c)),
      (h c main_arg13).trans (ops_arg13 (launchContents m c)),
      (h c main_arg14).trans (ops_arg14 (launchContents m c)),
      (h c main_arg15).trans (ops_arg15 (launchContents m c))⟩)
    (run_seq scopedRefs_eq scopedSems_eq defs main (fun _ => ops) main_eq (fun _ => ops_sub) m ρ (fun _ => ops_fresh))

end Cert.ReferenceIdeal.RefRun

end
-- ==== Proof.RefRun.lean ====
/-
  The reference's run.  On every device every weakly fair execution of the reference program terminates; the new node
  table ends at `nodeOut` of the node table, of `agg` of the destination column and the new edge table, and of the
  node half's arguments; the new edge table ends at `edgeOut` of `me` and the edge half's arguments; the sixteen
  argument arrays end as they began.  The proof reads the program as nine consecutive stretches of operations.
-/
import proofs.«164139_j1597727834590_1_alg».proof.Proof.RefRunWhole

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = nodeOut (m ((c.tc : Thread nD τ).loc main_arg0)) (agg (m ((c.tc : Thread nD τ).loc main_arg3)) (edgeOut (me (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13))
      ∧ r.2.mem ((c.tc : Thread nD τ).loc main_v44) = edgeOut (me (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  run_whole m ρ

end Cert.ReferenceIdeal.RefRun

end
-- ==== Proof.Keep.lean ====
/-
  Which buffers each of the idealized kernel's four stretches of host operations writes, and that every other buffer
  keeps its contents through the stretch.
-/
import proofs.«164139_j1597727834590_1_alg».proof.Proof.Gen.KernelIdeal.Launch
import Idealize.ShloMosaic.Lib.StableHlo.Run

noncomputable section

namespace Cert.KernelIdeal.Keep

open Idealize.ShloMosaic Idealize.ShloMosaic.TcCoe Idealize.SL.Sem Cert.KernelIdeal Cert.KernelIdeal.Gen

variable {F : FTy → Type} [FloatOps F]

/-- Every reference stretch 0 of host operations writes. -/
def written0 : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_v19]

theorem sub0 : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0 does not write keeps its contents through it. -/
theorem keep0 (W : Valuation τ sig (Elt F)) (b : Ref sig .tc) (hb : b ∉ written0) :
    StableHlo.after hostOps0 W (Proc.devRef .tc b) = W (Proc.devRef .tc b) :=
  StableHlo.after_of_writes_sub hostOps0 W sub0 hb

/-- Every reference stretch 1 of host operations writes. -/
def written1 : List (Ref sig .tc) := [main_cst, main_v21, main_v22, main_cst_3, main_v23, main_v24, main_v25, main_v26]

theorem sub1 : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1 does not write keeps its contents through it. -/
theorem keep1 (W : Valuation τ sig (Elt F)) (b : Ref sig .tc) (hb : b ∉ written1) :
    StableHlo.after hostOps1 W (Proc.devRef .tc b) = W (Proc.devRef .tc b) :=
  StableHlo.after_of_writes_sub hostOps1 W sub1 hb

/-- Every reference stretch 2 of host operations writes. -/
def written2 : List (Ref sig .tc) := [main_cst_4, main_v28, main_v29, main_v30, main_v31, main_v32, main_v33, main_v34]

theorem sub2 : (hostOps2 : List (HloOp τ sig (Elt F))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 2 does not write keeps its contents through it. -/
theorem keep2 (W : Valuation τ sig (Elt F)) (b : Ref sig .tc) (hb : b ∉ written2) :
    StableHlo.after hostOps2 W (Proc.devRef .tc b) = W (Proc.devRef .tc b) :=
  StableHlo.after_of_writes_sub hostOps2 W sub2 hb

/-- Every reference stretch 3 of host operations writes. -/
def written3 : List (Ref sig .tc) := [main_cst_5, main_v36, main_v37, main_cst_6, main_v38, main_v39, main_v40, main_v41]

theorem sub3 : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 3 does not write keeps its contents through it. -/
theorem keep3 (W : Valuation τ sig (Elt F)) (b : Ref sig .tc) (hb : b ∉ written3) :
    StableHlo.after hostOps3 W (Proc.devRef .tc b) = W (Proc.devRef .tc b) :=
  StableHlo.after_of_writes_sub hostOps3 W sub3 hb

end Cert.KernelIdeal.Keep

end
-- ==== Proof.Walk.lean ====
/-
  A buffer that no host operation writes and no region stages still holds, at any boundary between the segments of
  @main, what the launch memory gave it.  One lemma per boundary, each from the one before: a stretch of host
  operations keeps what it does not write, a region keeps every buffer that is not one of its windows' arrays, and an
  input window's array comes out of its region as it went in.
-/
import proofs.«164139_j1597727834590_1_alg».proof.Proof.Gen.KernelIdeal.Frame
import proofs.«164139_j1597727834590_1_alg».proof.Proof.Keep

noncomputable section

namespace Cert.KernelIdeal.Walk

open Idealize.ShloMosaic Idealize.ShloMosaic.TcCoe Idealize.SL.Sem
open Cert.KernelIdeal Cert.KernelIdeal.Gen Cert.KernelIdeal.Keep

variable {F : FTy → Type} [FloatOps F]
variable (m : (ℓ : Loc nD τ sig) → Buf (Elt F) ℓ) (ρ : Dev nD → PrngReg) (c : Dev nD) (b : Ref sig .tc)

/-- At region 0's entry. -/
theorem W1_eq (h0 : b ∉ written0) : W1 m ρ c (Proc.devRef .tc b) = m ((c : Thread nD τ).loc b) :=
  keep0 (W0 m ρ c) b h0

/-- At region 0's exit. -/
theorem W2_eq (h0 : b ∉ written0) (s0 : ∀ w, Pipeline.arrRef spec0 w ≠ b) :
    W2 m ρ c (Proc.devRef .tc b) = m ((c : Thread nD τ).loc b) :=
  (W2_of_ne m ρ c b s0).trans (W1_eq m ρ c b h0)

/-- At region 1's entry. -/
theorem W3_eq (h0 : b ∉ written0) (s0 : ∀ w, Pipeline.arrRef spec0 w ≠ b) (h1 : b ∉ written1) :
    W3 m ρ c (Proc.devRef .tc b) = m ((c : Thread nD τ).loc b) :=
  (keep1 (W2 m ρ c) b h1).trans (W2_eq m ρ c b h0 s0)

/-- At region 1's exit. -/
theorem W4_eq (h0 : b ∉ written0) (s0 : ∀ w, Pipeline.arrRef spec0 w ≠ b) (h1 : b ∉ written1)
    (s1 : ∀ w, Pipeline.arrRef spec1 w ≠ b) : W4 m ρ c (Proc.devRef .tc b) = m ((c : Thread nD τ).loc b) :=
  (W4_of_ne m ρ c b s1).trans (W3_eq m ρ c b h0 s0 h1)

/-- At region 2's entry. -/
theorem W5_eq (h0 : b ∉ written0) (s0 : ∀ w, Pipeline.arrRef spec0 w ≠ b) (h1 : b ∉ written1)
    (s1 : ∀ w, Pipeline.arrRef spec1 w ≠ b) (h2 : b ∉ written2) :
    W5 m ρ c (Proc.devRef .tc b) = m ((c : Thread nD τ).loc b) :=
  (keep2 (W4 m ρ c) b h2).trans (W4_eq m ρ c b h0 s0 h1 s1)

/-- The node table, an input window's array of region 2, at region 3's entry. -/
theorem W7_arg0 : W7 m ρ c (Proc.devRef .tc main_arg0) = m ((c : Thread nD τ).loc main_arg0) :=
  (keep3 (W6 m ρ c) main_arg0 (by decide)).trans
    (((W6_arr m ρ c 0).trans (((dat2 (V5 m ρ) c).arrAt_in 0 rfl _).trans (A_eq2 (V5 m ρ) c 0))).trans
      (W5_eq m ρ c main_arg0 (by decide) (by decide) (by decide) (by decide) (by decide)))

/-- The edge residual table, an input window's array of region 1, at region 1's entry. -/
theorem W3_arg1 : W3 m ρ c (Proc.devRef .tc main_arg1) = m ((c : Thread nD τ).loc main_arg1) :=
  W3_eq m ρ c main_arg1 (by decide) (by decide) (by decide)

/-- The edge half's result is not touched after region 1. -/
theorem W8_v27 : W8 m ρ c (Proc.devRef .tc main_v27) = W4 m ρ c (Proc.devRef .tc main_v27) :=
  (W8_of_ne m ρ c main_v27 (by decide)).trans ((keep3 (W6 m ρ c) main_v27 (by decide)).trans
    ((W6_of_ne m ρ c main_v27 (by decide)).trans (keep2 (W4 m ρ c) main_v27 (by decide))))

end Cert.KernelIdeal.Walk

end
-- ==== Proof.Spec.lean ====
/-
  The mathematics both programs compute, stated once, index by index, over the extended reals.

  A graph layer of two halves.  Each half takes a table `x` of `n` rows of 128 numbers, sends every row through a
  two-layer perceptron with a rectifier between the layers (`mlp`), normalizes each of the 128 columns of the result
  by the column's mean and variance over all `n` rows, scales by `γ`, shifts by `β` and adds a residual table
  (`bnOut`).  The two programs differ in one place only: the variance of a column is taken as the mean of the
  squares minus the square of the mean (`varMoments`) by one, and as the mean of the squared deviations from the
  mean (`varCentred`) by the other.  Over the reals these are one number; over the extended reals they are one
  number when every entry of the column is finite.  This module only names the functions; the laws are in
  Proof/SpecLaws.lean.
-/
import Idealize.ShloMosaic.PureOps.Ideal

noncomputable section

namespace Cert.Spec

open Idealize.ShloMosaic

variable {n : ℕ}

/-- One affine layer, row by row: entry `k` of row `r` of `x · W + b`. -/
def lin (x : Fin n → Fin 128 → EReal) (W : Fin 128 → Fin 128 → EReal) (b : Fin 128 → EReal)
    (r : Fin n) (k : Fin 128) : EReal :=
  (∑ l : Fin 128, x r l * W l k) + b k

/-- The two-layer perceptron: an affine layer, the rectifier `max · 0`, a second affine layer. -/
def mlp (x : Fin n → Fin 128 → EReal) (W1 : Fin 128 → Fin 128 → EReal) (b1 : Fin 128 → EReal)
    (W2 : Fin 128 → Fin 128 → EReal) (b2 : Fin 128 → EReal) (r : Fin n) (j : Fin 128) : EReal :=
  lin (fun r k => max (lin x W1 b1 r k) 0) W2 b2 r j

/-- The sum of column `j` over all rows. -/
def colSum (y : Fin n → Fin 128 → EReal) (j : Fin 128) : EReal := ∑ r : Fin n, y r j

/-- The sum of the squares of column `j` over all rows. -/
def colSumSq (y : Fin n → Fin 128 → EReal) (j : Fin 128) : EReal := ∑ r : Fin n, y r j * y r j

/-- The mean of column `j`: its sum divided by `N` (the number of rows as the programs spell it). -/
def meanOf (N : EReal) (y : Fin n → Fin 128 → EReal) (j : Fin 128) : EReal := Ideal.div (colSum y j) N

/-- The variance of column `j` from its first two moments: the mean of the squares minus the square of the mean. -/
def varMoments (N : EReal) (y : Fin n → Fin 128 → EReal) (j : Fin 128) : EReal :=
  Ideal.div (colSumSq y j) N - meanOf N y j * meanOf N y j

/-- The variance of column `j` as the mean of the squared deviations from the column's mean. -/
def varCentred (N : EReal) (y : Fin n → Fin 128 → EReal) (j : Fin 128) : EReal :=
  Ideal.div (∑ r : Fin n, (y r j - meanOf N y j) * (y r j - meanOf N y j)) N

/-- Normalize, scale, shift and add the residual, given each column's mean and variance:
    `(y - mean) · (var + ε)^(-1/2) · γ + β + res`, the operations in this order. -/
def bnOut (eps : EReal) (y : Fin n → Fin 128 → EReal) (mean var γ β : Fin 128 → EReal)
    (res : Fin n → Fin 128 → EReal) (r : Fin n) (j : Fin 128) : EReal :=
  (y r j - mean j) * Ideal.rsqrt (var j + eps) * γ j + β j + res r j

/-- The normalized half with the variance from the moments. -/
def bnMoments (N eps : EReal) (y : Fin n → Fin 128 → EReal) (γ β : Fin 128 → EReal)
    (res : Fin n → Fin 128 → EReal) : Fin n → Fin 128 → EReal :=
  bnOut eps y (meanOf N y) (varMoments N y) γ β res

/-- The normalized half with the variance from the deviations. -/
def bnCentred (N eps : EReal) (y : Fin n → Fin 128 → EReal) (γ β : Fin 128 → EReal)
    (res : Fin n → Fin 128 → EReal) : Fin n → Fin 128 → EReal :=
  bnOut eps y (meanOf N y) (varCentred N y) γ β res

end Cert.Spec

end
-- ==== Proof.SpecCongr.lean ====
/-
  Each function of Proof/Spec.lean depends on its table arguments only through the entries it reads: an entry of a
  layer's output on one row of the input, a column statistic on that column, the normalized entry on its own entry,
  its column's statistics and its column's scale and shift.  Stated so that two spellings of one table can be
  exchanged entry by entry.
-/
import proofs.«164139_j1597727834590_1_alg».proof.Proof.Spec

noncomputable section

namespace Cert.Spec

variable {n : ℕ}

theorem lin_congr {x x' : Fin n → Fin 128 → EReal} {W W' : Fin 128 → Fin 128 → EReal} {b b' : Fin 128 → EReal}
    (r : Fin n) (k : Fin 128) (hx : ∀ l, x r l = x' r l) (hW : ∀ l, W l k = W' l k) (hb : b k = b' k) :
    lin x W b r k = lin x' W' b' r k := by
  unfold lin
  rw [hb]
  congr 1
  exact Finset.sum_congr rfl fun l _ => by rw [hx l, hW l]

theorem mlp_congr {x x' : Fin n → Fin 128 → EReal} {W1 W1' W2 W2' : Fin 128 → Fin 128 → EReal}
    {b1 b1' b2 b2' : Fin 128 → EReal} (r : Fin n) (j : Fin 128) (hx : ∀ l, x r l = x' r l)
    (hW1 : ∀ l k, W1 l k = W1' l k) (hb1 : ∀ k, b1 k = b1' k) (hW2 : ∀ k, W2 k j = W2' k j) (hb2 : b2 j = b2' j) :
    mlp x W1 b1 W2 b2 r j = mlp x' W1' b1' W2' b2' r j := by
  unfold mlp
  exact lin_congr r j (fun k => by rw [lin_congr r k hx (fun l => hW1 l k) (hb1 k)]) hW2 hb2

theorem colSum_congr {y y' : Fin n → Fin 128 → EReal} (j : Fin 128) (h : ∀ r, y r j = y' r j) :
    colSum y j = colSum y' j := by
  unfold colSum; exact Finset.sum_congr rfl fun r _ => h r

theorem colSumSq_congr {y y' : Fin n → Fin 128 → EReal} (j : Fin 128) (h : ∀ r, y r j = y' r j) :
    colSumSq y j = colSumSq y' j := by
  unfold colSumSq; exact Finset.sum_congr rfl fun r _ => by rw [h r]

theorem meanOf_congr (N : EReal) {y y' : Fin n → Fin 128 → EReal} (j : Fin 128) (h : ∀ r, y r j = y' r j) :
    meanOf N y j = meanOf N y' j := by
  unfold meanOf; rw [colSum_congr j h]

theorem varMoments_congr (N : EReal) {y y' : Fin n → Fin 128 → EReal} (j : Fin 128) (h : ∀ r, y r j = y' r j) :
    varMoments N y j = varMoments N y' j := by
  unfold varMoments; rw [colSumSq_congr j h, meanOf_congr N j h]

theorem varCentred_congr (N : EReal) {y y' : Fin n → Fin 128 → EReal} (j : Fin 128) (h : ∀ r, y r j = y' r j) :
    varCentred N y j = varCentred N y' j := by
  unfold varCentred
  rw [meanOf_congr N j h]
  congr 1
  exact Finset.sum_congr rfl fun r _ => by rw [h r]

theorem bnOut_congr {eps : EReal} {y y' : Fin n → Fin 128 → EReal} {mean mean' var var' γ γ' β β' : Fin 128 → EReal}
    {res res' : Fin n → Fin 128 → EReal} (r : Fin n) (j : Fin 128) (hy : y r j = y' r j) (hm : mean j = mean' j)
    (hv : var j = var' j) (hγ : γ j = γ' j) (hβ : β j = β' j) (hr : res r j = res' r j) :
    bnOut eps y mean var γ β res r j = bnOut eps y' mean' var' γ' β' res' r j := by
  unfold bnOut; rw [hy, hm, hv, hγ, hβ, hr]

theorem bnMoments_congr {N eps : EReal} {y y' : Fin n → Fin 128 → EReal} {γ γ' β β' : Fin 128 → EReal}
    {res res' : Fin n → Fin 128 → EReal} (r : Fin n) (j : Fin 128) (hy : ∀ r, y r j = y' r j) (hγ : γ j = γ' j)
    (hβ : β j = β' j) (hr : res r j = res' r j) :
    bnMoments N eps y γ β res r j = bnMoments N eps y' γ' β' res' r j :=
  bnOut_congr r j (hy r) (meanOf_congr N j hy) (varMoments_congr N j hy) hγ hβ hr

theorem bnCentred_congr {N eps : EReal} {y y' : Fin n → Fin 128 → EReal} {γ γ' β β' : Fin 128 → EReal}
    {res res' : Fin n → Fin 128 → EReal} (r : Fin n) (j : Fin 128) (hy : ∀ r, y r j = y' r j) (hγ : γ j = γ' j)
    (hβ : β j = β' j) (hr : res r j = res' r j) :
    bnCentred N eps y γ β res r j = bnCentred N eps y' γ' β' res' r j :=
  bnOut_congr r j (hy r) (meanOf_congr N j hy) (varCentred_congr N j hy) hγ hβ hr

end Cert.Spec

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.SpecLaws.lean ====
/-
  The laws of Proof/Spec.lean's functions, over the general lemmas of Proof/LibEReal.lean (finite extended reals, the
  coercion of a finite sum, the variance identity over the reals).

  * On a table of finite entries each column statistic is the coercion of the same statistic of the real table; the
    variance of finitely many reals is the mean of their squares minus the square of their mean.  Over the
    extended reals the two sides differ at infinities (`⊤ - ⊤`), which is why every entry is required finite.
  * So the normalized half is the same function whichever way the variance is taken (`bnMoments_eq_bnCentred`), and
    its values are finite (`bnCentred_isReal`): a variance is nonnegative, `ε` is positive, and the inverse square
    root of a positive real is a real.
-/
import proofs.«164139_j1597727834590_1_alg».proof.Proof.Spec
import proofs.«164139_j1597727834590_1_alg».proof.Proof.LibEReal

noncomputable section

namespace Cert.Spec

open Idealize.ShloMosaic

variable {n : ℕ}

section Columns

variable (N : ℝ) (hN : N ≠ 0) (y : Fin n → Fin 128 → EReal) (g : Fin n → Fin 128 → ℝ)
  (hy : ∀ r j, y r j = (g r j : EReal))

include hy in
theorem colSum_coe (j : Fin 128) : colSum y j = ((∑ r, g r j : ℝ) : EReal) := by
  unfold colSum; rw [coe_sum]; exact Finset.sum_congr rfl fun r _ => hy r j

include hy in
theorem colSumSq_coe (j : Fin 128) : colSumSq y j = ((∑ r, g r j * g r j : ℝ) : EReal) := by
  unfold colSumSq; rw [coe_sum]
  exact Finset.sum_congr rfl fun r _ => by rw [hy r j, EReal.coe_mul]

include hN hy in
theorem meanOf_coe (j : Fin 128) : meanOf (N : EReal) y j = (((∑ r, g r j) * (1 / N) : ℝ) : EReal) := by
  unfold meanOf; rw [div_real _ hN, colSum_coe y g hy, EReal.coe_mul]

include hN hy in
theorem varMoments_coe (j : Fin 128) : varMoments (N : EReal) y j
    = (((∑ r, g r j * g r j) * (1 / N) - ((∑ r, g r j) * (1 / N)) * ((∑ r, g r j) * (1 / N)) : ℝ) : EReal) := by
  unfold varMoments
  rw [div_real _ hN, colSumSq_coe y g hy, meanOf_coe N hN y g hy]
  simp only [EReal.coe_sub, EReal.coe_mul]

include hN hy in
theorem varCentred_coe (j : Fin 128) : varCentred (N : EReal) y j
    = (((∑ r, (g r j - (∑ r, g r j) * (1 / N)) * (g r j - (∑ r, g r j) * (1 / N))) * (1 / N) : ℝ) : EReal) := by
  unfold varCentred
  rw [div_real _ hN, meanOf_coe N hN y g hy]
  have e : ∀ r, (y r j - (((∑ r, g r j) * (1 / N) : ℝ) : EReal)) * (y r j - (((∑ r, g r j) * (1 / N) : ℝ) : EReal))
      = (((g r j - (∑ r, g r j) * (1 / N)) * (g r j - (∑ r, g r j) * (1 / N)) : ℝ) : EReal) :=
    fun r => by rw [hy r j, ← EReal.coe_sub, ← EReal.coe_mul]
  simp only [e]
  rw [← coe_sum, ← EReal.coe_mul]

end Columns

/-- On a table of finite entries the two variances are one. -/
theorem varMoments_eq_varCentred (N : ℝ) (hN : N ≠ 0) (hcard : (n : ℝ) = N) (y : Fin n → Fin 128 → EReal)
    (hy : ∀ r j, IsReal (y r j)) : varMoments (N : EReal) y = varCentred (N : EReal) y := by
  choose g hg using hy
  funext j
  rw [varMoments_coe N hN y g hg, varCentred_coe N hN y g hg]
  congr 1
  exact var_real (fun r => g r j) N hN (by rw [Fintype.card_fin]; exact hcard)

/-- So the normalized half does not depend on the way the variance is taken. -/
theorem bnMoments_eq_bnCentred (N : ℝ) (hN : N ≠ 0) (hcard : (n : ℝ) = N) (eps : EReal) (y : Fin n → Fin 128 → EReal)
    (hy : ∀ r j, IsReal (y r j)) (γ β : Fin 128 → EReal) (res : Fin n → Fin 128 → EReal) :
    bnMoments (N : EReal) eps y γ β res = bnCentred (N : EReal) eps y γ β res := by
  unfold bnMoments bnCentred
  rw [varMoments_eq_varCentred N hN hcard y hy]

/-! ## Finiteness of the two halves' values -/

theorem lin_isReal (x : Fin n → Fin 128 → EReal) (W : Fin 128 → Fin 128 → EReal) (b : Fin 128 → EReal)
    (hx : ∀ r l, IsReal (x r l)) (hW : ∀ l k, IsReal (W l k)) (hb : ∀ k, IsReal (b k)) (r : Fin n) (k : Fin 128) :
    IsReal (lin x W b r k) :=
  (IsReal.sum _ _ fun l => (hx r l).mul (hW l k)).add (hb k)

theorem mlp_isReal (x : Fin n → Fin 128 → EReal) (W1 : Fin 128 → Fin 128 → EReal) (b1 : Fin 128 → EReal)
    (W2 : Fin 128 → Fin 128 → EReal) (b2 : Fin 128 → EReal)
    (hx : ∀ r l, IsReal (x r l)) (hW1 : ∀ l k, IsReal (W1 l k)) (hb1 : ∀ k, IsReal (b1 k))
    (hW2 : ∀ l k, IsReal (W2 l k)) (hb2 : ∀ k, IsReal (b2 k)) (r : Fin n) (j : Fin 128) :
    IsReal (mlp x W1 b1 W2 b2 r j) :=
  lin_isReal _ W2 b2 (fun r k => (lin_isReal x W1 b1 hx hW1 hb1 r k).max_zero) hW2 hb2 r j

/-- The normalized half of a finite table with finite scale, shift and residual is finite: the variance is a
    nonnegative real, `ε` a positive one, so the inverse square root is taken of a positive real. -/
theorem bnCentred_isReal (N : ℝ) (hN : 0 < N) (ε : ℝ) (hε : 0 < ε) (y : Fin n → Fin 128 → EReal)
    (hy : ∀ r j, IsReal (y r j)) (γ β : Fin 128 → EReal) (hγ : ∀ k, IsReal (γ k)) (hβ : ∀ k, IsReal (β k))
    (res : Fin n → Fin 128 → EReal) (hres : ∀ r j, IsReal (res r j)) (r : Fin n) (j : Fin 128) :
    IsReal (bnCentred (N : EReal) (ε : EReal) y γ β res r j) := by
  choose g hg using hy
  unfold bnCentred bnOut
  rw [varCentred_coe N hN.ne' y g hg, meanOf_coe N hN.ne' y g hg, hg r j, ← EReal.coe_add, rsqrt_pos]
  · exact ((((IsReal.coe _).sub (IsReal.coe _)).mul (IsReal.coe _)).mul (hγ j)).add (hβ j) |>.add (hres r j)
  · have h0 : 0 ≤ (∑ r, (g r j - (∑ r, g r j) * (1 / N)) * (g r j - (∑ r, g r j) * (1 / N))) * (1 / N) :=
      mul_nonneg (Finset.sum_nonneg fun r _ => mul_self_nonneg _) (by positivity)
    linarith

end Cert.Spec

end
-- ==== Proof.Edge1Pay.lean ====
/-
  The arithmetic of one block of the edge half, read entry by entry over the extended reals.

  A block is 8000 rows of 128 numbers.  The body sends every row through the two-layer perceptron
  (an affine layer, the rectifier, a second affine layer): entry `(r, j)` of the result is
  `Cert.Spec.mlp` of the block's rows at `(r, j)`.  It then adds, to a running row of 128 numbers,
  the block's column sums, and to a second running row the column sums of the squares.  A change of
  number format is the identity on extended reals, a matrix product into a zero accumulator is the
  plain sum over the contracted coordinate, and the zero word is the number 0.
-/
import proofs.«164139_j1597727834590_1_alg».proof.Proof.Spec
import proofs.«164139_j1597727834590_1_alg».proof.Proof.Gen.KernelIdeal.Skeleton
import Idealize.ShloMosaic.Lib.ValueLayout
import Idealize.ShloMosaic.PureOps.Ideal.Laws

noncomputable section

namespace Cert.KernelIdeal.Edge1

open Idealize.ShloMosaic Idealize.ShloMosaic.ValueIdx
open Cert.KernelIdeal Cert.KernelIdeal.Gen

/-- The product of an 8000×128 block by a 128×128 matrix into the zero accumulator, at `(r, k)`:
    the sum over the contracted coordinate `l` of `A (r, l) * B (l, k)`. -/
theorem matmul_apply {φ₁ φ₂ : FTy} (A : FVec Ideal S8000x128 φ₁) (B : FVec Ideal S128x128 φ₂)
    (r : Fin 8000) (k : Fin 128) :
    matmul dot_S8000x128_S128x128_S8000x128_1_0_0_1_n_n none A B
        (constant (F := Ideal) S8000x128 .f32 0x00000000#32) (ix2 r k)
      = ∑ l : Fin 128, A (ix2 r l) * B (ix2 l k) := by
  show FloatOps.matmul dot_S8000x128_S128x128_S8000x128_1_0_0_1_n_n none A B _ (ix2 r k) = _
  rw [Ideal.matmul_constant_zero_apply,
    ← Equiv.sum_comp (contrEquiv1 dot_S8000x128_S128x128_S8000x128_1_0_0_1_n_n 128 rfl rfl).symm]
  refine Finset.sum_congr rfl fun c _ => ?_
  have c2 := contrEquiv1_symm_val dot_S8000x128_S128x128_S8000x128_1_0_0_1_n_n 128 rfl rfl c
  have l2 : dot_S8000x128_S128x128_S8000x128_1_0_0_1_n_n.lhsIdx (ix2 r k)
      ((contrEquiv1 dot_S8000x128_S128x128_S8000x128_1_0_0_1_n_n 128 rfl rfl).symm c) = ix2 r c := by
    funext ax; apply Fin.ext
    match ax with
    | ⟨0, _⟩ => simp [DotDims.lhsIdx, dot_S8000x128_S128x128_S8000x128_1_0_0_1_n_n]; rfl
    | ⟨1, _⟩ =>
      exact (DotDims.lhsIdx_val_of_single dot_S8000x128_S128x128_S8000x128_1_0_0_1_n_n
        (cl := (1 : Fin 2)) rfl (ix2 r k) _).trans c2
  have r2 : dot_S8000x128_S128x128_S8000x128_1_0_0_1_n_n.rhsIdx (ix2 r k)
      ((contrEquiv1 dot_S8000x128_S128x128_S8000x128_1_0_0_1_n_n 128 rfl rfl).symm c) = ix2 c k := by
    funext ax; apply Fin.ext
    match ax with
    | ⟨0, _⟩ =>
      exact (DotDims.rhsIdx_val_of_single dot_S8000x128_S128x128_S8000x128_1_0_0_1_n_n
        (cr := (0 : Fin 2)) rfl (ix2 r k) _).trans c2
    | ⟨1, _⟩ => simp [DotDims.rhsIdx, dot_S8000x128_S128x128_S8000x128_1_0_0_1_n_n]; rfl
  rw [l2, r2]

/-- The sum over the 8000 rows of a block, kept as a row: entry `j` is the sum of column `j`. -/
theorem colsum_apply (src : FVec Ideal S8000x128 .f32) (hφ : FKind.Formats .f32)
    (hacc : (0x00000000#32 : BitVec 32) = FKind.add.neutral .f32 hφ) (j : Fin 128) :
    multiReduction .add [0] S128 src 0x00000000#32 reduces_S8000x128_S128 hφ hacc (ix1 j)
      = ∑ r : Fin 8000, src (ix2 r j) := by
  refine (Ideal.multiReduction_add_single src 0x00000000#32 reduces_S8000x128_S128 hφ hacc (ix1 j)).trans ?_
  refine Finset.sum_congr rfl fun r _ => congrArg src ?_
  funext ax
  match ax with
  | ⟨0, _⟩ => exact Fin.ext rfl
  | ⟨1, _⟩ => exact Fin.ext rfl

/-- THE BLOCK'S PERCEPTRON at `(r, j)`: `Cert.Spec.mlp` of the block's rows, the two weight matrices and the
    two bias rows (each a 1×128 array, read at its one row). -/
theorem pay4_apply (x : Vec Ideal S8000x128 .f32) (W1 : Vec Ideal S128x128 .f32) (b1 : Vec Ideal S1x128 .f32)
    (W2 : Vec Ideal S128x128 .f32) (b2 : Vec Ideal S1x128 .f32) (r : Fin 8000) (j : Fin 128) :
    k0_pay4 (F := Ideal) x W1 b1 W2 b2 (ix2 r j)
      = Cert.Spec.mlp (fun r l => x (ix2 r l)) (fun l k => W1 (ix2 l k)) (fun k => b1 (ix2 (0 : Fin 1) k))
          (fun l k => W2 (ix2 l k)) (fun k => b2 (ix2 (0 : Fin 1) k)) r j := by
  unfold k0_pay4 Cert.Spec.mlp Cert.Spec.lin
  refine congrArg₂ (· + ·) ((matmul_apply _ _ r j).trans (Finset.sum_congr rfl fun l _ => ?_))
    ((broadcastTo_1b_ab_apply _ _ r j).trans (congrFun (shapeCast_self b2 _) _))
  refine congrArg₂ (· * ·) (congrArg₂ max (congrArg₂ (· + ·)
    ((matmul_apply _ _ r l).trans (Finset.sum_congr rfl fun l' _ =>
      congrArg₂ (· * ·) (congrFun (shapeCast_self x _) _) rfl))
    ((broadcastTo_1b_ab_apply _ _ r l).trans (congrFun (shapeCast_self b1 _) _))) Ideal.ofBits_zero_f32) rfl

/-- THE RUNNING COLUMN SUMS: the row `acc` plus the block's column sums. -/
theorem pay5_apply (x : Vec Ideal S8000x128 .f32) (W1 : Vec Ideal S128x128 .f32) (b1 : Vec Ideal S1x128 .f32)
    (W2 : Vec Ideal S128x128 .f32) (b2 : Vec Ideal S1x128 .f32) (acc : Vec Ideal S1x128 .f32) (j : Fin 128) :
    k0_pay5 (F := Ideal) x W1 b1 W2 b2 acc (ix2 (0 : Fin 1) j)
      = acc (ix2 (0 : Fin 1) j) + ∑ r : Fin 8000, k0_pay4 (F := Ideal) x W1 b1 W2 b2 (ix2 r j) := by
  unfold k0_pay5
  exact congrArg₂ (· + ·) (congrFun (shapeCast_self acc _) _)
    ((shapeCast_a_1a_apply _ _ (0 : Fin 1) j).trans (colsum_apply _ _ _ j))

/-- THE RUNNING COLUMN SUMS OF SQUARES: the row `acc` plus the column sums of the squared entries of `y`. -/
theorem pay1_apply (y : FVec Ideal S8000x128 .f32) (acc : FVec Ideal S1x128 .f32) (j : Fin 128) :
    k0_pay1 (F := Ideal) y acc (ix2 (0 : Fin 1) j)
      = acc (ix2 (0 : Fin 1) j) + ∑ r : Fin 8000, y (ix2 r j) * y (ix2 r j) := by
  unfold k0_pay1
  exact congrArg₂ (· + ·) rfl
    ((shapeCast_a_1a_apply _ _ (0 : Fin 1) j).trans (colsum_apply _ _ _ j))

/-- The row the first point stores before accumulating is the zero row (the sums' one), -/
theorem pay2_apply (i : S1x128.Idx) : k0_pay2 (F := Ideal) i = 0 := Ideal.ofBits_zero_f32
/-- and so is the sums of squares' one. -/
theorem pay3_apply (i : S1x128.Idx) : k0_pay3 (F := Ideal) i = 0 := Ideal.ofBits_zero_f32
/-- Reading the running row back changes nothing. -/
theorem pay6_eq (v : Vec Ideal S1x128 .f32) : k0_pay6 (F := Ideal) v = v := shapeCast_self v _

end Cert.KernelIdeal.Edge1

end
-- ==== Proof.Edge1Def.lean ====
/-
  The edge half's perceptron values as a function of the arrays the region finds.
-/
import proofs.«164139_j1597727834590_1_alg».proof.Proof.Spec
import proofs.«164139_j1597727834590_1_alg».proof.Proof.Gen.KernelIdeal
import Idealize.ShloMosaic.Lib.ValueIdx

noncomputable section

namespace Cert.KernelIdeal.Edge1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- THE EDGE HALF'S PERCEPTRON VALUES, as a function of the arrays the region finds: the table `x` of 800000
    rows, the two weight matrices, the two bias rows (1×128 arrays read at their one row). -/
abbrev yOf (c : Dev nD) : Fin 800000 → Fin 128 → EReal :=
  Cert.Spec.mlp (fun r l => V c main_v15 (ix2 r l)) (fun l k => V c main_arg8 (ix2 l k))
    (fun k => V c main_v16 (ix2 (0 : Fin 1) k)) (fun l k => V c main_arg10 (ix2 l k))
    (fun k => V c main_v17 (ix2 (0 : Fin 1) k))

end Cert.KernelIdeal.Edge1

end
-- ==== Proof.Edge1Sum.lean ====
/-
  Two facts that speak of no program.

  A running total that starts at zero plus the first addend and takes one addend per step is, after the
  last step, the sum of all the addends.  And a row's perceptron values depend on that row only.
-/
import proofs.«164139_j1597727834590_1_alg».proof.Proof.Spec

noncomputable section

namespace Cert.KernelIdeal.Edge1

/-- The running total after step `n` is the sum of the addends up to `n`. -/
theorem acc_sum {N : ℕ} (f a : (n : ℕ) → n < N → EReal)
    (h0 : ∀ h, f 0 h = 0 + a 0 h)
    (hs : ∀ n (h : n + 1 < N), f (n + 1) h = f n (Nat.lt_of_succ_lt h) + a (n + 1) h) :
    ∀ (n : ℕ) (h : n < N), f n h = ∑ s : Fin (n + 1), a s.val (Nat.lt_of_lt_of_le s.isLt h)
  | 0, h => by rw [h0 h, zero_add, Fin.sum_univ_one]; rfl
  | n + 1, h => by
    rw [hs n h, acc_sum f a h0 hs n (Nat.lt_of_succ_lt h)]
    exact (Fin.sum_univ_castSucc (fun s : Fin (n + 1 + 1) => a s.val (Nat.lt_of_lt_of_le s.isLt h))).symm

/-- After the last step it is the sum of all of them. -/
theorem acc_total {N : ℕ} (f a : (n : ℕ) → n < N → EReal)
    (h0 : ∀ h, f 0 h = 0 + a 0 h)
    (hs : ∀ n (h : n + 1 < N), f (n + 1) h = f n (Nat.lt_of_succ_lt h) + a (n + 1) h)
    (n : ℕ) (h : n < N) (hlast : n + 1 = N) : f n h = ∑ s : Fin N, a s.val s.isLt := by
  subst hlast
  exact acc_sum f a h0 hs n h

/-- A row's perceptron values depend on that row only. -/
theorem mlp_row {n n' : ℕ} (x : Fin n → Fin 128 → EReal) (x' : Fin n' → Fin 128 → EReal)
    (W1 : Fin 128 → Fin 128 → EReal) (b1 : Fin 128 → EReal) (W2 : Fin 128 → Fin 128 → EReal) (b2 : Fin 128 → EReal)
    (r : Fin n) (r' : Fin n') (h : ∀ l, x r l = x' r' l) (j : Fin 128) :
    Cert.Spec.mlp x W1 b1 W2 b2 r j = Cert.Spec.mlp x' W1 b1 W2 b2 r' j := by
  unfold Cert.Spec.mlp Cert.Spec.lin
  simp only [h]

end Cert.KernelIdeal.Edge1

end
-- ==== Proof.Edge1Blk.lean ====
/-
  A block of the edge half's table is a stretch of its rows.

  The table `x` has 800000 rows of 128 numbers; grid point `t` of 100 reads rows `8000 t … 8000 t + 7999`:
  row `r` of the block is row `8000 t + r` of the table.  The two weight matrices and the two bias rows
  are read whole at every point.  So the block's perceptron values at `(r, j)` are the table's
  perceptron values `yOf` at `(8000 t + r, j)`.
-/
import proofs.«164139_j1597727834590_1_alg».proof.Proof.SpecLaws
import proofs.«164139_j1597727834590_1_alg».proof.Proof.Edge1Pay
import proofs.«164139_j1597727834590_1_alg».proof.Proof.Edge1Def
import proofs.«164139_j1597727834590_1_alg».proof.Proof.Edge1Sum
import proofs.«164139_j1597727834590_1_alg».proof.Proof.Gen.KernelIdeal.Frame

noncomputable section

namespace Cert.KernelIdeal.Edge1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- 100 blocks of 8000 rows are the 800000 rows. -/
theorem hTB : cfg0.N * 8000 = 800000 := by rw [show cfg0.N = 100 from N_0]

/-- The printed index maps, decided once over the grid: the table's and the first output's block index is
    the point on the row axis and zero on the column axis; every other window's is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `r` of the table's block at point `t` is row `8000 t + r` of the table. -/
theorem iblk_x (c : Dev nD) (t : Fin cfg0.N) (r : Fin 8000) (l : Fin 128) :
    (iblk0 V c 0 t : Vec Ideal S8000x128 .f32) (ix2 r l) = V c main_v15 (ix2 (Cert.Spec.blockIdx hTB t r) l) := by
  obtain ⟨e0, e1, -⟩ := idx_facts t
  unfold iblk0
  rw [View.read_apply]
  show V c main_v15 _ = V c main_v15 _
  congr 1
  funext a
  apply Fin.ext
  match a with
  | ⟨0, _⟩ => show win0_0.index t (0 : Fin 2) * 8000 + 1 * r.val = t.val * 8000 + r.val; rw [e0]; omega
  | ⟨1, _⟩ => show win0_0.index t (1 : Fin 2) * 128 + 1 * l.val = l.val; rw [e1]; omega

/-- The first weight matrix is read whole. -/
theorem iblk_W1 (c : Dev nD) (t : Fin cfg0.N) (l k : Fin 128) :
    (iblk0 V c 1 t : Vec Ideal S128x128 .f32) (ix2 l k) = V c main_arg8 (ix2 l k) := by
  obtain ⟨-, -, e0, e1, -⟩ := idx_facts t
  unfold iblk0
  rw [View.read_apply]
  show V c main_arg8 _ = V c main_arg8 _
  congr 1
  funext a
  apply Fin.ext
  match a with
  | ⟨0, _⟩ => show win0_1.index t (0 : Fin 2) * 128 + 1 * l.val = l.val; rw [e0]; omega
  | ⟨1, _⟩ => show win0_1.index t (1 : Fin 2) * 128 + 1 * k.val = k.val; rw [e1]; omega

/-- The first bias row is read whole. -/
theorem iblk_b1 (c : Dev nD) (t : Fin cfg0.N) (k : Fin 128) :
    (iblk0 V c 2 t : Vec Ideal S1x128 .f32) (ix2 (0 : Fin 1) k) = V c main_v16 (ix2 (0 : Fin 1) k) := by
  obtain ⟨-, -, -, -, e0, e1, -⟩ := idx_facts t
  unfold iblk0
  rw [View.read_apply]
  show V c main_v16 _ = V c main_v16 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

/-- The second weight matrix is read whole. -/
theorem iblk_W2 (c : Dev nD) (t : Fin cfg0.N) (l k : Fin 128) :
    (iblk0 V c 3 t : Vec Ideal S128x128 .f32) (ix2 l k) = V c main_arg10 (ix2 l k) := by
  obtain ⟨-, -, -, -, -, -, e0, e1, -⟩ := idx_facts t
  unfold iblk0
  rw [View.read_apply]
  show V c main_arg10 _ = V c main_arg10 _
  congr 1
  funext a
  apply Fin.ext
  match a with
  | ⟨0, _⟩ => show win0_3.index t (0 : Fin 2) * 128 + 1 * l.val = l.val; rw [e0]; omega
  | ⟨1, _⟩ => show win0_3.index t (1 : Fin 2) * 128 + 1 * k.val = k.val; rw [e1]; omega

/-- The second bias row is read whole. -/
theorem iblk_b2 (c : Dev nD) (t : Fin cfg0.N) (k : Fin 128) :
    (iblk0 V c 4 t : Vec Ideal S1x128 .f32) (ix2 (0 : Fin 1) k) = V c main_v17 (ix2 (0 : Fin 1) k) := by
  obtain ⟨-, -, -, -, -, -, -, -, e0, e1, -⟩ := idx_facts t
  unfold iblk0
  rw [View.read_apply]
  show V c main_v17 _ = V c main_v17 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * k.val = k.val; rw [e1]; omega

/-- The block of perceptron values point `t` computes. -/
def yBlk (c : Dev nD) (t : Fin cfg0.N) : Vec Ideal S8000x128 .f32 :=
  k0_pay4 (F := Ideal) (iblk0 V c 0 t) (iblk0 V c 1 t) (iblk0 V c 2 t) (iblk0 V c 3 t) (iblk0 V c 4 t)

/-- THE BLOCK IS A STRETCH OF THE TABLE'S VALUES: entry `(r, j)` of point `t`'s block is `yOf` at row `8000 t + r`. -/
theorem yBlk_apply (c : Dev nD) (t : Fin cfg0.N) (r : Fin 8000) (j : Fin 128) :
    yBlk V c t (ix2 r j) = yOf V c (Cert.Spec.blockIdx hTB t r) j := by
  unfold yBlk
  refine (pay4_apply _ _ _ _ _ r j).trans ?_
  simp only [iblk_W1, iblk_b1, iblk_W2, iblk_b2]
  exact mlp_row _ _ _ _ _ _ r _ (fun l => iblk_x V c t r l) j

end Cert.KernelIdeal.Edge1

end
-- ==== Proof.Edge1Case.lean ====
/-
  What one grid point of the edge half leaves in its three output blocks, as values.

  The body has two cases.  At the first point it stores the zero row into both running rows, then
  proceeds as at every other point: it stores the block's perceptron values into the first output
  block, adds the block's column sums to the first running row and the column sums of the squares
  to the second.  Each output block is written by covering stores, so what it holds afterwards is
  the last store's value: at the first point the running rows start from the zero row, at the
  others from what the point before left.
-/
import proofs.«164139_j1597727834590_1_alg».proof.Proof.Gen.KernelIdeal.Frame
import Idealize.ShloMosaic.Lib.Pipeline.Value
import Idealize.ShloMosaic.Lib.Tactic

noncomputable section

namespace Cert.KernelIdeal.Edge1

open Idealize.ShloMosaic Idealize.ShloMosaic.TcCoe Idealize.SL.Sem
open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- The first output block after the first point: the block's perceptron values. -/
theorem out_A_5 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S8000x128 .f32) (x1 : Vec F S128x128 .f32) (x2 : Vec F S1x128 .f32) (x3 : Vec F S128x128 .f32) (x4 : Vec F S1x128 .f32) :
    out0_A_5 c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S8000x128) hz, View.ld_unit_zero (S := S128x128) hz, View.ld_unit_zero (S := S1x128) hz]

/-- The first output block after any later point: the block's perceptron values. -/
theorem out_B_5 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S8000x128 .f32) (x1 : Vec F S128x128 .f32) (x2 : Vec F S1x128 .f32) (x3 : Vec F S128x128 .f32) (x4 : Vec F S1x128 .f32) (xo6 xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, View.ld_unit_zero (S := S8000x128) hz, View.ld_unit_zero (S := S128x128) hz, View.ld_unit_zero (S := S1x128) hz]

/-- The running row of column sums after the first point: the zero row plus the block's column sums. -/
theorem out_A_6 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S8000x128 .f32) (x1 : Vec F S128x128 .f32) (x2 : Vec F S1x128 .f32) (x3 : Vec F S128x128 .f32) (x4 : Vec F S1x128 .f32) :
    out0_A_6 c i arg1 harg1 arg2 harg2 arg3 harg3 arg4 harg4 arg5 harg5 arg6 harg6 arg7 harg7 arg8 harg8 hc0 x0 x1 x2 x3 x4 = k0_pay5 x0 x1 x2 x3 x4 k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S8000x128) hz, View.ld_unit_zero (S := S128x128) hz, View.ld_unit_zero (S := S1x128) hz]

/-- The running row of column sums after a later point: what the point before left plus the block's column sums. -/
theorem out_B_6 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S8000x128 .f32) (x1 : Vec F S128x128 .f32) (x2 : Vec F S1x128 .f32) (x3 : Vec F S128x128 .f32) (x4 : Vec F S1x128 .f32) (xo6 xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, View.ld_unit_zero (S := S8000x128) hz, View.ld_unit_zero (S := S128x128) hz, View.ld_unit_zero (S := S1x128) hz]

/-- The running row of column sums of squares after the first point: from the zero row. -/
theorem out_A_7 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S8000x128 .f32) (x1 : Vec F S128x128 .f32) (x2 : Vec F S1x128 .f32) (x3 : Vec F S128x128 .f32) (x4 : Vec F S1x128 .f32) :
    out0_A_7 c i arg1 harg1 arg2 harg2 arg3 harg3 arg4 harg4 arg5 harg5 arg6 harg6 arg7 harg7 arg8 harg8 hc0 x0 x1 x2 x3 x4 = k0_pay1 (k0_pay4 x0 x1 x2 x3 x4) (k0_pay6 k0_pay3) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S8000x128) hz, View.ld_unit_zero (S := S128x128) hz, View.ld_unit_zero (S := S1x128) hz]

/-- The running row of column sums of squares after a later point: from what the point before left. -/
theorem out_B_7 (c : Dev nD) (i : grid0.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S8000x128 .f32) (x1 : Vec F S128x128 .f32) (x2 : Vec F S1x128 .f32) (x3 : Vec F S128x128 .f32) (x4 : Vec F S1x128 .f32) (xo6 xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay1 (k0_pay4 x0 x1 x2 x3 x4) (k0_pay6 xo7) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg8.read_unread, View.ld_unit_zero (S := S8000x128) hz, View.ld_unit_zero (S := S128x128) hz, View.ld_unit_zero (S := S1x128) hz]

end Cert.KernelIdeal.Edge1

end
-- ==== Proof.Edge1Acc.lean ====
/-
  The edge half's three output blocks after each grid point, by induction on the point.

  After point `n` the first output block holds the perceptron values of block `n`; the running row of
  column sums holds the sum, over the points up to `n`, of each block's column sums; the running row of
  column sums of squares likewise.  The first point starts both rows from zero, every later point adds
  to what the point before left.  After the last point the rows hold the sums over all 100 blocks.
-/
import proofs.«164139_j1597727834590_1_alg».proof.Proof.Edge1Blk
import proofs.«164139_j1597727834590_1_alg».proof.Proof.Edge1Case

noncomputable section

namespace Cert.KernelIdeal.Edge1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Every point but the first is in the accumulating case. -/
theorem not_first (n : ℕ) (h : n + 1 < cfg0.N) : ¬(⟨n + 1, h⟩ : Fin cfg0.N).val % 100 = 0 := by
  have hN : cfg0.N = 100 := N_0
  dsimp only
  omega

/-- After every point the first output block holds that point's block of perceptron values. -/
theorem y_at (c : Dev nD) : ∀ (n : ℕ) (h : n < cfg0.N), (outsAt0 V c n h).1 = yBlk V c ⟨n, h⟩
  | 0, h => by
    rw [outsAt0_A V c ⟨0, h⟩ rfl]
    dsimp only
    rw [out_A_5]
    rfl
  | n + 1, h => by
    rw [outsAt0_B V c ⟨n + 1, h⟩ (not_first n h)]
    dsimp only
    rw [out_B_5]
    rfl

/-- The running row of column sums after the first point. -/
theorem sum_zero (c : Dev nD) (j : Fin 128) (h : 0 < cfg0.N) :
    (outsAt0 V c 0 h).2.1 (ix2 (0 : Fin 1) j) = 0 + ∑ r : Fin 8000, yBlk V c ⟨0, h⟩ (ix2 r j) := by
  rw [outsAt0_A V c ⟨0, h⟩ rfl]
  dsimp only
  rw [out_A_6, pay5_apply, pay2_apply]
  rfl

/-- The running row of column sums after a later point. -/
theorem sum_succ (c : Dev nD) (j : Fin 128) (n : ℕ) (h : n + 1 < cfg0.N) :
    (outsAt0 V c (n + 1) h).2.1 (ix2 (0 : Fin 1) j)
      = (outsAt0 V c n (Nat.lt_of_succ_lt h)).2.1 (ix2 (0 : Fin 1) j) + ∑ r : Fin 8000, yBlk V c ⟨n + 1, h⟩ (ix2 r j) := by
  rw [outsAt0_B V c ⟨n + 1, h⟩ (not_first n h)]
  dsimp only
  rw [out_B_6, pay5_apply]
  rfl

/-- The running row of column sums of squares after the first point. -/
theorem sumsq_zero (c : Dev nD) (j : Fin 128) (h : 0 < cfg0.N) :
    (outsAt0 V c 0 h).2.2 (ix2 (0 : Fin 1) j)
      = 0 + ∑ r : Fin 8000, yBlk V c ⟨0, h⟩ (ix2 r j) * yBlk V c ⟨0, h⟩ (ix2 r j) := by
  rw [outsAt0_A V c ⟨0, h⟩ rfl]
  dsimp only
  rw [out_A_7, pay1_apply, pay6_eq, pay3_apply]
  rfl

/-- The running row of column sums of squares after a later point. -/
theorem sumsq_succ (c : Dev nD) (j : Fin 128) (n : ℕ) (h : n + 1 < cfg0.N) :
    (outsAt0 V c (n + 1) h).2.2 (ix2 (0 : Fin 1) j)
      = (outsAt0 V c n (Nat.lt_of_succ_lt h)).2.2 (ix2 (0 : Fin 1) j)
        + ∑ r : Fin 8000, yBlk V c ⟨n + 1, h⟩ (ix2 r j) * yBlk V c ⟨n + 1, h⟩ (ix2 r j) := by
  rw [outsAt0_B V c ⟨n + 1, h⟩ (not_first n h)]
  dsimp only
  rw [out_B_7, pay1_apply, pay6_eq]
  rfl

/-- AFTER THE LAST POINT the running row of column sums holds each column's sum over all 800000 rows. -/
theorem sum_last (c : Dev nD) (j : Fin 128) (t : Fin cfg0.N) (hlast : t.val + 1 = cfg0.N) :
    (outsAt0 V c t.val t.isLt).2.1 (ix2 (0 : Fin 1) j) = Cert.Spec.colSum (yOf V c) j := by
  rw [acc_total (fun n h => (outsAt0 V c n h).2.1 (ix2 (0 : Fin 1) j))
    (fun n h => ∑ r : Fin 8000, yBlk V c ⟨n, h⟩ (ix2 r j))
    (fun h => sum_zero V c j h) (fun n h => sum_succ V c j n h) t.val t.isLt hlast]
  unfold Cert.Spec.colSum
  rw [Cert.Spec.sum_blocks hTB]
  exact Finset.sum_congr rfl fun s _ => Finset.sum_congr rfl fun r _ => yBlk_apply V c s r j

/-- AFTER THE LAST POINT the running row of column sums of squares holds each column's sum of squares over all rows. -/
theorem sumsq_last (c : Dev nD) (j : Fin 128) (t : Fin cfg0.N) (hlast : t.val + 1 = cfg0.N) :
    (outsAt0 V c t.val t.isLt).2.2 (ix2 (0 : Fin 1) j) = Cert.Spec.colSumSq (yOf V c) j := by
  rw [acc_total (fun n h => (outsAt0 V c n h).2.2 (ix2 (0 : Fin 1) j))
    (fun n h => ∑ r : Fin 8000, yBlk V c ⟨n, h⟩ (ix2 r j) * yBlk V c ⟨n, h⟩ (ix2 r j))
    (fun h => sumsq_zero V c j h) (fun n h => sumsq_succ V c j n h) t.val t.isLt hlast]
  unfold Cert.Spec.colSumSq
  rw [Cert.Spec.sum_blocks hTB]
  exact Finset.sum_congr rfl fun s _ => Finset.sum_congr rfl fun r _ => by rw [yBlk_apply V c s r j]

end Cert.KernelIdeal.Edge1

end
-- ==== Proof.Edge1Final.lean ====
/-
  The edge half's three result arrays after the region's last grid point.

  The first output is written back at every point, block `t` onto rows `8000 t … 8000 t + 7999`: the 100
  blocks tile the 800000 rows, so the array ends holding the perceptron values of every row.  The two running
  rows are written back once, after the last point, when they hold the sums over all rows; their one block
  is their whole array.
-/
import proofs.«164139_j1597727834590_1_alg».proof.Proof.Edge1Acc
import Idealize.ShloMosaic.Lib.Pipeline.Value

noncomputable section

namespace Cert.KernelIdeal.Edge1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The array of perceptron values, -/
def arrY (c : Dev nD) : Buf (Elt Ideal) ((c : Thread nD τ).loc main_v20_0) := fun i => yOf V c (i 0) (i 1)
/-- the row of column sums, -/
def arrSum (c : Dev nD) : Buf (Elt Ideal) ((c : Thread nD τ).loc main_v20_1) := fun i => Cert.Spec.colSum (yOf V c) (i 1)
/-- and the row of column sums of squares. -/
def arrSumSq (c : Dev nD) : Buf (Elt Ideal) ((c : Thread nD τ).loc main_v20_2) := fun i => Cert.Spec.colSumSq (yOf V c) (i 1)

theorem arrY_apply (c : Dev nD) (r : Fin 800000) (j : Fin 128) : arrY V c (ix2 r j) = yOf V c r j := rfl
theorem arrSum_apply (c : Dev nD) (u : Fin 1) (j : Fin 128) : arrSum V c (ix2 u j) = Cert.Spec.colSum (yOf V c) j := rfl
theorem arrSumSq_apply (c : Dev nD) (u : Fin 1) (j : Fin 128) : arrSumSq V c (ix2 u j) = Cert.Spec.colSumSq (yOf V c) j := rfl

/-- The point that writes the running rows back is the last one. -/
theorem last_of_flush (t : Fin cfg0.N) (h : t.val % 100 = 99) : t.val + 1 = cfg0.N := by
  have hN : cfg0.N = 100 := N_0
  have := t.isLt
  omega

/-- The last point. -/
def tLast : Fin cfg0.N := ⟨99, by rw [show cfg0.N = 100 from N_0]; decide⟩

/-! ## The first output: the perceptron values -/

/-- A block whose row `r` is row `8000 t + r` of an array `G` is block `t` of `G`. -/
theorem blk5_of (c : Dev nD) (t : Fin cfg0.N) (X : Vec Ideal S8000x128 .f32)
    (G : Buf (Elt Ideal) ((c : Thread nD τ).loc main_v20_0))
    (h : ∀ (r : Fin 8000) (j : Fin 128), X (ix2 r j) = G (ix2 (Cert.Spec.blockIdx hTB t r) j)) :
    (cfg0.win 5).cut (grid0.coords t) X = ((cfg0.win 5).blk t).view.read (Elt Ideal) G := by
  obtain ⟨-, -, -, -, -, -, -, -, -, -, e0, e1, -⟩ := idx_facts t
  funext y
  obtain ⟨r, j, rfl⟩ : ∃ (r : Fin 8000) (j : Fin 128), y = ix2 r j := ⟨y 0, y 1, eq_ix2 y⟩
  show X (ix2 r j) = G (((cfg0.win 5).blk t).view.emb (ix2 r j))
  rw [h r j]
  refine congrArg G (funext fun a => Fin.ext ?_)
  match a with
  | ⟨0, _⟩ => show t.val * 8000 + r.val = win0_5.index t (0 : Fin 2) * 8000 + 1 * r.val; rw [e0]; omega
  | ⟨1, _⟩ => show j.val = win0_5.index t (1 : Fin 2) * 128 + 1 * j.val; rw [e1]; omega

/-- What point `t` writes back is block `t` of the array of perceptron values. -/
theorem flushed5 (c : Dev nD) (t : Fin cfg0.N) :
    (dat0 V c).flushed 5 t = ((cfg0.win 5).blk t).view.read (Elt Ideal) (arrY V c) := by
  show (cfg0.win 5).cut (grid0.coords t) ((dat0 V c).after 5 t) = _
  rw [after0_5, y_at V c t.val t.isLt]
  exact blk5_of c t _ _ fun r j => (yBlk_apply V c t r j).trans (arrY_apply V c _ j).symm

/-- An index of the array is in point `t`'s block iff each coordinate is in the block's range on its axis. -/
theorem mem_blk5 (t : Fin cfg0.N) (i : S800000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v20_0).slice (win0_5.rect t)).set ↔ _
  rw [View.set_slice_whole, Rect.mem_set_unit]
  exact Iff.rfl

/-- THE ARRAY OF PERCEPTRON VALUES: row `i` is in the block of point `i / 8000`. -/
theorem arr5 (c : Dev nD) : (dat0 V c).arrAt 5 cfg0.N = arrY V c :=
  (dat0 V c).arrAt_eq_of_cover 5 (arrY V c) (fun t _ => flushed5 V c t) fun i => by
    have hN : cfg0.N = 100 := N_0
    have h0 : (i 0).val < 800000 := (i 0).isLt
    have h1 : (i 1).val < 128 := (i 1).isLt
    have hlt : (i 0).val / 8000 < cfg0.N := by rw [hN]; omega
    refine ⟨⟨(i 0).val / 8000, hlt⟩, flush0_5 _, ?_⟩
    obtain ⟨-, -, -, -, -, -, -, -, -, -, e0, e1, -⟩ := idx_facts ⟨(i 0).val / 8000, hlt⟩
    rw [mem_blk5]
    intro a
    match a with
    | ⟨0, _⟩ =>
      show win0_5.index ⟨(i 0).val / 8000, hlt⟩ (0 : Fin 2) * 8000 ≤ (i 0).val
        ∧ (i 0).val < win0_5.index ⟨(i 0).val / 8000, hlt⟩ (0 : Fin 2) * 8000 + 8000
      rw [e0]; dsimp only; omega
    | ⟨1, _⟩ =>
      show win0_5.index ⟨(i 0).val / 8000, hlt⟩ (1 : Fin 2) * 128 ≤ (i 1).val
        ∧ (i 1).val < win0_5.index ⟨(i 0).val / 8000, hlt⟩ (1 : Fin 2) * 128 + 128
      rw [e1]; omega

/-! ## The running row of column sums -/

/-- A row equal to an array `G`'s one row is `G`'s one block. -/
theorem blk6_of (c : Dev nD) (t : Fin cfg0.N) (X : Vec Ideal S1x128 .f32)
    (G : Buf (Elt Ideal) ((c : Thread nD τ).loc main_v20_1))
    (h : ∀ j : Fin 128, X (ix2 (0 : Fin 1) j) = G (ix2 (0 : Fin 1) j)) :
    (cfg0.win 6).cut (grid0.coords t) X = ((cfg0.win 6).blk t).view.read (Elt Ideal) G := by
  obtain ⟨-, -, -, -, -, -, -, -, -, -, -, -, e0, e1, -⟩ := idx_facts t
  funext y
  obtain ⟨u, j, rfl⟩ : ∃ (u : Fin 1) (j : Fin 128), y = ix2 u j := ⟨y 0, y 1, eq_ix2 y⟩
  obtain rfl : u = 0 := Subsingleton.elim _ _
  show X (ix2 (0 : Fin 1) j) = G (((cfg0.win 6).blk t).view.emb (ix2 (0 : Fin 1) j))
  rw [h j]
  refine congrArg G (funext fun a => Fin.ext ?_)
  match a with
  | ⟨0, _⟩ => show 0 = win0_6.index t (0 : Fin 2) * 1 + 1 * 0; rw [e0]
  | ⟨1, _⟩ => show j.val = win0_6.index t (1 : Fin 2) * 128 + 1 * j.val; rw [e1]; omega

/-- What the last point writes back is the row of column sums. -/
theorem flushed6 (c : Dev nD) (t : Fin cfg0.N) (hf : (cfg0.win 6).flush t = true) :
    (dat0 V c).flushed 6 t = ((cfg0.win 6).blk t).view.read (Elt Ideal) (arrSum V c) := by
  have hl := last_of_flush t ((flush0_6 t).mp hf)
  show (cfg0.win 6).cut (grid0.coords t) ((dat0 V c).after 6 t) = _
  rw [after0_6]
  exact blk6_of c t _ _ fun j => (sum_last V c j t hl).trans (arrSum_apply V c 0 j).symm

/-- An index of the row is in point `t`'s block iff each coordinate is in the block's range on its axis. -/
theorem mem_blk6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v20_1).slice (win0_6.rect t)).set ↔ _
  rw [View.set_slice_whole, Rect.mem_set_unit]
  exact Iff.rfl

/-- THE ROW OF COLUMN SUMS: its one block, written back after the last point, is the whole row. -/
theorem arr6 (c : Dev nD) : (dat0 V c).arrAt 6 cfg0.N = arrSum V c :=
  (dat0 V c).arrAt_eq_of_cover 6 (arrSum V c) (fun t hf => flushed6 V c t hf) fun i => by
    have h0 : (i 0).val < 1 := (i 0).isLt
    have h1 : (i 1).val < 128 := (i 1).isLt
    refine ⟨tLast, (flush0_6 tLast).mpr rfl, ?_⟩
    obtain ⟨-, -, -, -, -, -, -, -, -, -, -, -, e0, e1, -⟩ := idx_facts tLast
    rw [mem_blk6]
    intro a
    match a with
    | ⟨0, _⟩ =>
      show win0_6.index tLast (0 : Fin 2) * 1 ≤ (i 0).val ∧ (i 0).val < win0_6.index tLast (0 : Fin 2) * 1 + 1
      rw [e0]; omega
    | ⟨1, _⟩ =>
      show win0_6.index tLast (1 : Fin 2) * 128 ≤ (i 1).val ∧ (i 1).val < win0_6.index tLast (1 : Fin 2) * 128 + 128
      rw [e1]; omega

/-! ## The running row of column sums of squares -/

/-- A row equal to an array `G`'s one row is `G`'s one block. -/
theorem blk7_of (c : Dev nD) (t : Fin cfg0.N) (X : Vec Ideal S1x128 .f32)
    (G : Buf (Elt Ideal) ((c : Thread nD τ).loc main_v20_2))
    (h : ∀ j : Fin 128, X (ix2 (0 : Fin 1) j) = G (ix2 (0 : Fin 1) j)) :
    (cfg0.win 7).cut (grid0.coords t) X = ((cfg0.win 7).blk t).view.read (Elt Ideal) G := by
  obtain ⟨-, -, -, -, -, -, -, -, -, -, -, -, -, -, e0, e1⟩ := idx_facts t
  funext y
  obtain ⟨u, j, rfl⟩ : ∃ (u : Fin 1) (j : Fin 128), y = ix2 u j := ⟨y 0, y 1, eq_ix2 y⟩
  obtain rfl : u = 0 := Subsingleton.elim _ _
  show X (ix2 (0 : Fin 1) j) = G (((cfg0.win 7).blk t).view.emb (ix2 (0 : Fin 1) j))
  rw [h j]
  refine congrArg G (funext fun a => Fin.ext ?_)
  match a with
  | ⟨0, _⟩ => show 0 = win0_7.index t (0 : Fin 2) * 1 + 1 * 0; rw [e0]
  | ⟨1, _⟩ => show j.val = win0_7.index t (1 : Fin 2) * 128 + 1 * j.val; rw [e1]; omega

/-- What the last point writes back is the row of column sums of squares. -/
theorem flushed7 (c : Dev nD) (t : Fin cfg0.N) (hf : (cfg0.win 7).flush t = true) :
    (dat0 V c).flushed 7 t = ((cfg0.win 7).blk t).view.read (Elt Ideal) (arrSumSq V c) := by
  have hl := last_of_flush t ((flush0_7 t).mp hf)
  show (cfg0.win 7).cut (grid0.coords t) ((dat0 V c).after 7 t) = _
  rw [after0_7]
  exact blk7_of c t _ _ fun j => (sumsq_last V c j t hl).trans (arrSumSq_apply V c 0 j).symm

/-- An index of the row is in point `t`'s block iff each coordinate is in the block's range on its axis. -/
theorem mem_blk7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v20_2).slice (win0_7.rect t)).set ↔ _
  rw [View.set_slice_whole, Rect.mem_set_unit]
  exact Iff.rfl

/-- THE ROW OF COLUMN SUMS OF SQUARES: its one block, written back after the last point, is the whole row. -/
theorem arr7 (c : Dev nD) : (dat0 V c).arrAt 7 cfg0.N = arrSumSq V c :=
  (dat0 V c).arrAt_eq_of_cover 7 (arrSumSq V c) (fun t hf => flushed7 V c t hf) fun i => by
    have h0 : (i 0).val < 1 := (i 0).isLt
    have h1 : (i 1).val < 128 := (i 1).isLt
    refine ⟨tLast, (flush0_7 tLast).mpr rfl, ?_⟩
    obtain ⟨-, -, -, -, -, -, -, -, -, -, -, -, -, -, e0, e1⟩ := idx_facts tLast
    rw [mem_blk7]
    intro a
    match a with
    | ⟨0, _⟩ =>
      show win0_7.index tLast (0 : Fin 2) * 1 ≤ (i 0).val ∧ (i 0).val < win0_7.index tLast (0 : Fin 2) * 1 + 1
      rw [e0]; omega
    | ⟨1, _⟩ =>
      show win0_7.index tLast (1 : Fin 2) * 128 ≤ (i 1).val ∧ (i 1).val < win0_7.index tLast (1 : Fin 2) * 128 + 128
      rw [e1]; omega

/-! ## The three results, entry by entry -/

/-- The first result array ends holding the perceptron values, row by row. -/
theorem y_final (c : Dev nD) (r : Fin 800000) (j : Fin 128) :
    (Gen.dat0 V c).arrAt 5 cfg0.N (ix2 r j) = yOf V c r j :=
  (congrFun (arr5 V c) (ix2 r j)).trans (arrY_apply V c r j)

/-- The second ends holding each column's sum over all rows. -/
theorem sum_final (c : Dev nD) (j : Fin 128) :
    (Gen.dat0 V c).arrAt 6 cfg0.N (ix2 (0 : Fin 1) j) = Cert.Spec.colSum (yOf V c) j :=
  (congrFun (arr6 V c) (ix2 (0 : Fin 1) j)).trans (arrSum_apply V c 0 j)

/-- The third ends holding each column's sum of squares over all rows. -/
theorem sumsq_final (c : Dev nD) (j : Fin 128) :
    (Gen.dat0 V c).arrAt 7 cfg0.N (ix2 (0 : Fin 1) j) = Cert.Spec.colSumSq (yOf V c) j :=
  (congrFun (arr7 V c) (ix2 (0 : Fin 1) j)).trans (arrSumSq_apply V c 0 j)

end Cert.KernelIdeal.Edge1

end
-- ==== Proof.Edge1.lean ====
/-
  The edge half's accumulating region, read as values: after its last grid point the first result array holds
  the perceptron values of every row, the second the column sums of those values, the third the column sums
  of their squares.  The three statements (`y_final`, `sum_final`, `sumsq_final`) are proved in
  Proof/Edge1Final.lean, over the block arithmetic (Edge1Pay), the two cases of a grid point (Edge1Case), the
  blocks as stretches of rows (Edge1Blk) and the induction over the points (Edge1Acc).
-/
import proofs.«164139_j1597727834590_1_alg».proof.Proof.Edge1Final
-- ==== Proof.Edge2Value.lean ====
/-
  The second pass of the edge half, read as a value: over any contents `V` of the buffers when the pass is entered,
  the table it leaves holds, at row `r` and column `j`, the normalized, scaled, shifted entry of the first pass's table
  plus the residual entry: (y - mean) * (var + eps)^(-1/2) * gamma + beta + res.  The pass walks the 800000 rows in
  100 blocks of 8000; each block's result is the same function of the buffers read at the block's rows, so the blocks
  together are one function of the whole tables.
-/
import proofs.«164139_j1597727834590_1_alg».proof.Proof.Gen.KernelIdeal.Frame
import proofs.«164139_j1597727834590_1_alg».proof.Proof.Spec
import Idealize.ShloMosaic.Lib.ValueIdx
import Idealize.ShloMosaic.Lib.Pipeline.Value

noncomputable section

namespace Cert.KernelIdeal.Edge2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The small constant added to the variance under the square root, as the program spells it. -/
abbrev eps : EReal := Ideal.ofBits .f32 0x3727C5AC#32

/-! ## The body's arithmetic at one entry of a block -/

/-- A row of 128 repeated down the 8000 rows of a block, read at row `r` and column `j`, is the row's entry `j`. -/
theorem rowDown_apply {α : Type} (x : S1x128.Idx → α) (r : Fin 8000) (j : Fin 128) :
    broadcastTo S8000x128 x broadcasts_S1x128_S8000x128 (ix2 r j) = x (ix2 (0 : Fin 1) j) :=
  broadcastTo_apply x _ _ _ (fun a => by
    match a with
    | ⟨0, _⟩ => rfl
    | ⟨1, _⟩ => rfl)

/-- What the body stores at row `r`, column `j` of its block: the entry of `y` less the column's mean, times the
    inverse square root of the column's variance plus `eps`, times the column's scale, plus its shift, plus the
    residual entry. -/
theorem pay_apply (v0 : Vec Ideal S8000x128 .f32) (v2 v7 v13 v17 : Vec Ideal S1x128 .f32) (v21 : Vec Ideal S8000x128 .f32)
    (r : Fin 8000) (j : Fin 128) :
    k1_pay1 v0 v2 v7 v13 v17 v21 (ix2 r j)
      = (v0 (ix2 r j) - v7 (ix2 (0 : Fin 1) j)) * Ideal.rsqrt (v2 (ix2 (0 : Fin 1) j) + eps)
          * v13 (ix2 (0 : Fin 1) j) + v17 (ix2 (0 : Fin 1) j) + v21 (ix2 r j) := by
  unfold k1_pay1
  simp only [shapeCast_self, addf_apply, mulf_apply, subf_apply, rowDown_apply]
  rfl

/-- The same at any index `y` of the block. -/
theorem pay_at (v0 : Vec Ideal S8000x128 .f32) (v2 v7 v13 v17 : Vec Ideal S1x128 .f32) (v21 : Vec Ideal S8000x128 .f32)
    (y : S8000x128.Idx) :
    k1_pay1 v0 v2 v7 v13 v17 v21 y
      = (v0 y - v7 (ix2 (0 : Fin 1) (y 1))) * Ideal.rsqrt (v2 (ix2 (0 : Fin 1) (y 1)) + eps)
          * v13 (ix2 (0 : Fin 1) (y 1)) + v17 (ix2 (0 : Fin 1) (y 1)) + v21 y := by
  obtain ⟨p, q, rfl⟩ : ∃ (p : Fin 8000) (q : Fin 128), y = ix2 p q := ⟨y 0, y 1, eq_ix2 y⟩
  exact pay_apply v0 v2 v7 v13 v17 v21 p q

/-! ## The whole table -/

/-- The normalized table as one function of six tables: at index `i`, the entry of `Y` at `i` less column `i 1`'s
    mean, times the inverse square root of the column's variance plus `eps`, times the column's scale, plus its
    shift, plus the residual entry at `i`. -/
def Gf (Y Res : S800000x128.Idx → EReal) (M Vr Gm Bt : S1x128.Idx → EReal) : S800000x128.Idx → EReal := fun i =>
  (Y i - M (ix2 (0 : Fin 1) (i 1))) * Ideal.rsqrt (Vr (ix2 (0 : Fin 1) (i 1)) + eps) * Gm (ix2 (0 : Fin 1) (i 1))
    + Bt (ix2 (0 : Fin 1) (i 1)) + Res i

/-- The table the pass leaves, as that function of the buffers it reads. -/
abbrev G (c : Dev nD) : S800000x128.Idx → EReal :=
  Gf (V c main_v20_0) (V c main_arg1) (V c main_v22) (V c main_v26) (V c main_v18) (V c main_v19)

theorem hz : (![0, 0] : Fin 2 → Nat) = fun _ => 0 := funext fun a => by fin_cases a <;> rfl

/-- The windows' index maps over the grid: the three tables move one block of 8000 rows per point, the four rows
    stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block, read where the output block's entry sits in the whole table

An entry `y` of point `t`'s block sits in a table at row `t * 8000 + y 0`, column `y 1`; a row buffer's one block is
the whole row. -/

/-- The block of `y` at point `t`, at `y`, is the table's entry under the output block's entry. -/
theorem read_y (c : Dev nD) (t : Fin cfg1.N) (y : ((cfg1.win 6).xblock (grid1.coords t)).Idx) :
    iblk1 V c 0 t y = (V c main_v20_0 : S800000x128.Idx → EReal) (((cfg1.win 6).blk t).view.emb y) := by
  obtain ⟨a0, a1, b0, b1, m0, m1, s0, s1, g0, g1, h0, h1, o0, o1⟩ := idx_facts t
  show (V c main_v20_0 : S800000x128.Idx → EReal) (((cfg1.win 0).blk t).view.emb y) = _
  refine congrArg (V c main_v20_0 : S800000x128.Idx → EReal) (funext fun a => Fin.ext ?_)
  match a with
  | ⟨0, _⟩ =>
    show win1_0.index t (0 : Fin 2) * 8000 + 1 * (y 0).val = win1_6.index t (0 : Fin 2) * 8000 + 1 * (y 0).val
    omega
  | ⟨1, _⟩ =>
    show win1_0.index t (1 : Fin 2) * 128 + 1 * (y 1).val = win1_6.index t (1 : Fin 2) * 128 + 1 * (y 1).val
    omega

/-- The same for the residual table. -/
theorem read_res (c : Dev nD) (t : Fin cfg1.N) (y : ((cfg1.win 6).xblock (grid1.coords t)).Idx) :
    iblk1 V c 1 t y = (V c main_arg1 : S800000x128.Idx → EReal) (((cfg1.win 6).blk t).view.emb y) := by
  obtain ⟨a0, a1, b0, b1, m0, m1, s0, s1, g0, g1, h0, h1, o0, o1⟩ := idx_facts t
  show (V c main_arg1 : S800000x128.Idx → EReal) (((cfg1.win 1).blk t).view.emb y) = _
  refine congrArg (V c main_arg1 : S800000x128.Idx → EReal) (funext fun a => Fin.ext ?_)
  match a with
  | ⟨0, _⟩ =>
    show win1_1.index t (0 : Fin 2) * 8000 + 1 * (y 0).val = win1_6.index t (0 : Fin 2) * 8000 + 1 * (y 0).val
    omega
  | ⟨1, _⟩ =>
    show win1_1.index t (1 : Fin 2) * 128 + 1 * (y 1).val = win1_6.index t (1 : Fin 2) * 128 + 1 * (y 1).val
    omega

/-- The mean row's block is the whole row: its entry at the block's column is the row's entry at the table's column. -/
theorem read_mean (c : Dev nD) (t : Fin cfg1.N) (y : ((cfg1.win 6).xblock (grid1.coords t)).Idx) :
    iblk1 V c 2 t (ix2 (0 : Fin 1) (y 1))
      = (V c main_v22 : S1x128.Idx → EReal) (ix2 (0 : Fin 1) ((((cfg1.win 6).blk t).view.emb y) 1)) := by
  obtain ⟨a0, a1, b0, b1, m0, m1, s0, s1, g0, g1, h0, h1, o0, o1⟩ := idx_facts t
  show (V c main_v22 : S1x128.Idx → EReal) (((cfg1.win 2).blk t).view.emb (ix2 (0 : Fin 1) (y 1))) = _
  refine congrArg (V c main_v22 : S1x128.Idx → EReal) (funext fun a => Fin.ext ?_)
  match a with
  | ⟨0, _⟩ =>
    show win1_2.index t (0 : Fin 2) * 1 + 1 * 0 = 0
    omega
  | ⟨1, _⟩ =>
    show win1_2.index t (1 : Fin 2) * 128 + 1 * (y 1).val = win1_6.index t (1 : Fin 2) * 128 + 1 * (y 1).val
    omega

/-- The same for the variance row. -/
theorem read_var (c : Dev nD) (t : Fin cfg1.N) (y : ((cfg1.win 6).xblock (grid1.coords t)).Idx) :
    iblk1 V c 3 t (ix2 (0 : Fin 1) (y 1))
      = (V c main_v26 : S1x128.Idx → EReal) (ix2 (0 : Fin 1) ((((cfg1.win 6).blk t).view.emb y) 1)) := by
  obtain ⟨a0, a1, b0, b1, m0, m1, s0, s1, g0, g1, h0, h1, o0, o1⟩ := idx_facts t
  show (V c main_v26 : S1x128.Idx → EReal) (((cfg1.win 3).blk t).view.emb (ix2 (0 : Fin 1) (y 1))) = _
  refine congrArg (V c main_v26 : S1x128.Idx → EReal) (funext fun a => Fin.ext ?_)
  match a with
  | ⟨0, _⟩ =>
    show win1_3.index t (0 : Fin 2) * 1 + 1 * 0 = 0
    omega
  | ⟨1, _⟩ =>
    show win1_3.index t (1 : Fin 2) * 128 + 1 * (y 1).val = win1_6.index t (1 : Fin 2) * 128 + 1 * (y 1).val
    omega

/-- The same for the scale row. -/
theorem read_scale (c : Dev nD) (t : Fin cfg1.N) (y : ((cfg1.win 6).xblock (grid1.coords t)).Idx) :
    iblk1 V c 4 t (ix2 (0 : Fin 1) (y 1))
      = (V c main_v18 : S1x128.Idx → EReal) (ix2 (0 : Fin 1) ((((cfg1.win 6).blk t).view.emb y) 1)) := by
  obtain ⟨a0, a1, b0, b1, m0, m1, s0, s1, g0, g1, h0, h1, o0, o1⟩ := idx_facts t
  show (V c main_v18 : S1x128.Idx → EReal) (((cfg1.win 4).blk t).view.emb (ix2 (0 : Fin 1) (y 1))) = _
  refine congrArg (V c main_v18 : S1x128.Idx → EReal) (funext fun a => Fin.ext ?_)
  match a with
  | ⟨0, _⟩ =>
    show win1_4.index t (0 : Fin 2) * 1 + 1 * 0 = 0
    omega
  | ⟨1, _⟩ =>
    show win1_4.index t (1 : Fin 2) * 128 + 1 * (y 1).val = win1_6.index t (1 : Fin 2) * 128 + 1 * (y 1).val
    omega

/-- The same for the shift row. -/
theorem read_shift (c : Dev nD) (t : Fin cfg1.N) (y : ((cfg1.win 6).xblock (grid1.coords t)).Idx) :
    iblk1 V c 5 t (ix2 (0 : Fin 1) (y 1))
      = (V c main_v19 : S1x128.Idx → EReal) (ix2 (0 : Fin 1) ((((cfg1.win 6).blk t).view.emb y) 1)) := by
  obtain ⟨a0, a1, b0, b1, m0, m1, s0, s1, g0, g1, h0, h1, o0, o1⟩ := idx_facts t
  show (V c main_v19 : S1x128.Idx → EReal) (((cfg1.win 5).blk t).view.emb (ix2 (0 : Fin 1) (y 1))) = _
  refine congrArg (V c main_v19 : S1x128.Idx → EReal) (funext fun a => Fin.ext ?_)
  match a with
  | ⟨0, _⟩ =>
    show win1_5.index t (0 : Fin 2) * 1 + 1 * 0 = 0
    omega
  | ⟨1, _⟩ =>
    show win1_5.index t (1 : Fin 2) * 128 + 1 * (y 1).val = win1_6.index t (1 : Fin 2) * 128 + 1 * (y 1).val
    omega

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S8000x128) hz, View.ld_unit_zero (S := S1x128) hz]
  funext y
  refine (pay_at (iblk1 V c 0 t) (iblk1 V c 3 t) (iblk1 V c 2 t) (iblk1 V c 4 t) (iblk1 V c 5 t) (iblk1 V c 1 t) y).trans ?_
  show _ = G V c (((cfg1.win 6).blk t).view.emb y)
  unfold G Gf
  rw [read_y V c t y, read_res V c t y, read_mean V c t y, read_var V c t y, read_scale V c t y, read_shift V c t y]

/-- An index of the table is in point `t`'s block iff each coordinate is in the block's range on its axis. -/
theorem mem_blk (t : Fin cfg1.N) (i : S800000x128.Idx) :
    i ∈ ((cfg1.win 6).blk t).view.set ↔ ∀ a : Fin 2, win1_6.index t a * S8000x128.size a ≤ (i a).val
      ∧ (i a).val < win1_6.index t a * S8000x128.size a + S8000x128.size a := by
  show i ∈ ((View.whole main_v27).slice (win1_6.rect t)).set ↔ _
  rw [View.set_slice_whole, Rect.mem_set_unit]
  exact Iff.rfl

/-- Every index of the table is in some point's block: row `r` is in block `r / 8000`. -/
theorem cover (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : grid1.N = 100 := N_1
  have hlt : (i 0).val / 8000 < grid1.N := by omega
  obtain ⟨a0, a1, b0, b1, m0, m1, s0, s1, g0, g1, h0, h1, o0, o1⟩ := idx_facts ⟨(i 0).val / 8000, hlt⟩
  refine ⟨⟨(i 0).val / 8000, hlt⟩, flush1_6 _, ?_⟩
  rw [mem_blk]
  intro a
  match a with
  | ⟨0, _⟩ =>
    show win1_6.index ⟨(i 0).val / 8000, hlt⟩ (0 : Fin 2) * 8000 ≤ (i 0).val
      ∧ (i 0).val < win1_6.index ⟨(i 0).val / 8000, hlt⟩ (0 : Fin 2) * 8000 + 8000
    have ht : ((⟨(i 0).val / 8000, hlt⟩ : Fin cfg1.N) : Nat) = (i 0).val / 8000 := rfl
    omega
  | ⟨1, _⟩ =>
    show win1_6.index ⟨(i 0).val / 8000, hlt⟩ (1 : Fin 2) * 128 ≤ (i 1).val
      ∧ (i 1).val < win1_6.index ⟨(i 0).val / 8000, hlt⟩ (1 : Fin 2) * 128 + 128
    omega

/-- The table after the pass is `G`. -/
theorem final (c : Dev nD) : (dat1 V c).arrAt 6 cfg1.N = G V c :=
  (dat1 V c).arrAt_eq_of_cover 6 (G V c) (fun t _ => flushed_eq V c t) cover

/-- The table after the pass, entry by entry. -/
theorem out_final (c : Dev nD) (r : Fin 800000) (j : Fin 128) :
    (Gen.dat1 V c).arrAt 6 cfg1.N (ix2 r j)
      = Cert.Spec.bnOut (Ideal.ofBits .f32 0x3727C5AC#32) (fun r l => V c main_v20_0 (ix2 r l))
          (fun k => V c main_v22 (ix2 (0 : Fin 1) k)) (fun k => V c main_v26 (ix2 (0 : Fin 1) k))
          (fun k => V c main_v18 (ix2 (0 : Fin 1) k)) (fun k => V c main_v19 (ix2 (0 : Fin 1) k))
          (fun r l => V c main_arg1 (ix2 r l)) r j :=
  (congrFun (final V c) (ix2 r j)).trans rfl

end Cert.KernelIdeal.Edge2V

end
-- ==== Proof.Edge2.lean ====
/-
  The second pass of the edge half, read as a value: over any contents `V` of the buffers when the pass is entered,
  the table it leaves holds, at row `r` and column `j`, the normalized, scaled, shifted entry of the first pass's table
  plus the residual entry: (y - mean) * (var + eps)^(-1/2) * gamma + beta + res.
-/
import proofs.«164139_j1597727834590_1_alg».proof.Proof.Edge2Value

noncomputable section

namespace Cert.KernelIdeal.Edge2

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem out_final (c : Dev nD) (r : Fin 800000) (j : Fin 128) :
    (Gen.dat1 V c).arrAt 6 cfg1.N (ix2 r j)
      = Cert.Spec.bnOut (Ideal.ofBits .f32 0x3727C5AC#32) (fun r l => V c main_v20_0 (ix2 r l))
          (fun k => V c main_v22 (ix2 (0 : Fin 1) k)) (fun k => V c main_v26 (ix2 (0 : Fin 1) k))
          (fun k => V c main_v18 (ix2 (0 : Fin 1) k)) (fun k => V c main_v19 (ix2 (0 : Fin 1) k))
          (fun r l => V c main_arg1 (ix2 r l)) r j :=
  Cert.KernelIdeal.Edge2V.out_final V c r j

end Cert.KernelIdeal.Edge2

end
-- ==== Proof.Node1Pay.lean ====
/-
  The arithmetic of one block of the node half, read entry by entry over the extended reals.

  A block is 5000 rows of 128 numbers of each of two tables.  The body adds the two tables entry by entry
  and sends every row of the sum through the two-layer perceptron (an affine layer, the rectifier, a second
  affine layer): entry `(r, j)` of the result is `Cert.Spec.mlp` of the summed rows at `(r, j)`.  It
  then adds, to a running row of 128 numbers, the block's column sums, and to a second running row the
  column sums of the squares.  A change of number format is the identity on extended reals, a matrix
  product into a zero accumulator is the plain sum over the contracted coordinate, and the zero word is
  the number 0.
-/
import proofs.«164139_j1597727834590_1_alg».proof.Proof.Spec
import proofs.«164139_j1597727834590_1_alg».proof.Proof.Gen.KernelIdeal.Skeleton
import Idealize.ShloMosaic.Lib.ValueLayout
import Idealize.ShloMosaic.PureOps.Ideal.Laws

noncomputable section

namespace Cert.KernelIdeal.Node1

open Idealize.ShloMosaic Idealize.ShloMosaic.ValueIdx
open Cert.KernelIdeal Cert.KernelIdeal.Gen

/-- The product of a 5000×128 block by a 128×128 matrix into the zero accumulator, at `(r, k)`:
    the sum over the contracted coordinate `l` of `A (r, l) * B (l, k)`. -/
theorem matmul_apply {φ₁ φ₂ : FTy} (A : FVec Ideal S5000x128 φ₁) (B : FVec Ideal S128x128 φ₂)
    (r : Fin 5000) (k : Fin 128) :
    matmul dot_S5000x128_S128x128_S5000x128_1_0_0_1_n_n none A B
        (constant (F := Ideal) S5000x128 .f32 0x00000000#32) (ix2 r k)
      = ∑ l : Fin 128, A (ix2 r l) * B (ix2 l k) := by
  show FloatOps.matmul dot_S5000x128_S128x128_S5000x128_1_0_0_1_n_n none A B _ (ix2 r k) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 r k)
      ((contrEquiv1 dot_S5000x128_S128x128_S5000x128_1_0_0_1_n_n 128 rfl rfl).symm c) = ix2 r c := by
    funext ax; apply Fin.ext
    match ax with
    | ⟨0, _⟩ => simp [DotDims.lhsIdx, dot_S5000x128_S128x128_S5000x128_1_0_0_1_n_n]; rfl
    | ⟨1, _⟩ =>
      exact (DotDims.lhsIdx_val_of_single dot_S5000x128_S128x128_S5000x128_1_0_0_1_n_n
        (cl := (1 : Fin 2)) rfl (ix2 r k) _).trans c2
  have r2 : dot_S5000x128_S128x128_S5000x128_1_0_0_1_n_n.rhsIdx (ix2 r k)
      ((contrEquiv1 dot_S5000x128_S128x128_S5000x128_1_0_0_1_n_n 128 rfl rfl).symm c) = ix2 c k := by
    funext ax; apply Fin.ext
    match ax with
    | ⟨0, _⟩ =>
      exact (DotDims.rhsIdx_val_of_single dot_S5000x128_S128x128_S5000x128_1_0_0_1_n_n
        (cr := (0 : Fin 2)) rfl (ix2 r k) _).trans c2
    | ⟨1, _⟩ => simp [DotDims.rhsIdx, dot_S5000x128_S128x128_S5000x128_1_0_0_1_n_n]; rfl
  rw [l2, r2]

/-- The sum over the 5000 rows of a block, kept as a row: entry `j` is the sum of column `j`. -/
theorem colsum_apply (src : FVec Ideal S5000x128 .f32) (hφ : FKind.Formats .f32)
    (hacc : (0x00000000#32 : BitVec 32) = FKind.add.neutral .f32 hφ) (j : Fin 128) :
    multiReduction .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext ax
  match ax with
  | ⟨0, _⟩ => exact Fin.ext rfl
  | ⟨1, _⟩ => exact Fin.ext rfl

/-- THE BLOCK'S PERCEPTRON at `(r, j)`: `Cert.Spec.mlp` of the rows of the sum of the two tables' blocks (the
    first table plus the second, in this order), the two weight matrices and the two bias rows (each a 1×128
    array, read at its one row). -/
theorem pay4_apply (h agg : Vec Ideal S5000x128 .f32) (W1 : Vec Ideal S128x128 .f32) (b1 : Vec Ideal S1x128 .f32)
    (W2 : Vec Ideal S128x128 .f32) (b2 : Vec Ideal S1x128 .f32) (r : Fin 5000) (j : Fin 128) :
    k2_pay4 (F := Ideal) h agg W1 b1 W2 b2 (ix2 r j)
      = Cert.Spec.mlp (fun r l => @HAdd.hAdd EReal EReal EReal instHAdd (h (ix2 r l)) (agg (ix2 r l)))
          (fun l k => W1 (ix2 l k)) (fun k => b1 (ix2 (0 : Fin 1) k))
          (fun l k => W2 (ix2 l k)) (fun k => b2 (ix2 (0 : Fin 1) k)) r j := by
  unfold k2_pay4 Cert.Spec.mlp Cert.Spec.lin
  refine congrArg₂ (· + ·) ((matmul_apply _ _ r j).trans (Finset.sum_congr rfl fun l _ => ?_))
    ((broadcastTo_1b_ab_apply _ _ r j).trans (congrFun (shapeCast_self b2 _) _))
  refine congrArg₂ (· * ·) (congrArg₂ max (congrArg₂ (· + ·)
    ((matmul_apply _ _ r l).trans (Finset.sum_congr rfl fun l' _ =>
      congrArg₂ (· * ·) (congrArg₂ (fun a b : EReal => a + b) rfl (congrFun (shapeCast_self agg _) _)) rfl))
    ((broadcastTo_1b_ab_apply _ _ r l).trans (congrFun (shapeCast_self b1 _) _))) Ideal.ofBits_zero_f32) rfl

/-- THE RUNNING COLUMN SUMS: the row `acc` plus the block's column sums. -/
theorem pay5_apply (h agg : Vec Ideal S5000x128 .f32) (W1 : Vec Ideal S128x128 .f32) (b1 : Vec Ideal S1x128 .f32)
    (W2 : Vec Ideal S128x128 .f32) (b2 : Vec Ideal S1x128 .f32) (acc : Vec Ideal S1x128 .f32) (j : Fin 128) :
    k2_pay5 (F := Ideal) h agg W1 b1 W2 b2 acc (ix2 (0 : Fin 1) j)
      = acc (ix2 (0 : Fin 1) j) + ∑ r : Fin 5000, k2_pay4 (F := Ideal) h agg W1 b1 W2 b2 (ix2 r j) := by
  unfold k2_pay5
  exact congrArg₂ (· + ·) (congrFun (shapeCast_self acc _) _)
    ((shapeCast_a_1a_apply _ _ (0 : Fin 1) j).trans (colsum_apply _ _ _ j))

/-- THE RUNNING COLUMN SUMS OF SQUARES: the row `acc` plus the column sums of the squared entries of `y`. -/
theorem pay1_apply (y : FVec Ideal S5000x128 .f32) (acc : Vec Ideal S1x128 .f32) (j : Fin 128) :
    k2_pay1 (F := Ideal) y acc (ix2 (0 : Fin 1) j)
      = acc (ix2 (0 : Fin 1) j) + ∑ r : Fin 5000, y (ix2 r j) * y (ix2 r j) := by
  unfold k2_pay1
  exact congrArg₂ (· + ·) (congrFun (shapeCast_self acc _) _)
    ((shapeCast_a_1a_apply _ _ (0 : Fin 1) j).trans (colsum_apply _ _ _ j))

/-- The row the first point stores before accumulating is the zero row (the sums' one), -/
theorem pay2_apply (i : S1x128.Idx) : k2_pay2 (F := Ideal) i = 0 := Ideal.ofBits_zero_f32
/-- and so is the sums of squares' one. -/
theorem pay3_apply (i : S1x128.Idx) : k2_pay3 (F := Ideal) i = 0 := Ideal.ofBits_zero_f32

end Cert.KernelIdeal.Node1

end
-- ==== Proof.Node1Def.lean ====
/-
  The node half's perceptron values as a function of the arrays the region finds.
-/
import proofs.«164139_j1597727834590_1_alg».proof.Proof.Spec
import proofs.«164139_j1597727834590_1_alg».proof.Proof.Gen.KernelIdeal
import Idealize.ShloMosaic.Lib.ValueIdx

noncomputable section

namespace Cert.KernelIdeal.Node1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- THE NODE HALF'S PERCEPTRON VALUES, as a function of the arrays the region finds: the sum of the two tables of
    50000 rows (the node features plus the aggregated messages, in this order), the two weight matrices, the
    two bias rows (1×128 arrays read at their one row). -/
abbrev yOf (c : Dev nD) : Fin 50000 → Fin 128 → EReal :=
  Cert.Spec.mlp (fun r l => @HAdd.hAdd EReal EReal EReal instHAdd (V c main_arg0 (ix2 r l)) (V c main_v30 (ix2 r l))) (fun l k => V c main_arg4 (ix2 l k))
    (fun k => V c main_v31 (ix2 (0 : Fin 1) k)) (fun l k => V c main_arg6 (ix2 l k))
    (fun k => V c main_v32 (ix2 (0 : Fin 1) k))

end Cert.KernelIdeal.Node1

end
-- ==== Proof.Node1Blk.lean ====
/-
  A block of each of the node half's two tables is a stretch of its rows.

  Each table has 50000 rows of 128 numbers; grid point `t` of 10 reads rows `5000 t … 5000 t + 4999` of both:
  row `r` of a block is row `5000 t + r` of its table.  The two weight matrices and the two bias rows
  are read whole at every point.  So the block's perceptron values at `(r, j)` are the tables'
  perceptron values `yOf` at `(5000 t + r, j)`.
-/
import proofs.«164139_j1597727834590_1_alg».proof.Proof.SpecLaws
import proofs.«164139_j1597727834590_1_alg».proof.Proof.Node1Pay
import proofs.«164139_j1597727834590_1_alg».proof.Proof.Node1Def
import proofs.«164139_j1597727834590_1_alg».proof.Proof.Edge1Sum
import proofs.«164139_j1597727834590_1_alg».proof.Proof.Gen.KernelIdeal.Frame

noncomputable section

namespace Cert.KernelIdeal.Node1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- 10 blocks of 5000 rows are the 50000 rows. -/
theorem hTB : cfg2.N * 5000 = 50000 := by rw [show cfg2.N = 10 from N_2]

/-- The printed index maps, decided once over the grid: the two tables' and the first output's block index is
    the point on the row axis and zero on the column axis; every other window's is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `r` of the first table's block at point `t` is row `5000 t + r` of the table. -/
theorem iblk_h (c : Dev nD) (t : Fin cfg2.N) (r : Fin 5000) (l : Fin 128) :
    (iblk2 V c 0 t : Vec Ideal S5000x128 .f32) (ix2 r l) = V c main_arg0 (ix2 (Cert.Spec.blockIdx hTB t r) l) := by
  obtain ⟨e0, e1, -⟩ := idx_facts t
  unfold iblk2
  rw [View.read_apply]
  show V c main_arg0 _ = V c main_arg0 _
  congr 1
  funext a
  apply Fin.ext
  match a with
  | ⟨0, _⟩ => show win2_0.index t (0 : Fin 2) * 5000 + 1 * r.val = t.val * 5000 + r.val; rw [e0]; omega
  | ⟨1, _⟩ => show win2_0.index t (1 : Fin 2) * 128 + 1 * l.val = l.val; rw [e1]; omega

/-- Row `r` of the second table's block at point `t` is row `5000 t + r` of the table. -/
theorem iblk_agg (c : Dev nD) (t : Fin cfg2.N) (r : Fin 5000) (l : Fin 128) :
    (iblk2 V c 1 t : Vec Ideal S5000x128 .f32) (ix2 r l) = V c main_v30 (ix2 (Cert.Spec.blockIdx hTB t r) l) := by
  obtain ⟨-, -, e0, e1, -⟩ := idx_facts t
  unfold iblk2
  rw [View.read_apply]
  show V c main_v30 _ = V c main_v30 _
  congr 1
  funext a
  apply Fin.ext
  match a with
  | ⟨0, _⟩ => show win2_1.index t (0 : Fin 2) * 5000 + 1 * r.val = t.val * 5000 + r.val; rw [e0]; omega
  | ⟨1, _⟩ => show win2_1.index t (1 : Fin 2) * 128 + 1 * l.val = l.val; rw [e1]; omega

/-- The first weight matrix is read whole. -/
theorem iblk_W1 (c : Dev nD) (t : Fin cfg2.N) (l k : Fin 128) :
    (iblk2 V c 2 t : Vec Ideal S128x128 .f32) (ix2 l k) = V c main_arg4 (ix2 l k) := by
  obtain ⟨-, -, -, -, e0, e1, -⟩ := idx_facts t
  unfold iblk2
  rw [View.read_apply]
  show V c main_arg4 _ = V c main_arg4 _
  congr 1
  funext a
  apply Fin.ext
  match a with
  | ⟨0, _⟩ => show win2_2.index t (0 : Fin 2) * 128 + 1 * l.val = l.val; rw [e0]; omega
  | ⟨1, _⟩ => show win2_2.index t (1 : Fin 2) * 128 + 1 * k.val = k.val; rw [e1]; omega

/-- The first bias row is read whole. -/
theorem iblk_b1 (c : Dev nD) (t : Fin cfg2.N) (k : Fin 128) :
    (iblk2 V c 3 t : Vec Ideal S1x128 .f32) (ix2 (0 : Fin 1) k) = V c main_v31 (ix2 (0 : Fin 1) k) := by
  obtain ⟨-, -, -, -, -, -, e0, e1, -⟩ := idx_facts t
  unfold iblk2
  rw [View.read_apply]
  show V c main_v31 _ = V c main_v31 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

/-- The second weight matrix is read whole. -/
theorem iblk_W2 (c : Dev nD) (t : Fin cfg2.N) (l k : Fin 128) :
    (iblk2 V c 4 t : Vec Ideal S128x128 .f32) (ix2 l k) = V c main_arg6 (ix2 l k) := by
  obtain ⟨-, -, -, -, -, -, -, -, e0, e1, -⟩ := idx_facts t
  unfold iblk2
  rw [View.read_apply]
  show V c main_arg6 _ = V c main_arg6 _
  congr 1
  funext a
  apply Fin.ext
  match a with
  | ⟨0, _⟩ => show win2_4.index t (0 : Fin 2) * 128 + 1 * l.val = l.val; rw [e0]; omega
  | ⟨1, _⟩ => show win2_4.index t (1 : Fin 2) * 128 + 1 * k.val = k.val; rw [e1]; omega

/-- The second bias row is read whole. -/
theorem iblk_b2 (c : Dev nD) (t : Fin cfg2.N) (k : Fin 128) :
    (iblk2 V c 5 t : Vec Ideal S1x128 .f32) (ix2 (0 : Fin 1) k) = V c main_v32 (ix2 (0 : Fin 1) k) := by
  obtain ⟨-, -, -, -, -, -, -, -, -, -, e0, e1, -⟩ := idx_facts t
  unfold iblk2
  rw [View.read_apply]
  show V c main_v32 _ = V c main_v32 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * k.val = k.val; rw [e1]; omega

/-- The block of perceptron values point `t` computes. -/
def yBlk (c : Dev nD) (t : Fin cfg2.N) : Vec Ideal S5000x128 .f32 :=
  k2_pay4 (F := Ideal) (iblk2 V c 0 t) (iblk2 V c 1 t) (iblk2 V c 2 t) (iblk2 V c 3 t) (iblk2 V c 4 t) (iblk2 V c 5 t)

/-- THE BLOCK IS A STRETCH OF THE TABLES' VALUES: entry `(r, j)` of point `t`'s block is `yOf` at row `5000 t + r`. -/
theorem yBlk_apply (c : Dev nD) (t : Fin cfg2.N) (r : Fin 5000) (j : Fin 128) :
    yBlk V c t (ix2 r j) = yOf V c (Cert.Spec.blockIdx hTB t r) j := by
  unfold yBlk
  refine (pay4_apply _ _ _ _ _ _ r j).trans ?_
  simp only [iblk_W1, iblk_b1, iblk_W2, iblk_b2]
  exact Cert.KernelIdeal.Edge1.mlp_row _ _ _ _ _ _ r _
    (fun l => congrArg₂ (fun a b : EReal => a + b) (iblk_h V c t r l) (iblk_agg V c t r l)) j

end Cert.KernelIdeal.Node1

end
-- ==== Proof.Node1Case.lean ====
/-
  What one grid point of the node half leaves in its three output blocks, as values.

  The body has two cases.  At the first point it stores the zero row into both running rows, then
  proceeds as at every other point: it stores the block's perceptron values into the first output
  block, adds the block's column sums to the first running row and the column sums of the squares
  to the second.  Each output block is written by covering stores, so what it holds afterwards is
  the last store's value: at the first point the running rows start from the zero row, at the
  others from what the point before left.
-/
import proofs.«164139_j1597727834590_1_alg».proof.Proof.Gen.KernelIdeal.Frame
import Idealize.ShloMosaic.Lib.Pipeline.Value
import Idealize.ShloMosaic.Lib.Tactic

noncomputable section

namespace Cert.KernelIdeal.Node1

open Idealize.ShloMosaic Idealize.ShloMosaic.TcCoe Idealize.SL.Sem
open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- The first output block after the first point: the block's perceptron values. -/
theorem out_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay4 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

/-- The first output block after any later point: the block's perceptron values. -/
theorem out_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay4 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

/-- The running row of column sums after the first point: the zero row plus the block's column sums. -/
theorem out_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x4 x5 k2_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

/-- The running row of column sums after a later point: what the point before left plus the block's column sums. -/
theorem out_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz]
  simp only [View.readAt_eq_ld, harg1.read_unread, harg2.read_unread, harg3.read_unread, harg4.read_unread, harg5.read_unread, harg6.read_unread, harg8.read_unread, View.ld_unit_zero (S := S5000x128) hz, View.ld_unit_zero (S := S128x128) hz, View.ld_unit_zero (S := S1x128) hz]

/-- The running row of column sums of squares after the first point: from the zero row. -/
theorem out_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x1 x2 x3 x4 x5) k2_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

/-- The running row of column sums of squares after a later point: from what the point before left. -/
theorem out_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S5000x128) hz, View.ld_unit_zero (S := S128x128) hz, View.ld_unit_zero (S := S1x128) hz]

end Cert.KernelIdeal.Node1

end
-- ==== Proof.Node1Acc.lean ====
/-
  The node half's three output blocks after each grid point, by induction on the point.

  After point `n` the first output block holds the perceptron values of block `n`; the running row of
  column sums holds the sum, over the points up to `n`, of each block's column sums; the running row of
  column sums of squares likewise.  The first point starts both rows from zero, every later point adds
  to what the point before left.  After the last point the rows hold the sums over all 10 blocks.
-/
import proofs.«164139_j1597727834590_1_alg».proof.Proof.Node1Blk
import proofs.«164139_j1597727834590_1_alg».proof.Proof.Node1Case

noncomputable section

namespace Cert.KernelIdeal.Node1

open Idealize.ShloMosaic Idealize.ShloMosaic.TcCoe Idealize.ShloMosaic.ValueIdx Idealize.SL.Sem
open Cert.KernelIdeal Cert.KernelIdeal.Gen
open Cert.KernelIdeal.Edge1 (acc_total)

variable (V : (c : Dev nD) → (b : Ref sig .tc) → Buf (Elt Ideal) ((c : Thread nD τ).loc b))

/-- Every point but the first is in the accumulating case. -/
theorem not_first (n : ℕ) (h : n + 1 < cfg2.N) : ¬(⟨n + 1, h⟩ : Fin cfg2.N).val % 10 = 0 := by
  have hN : cfg2.N = 10 := N_2
  dsimp only
  omega

/-- After every point the first output block holds that point's block of perceptron values. -/
theorem y_at (c : Dev nD) : ∀ (n : ℕ) (h : n < cfg2.N), (outsAt2 V c n h).1 = yBlk V c ⟨n, h⟩
  | 0, h => by
    rw [outsAt2_A V c ⟨0, h⟩ rfl]
    dsimp only
    rw [out_A_6]
    rfl
  | n + 1, h => by
    rw [outsAt2_B V c ⟨n + 1, h⟩ (not_first n h)]
    dsimp only
    rw [out_B_6]
    rfl

/-- The running row of column sums after the first point. -/
theorem sum_zero (c : Dev nD) (j : Fin 128) (h : 0 < cfg2.N) :
    (outsAt2 V c 0 h).2.1 (ix2 (0 : Fin 1) j) = 0 + ∑ r : Fin 5000, yBlk V c ⟨0, h⟩ (ix2 r j) := by
  rw [outsAt2_A V c ⟨0, h⟩ rfl]
  dsimp only
  rw [out_A_7, pay5_apply, pay2_apply]
  rfl

/-- The running row of column sums after a later point. -/
theorem sum_succ (c : Dev nD) (j : Fin 128) (n : ℕ) (h : n + 1 < cfg2.N) :
    (outsAt2 V c (n + 1) h).2.1 (ix2 (0 : Fin 1) j)
      = (outsAt2 V c n (Nat.lt_of_succ_lt h)).2.1 (ix2 (0 : Fin 1) j) + ∑ r : Fin 5000, yBlk V c ⟨n + 1, h⟩ (ix2 r j) := by
  rw [outsAt2_B V c ⟨n + 1, h⟩ (not_first n h)]
  dsimp only
  rw [out_B_7, pay5_apply]
  rfl

/-- The running row of column sums of squares after the first point. -/
theorem sumsq_zero (c : Dev nD) (j : Fin 128) (h : 0 < cfg2.N) :
    (outsAt2 V c 0 h).2.2 (ix2 (0 : Fin 1) j)
      = 0 + ∑ r : Fin 5000, yBlk V c ⟨0, h⟩ (ix2 r j) * yBlk V c ⟨0, h⟩ (ix2 r j) := by
  rw [outsAt2_A V c ⟨0, h⟩ rfl]
  dsimp only
  rw [out_A_8, pay1_apply, pay3_apply]
  rfl

/-- The running row of column sums of squares after a later point. -/
theorem sumsq_succ (c : Dev nD) (j : Fin 128) (n : ℕ) (h : n + 1 < cfg2.N) :
    (outsAt2 V c (n + 1) h).2.2 (ix2 (0 : Fin 1) j)
      = (outsAt2 V c n (Nat.lt_of_succ_lt h)).2.2 (ix2 (0 : Fin 1) j)
        + ∑ r : Fin 5000, yBlk V c ⟨n + 1, h⟩ (ix2 r j) * yBlk V c ⟨n + 1, h⟩ (ix2 r j) := by
  rw [outsAt2_B V c ⟨n + 1, h⟩ (not_first n h)]
  dsimp only
  rw [out_B_8, pay1_apply]
  rfl

/-- AFTER THE LAST POINT the running row of column sums holds each column's sum over all 50000 rows. -/
theorem sum_last (c : Dev nD) (j : Fin 128) (t : Fin cfg2.N) (hlast : t.val + 1 = cfg2.N) :
    (outsAt2 V c t.val t.isLt).2.1 (ix2 (0 : Fin 1) j) = Cert.Spec.colSum (yOf V c) j := by
  rw [acc_total (fun n h => (outsAt2 V c n h).2.1 (ix2 (0 : Fin 1) j))
    (fun n h => ∑ r : Fin 5000, yBlk V c ⟨n, h⟩ (ix2 r j))
    (fun h => sum_zero V c j h) (fun n h => sum_succ V c j n h) t.val t.isLt hlast]
  unfold Cert.Spec.colSum
  rw [Cert.Spec.sum_blocks hTB]
  exact Finset.sum_congr rfl fun s _ => Finset.sum_congr rfl fun r _ => yBlk_apply V c s r j

/-- AFTER THE LAST POINT the running row of column sums of squares holds each column's sum of squares over all rows. -/
theorem sumsq_last (c : Dev nD) (j : Fin 128) (t : Fin cfg2.N) (hlast : t.val + 1 = cfg2.N) :
    (outsAt2 V c t.val t.isLt).2.2 (ix2 (0 : Fin 1) j) = Cert.Spec.colSumSq (yOf V c) j := by
  rw [acc_total (fun n h => (outsAt2 V c n h).2.2 (ix2 (0 : Fin 1) j))
    (fun n h => ∑ r : Fin 5000, yBlk V c ⟨n, h⟩ (ix2 r j) * yBlk V c ⟨n, h⟩ (ix2 r j))
    (fun h => sumsq_zero V c j h) (fun n h => sumsq_succ V c j n h) t.val t.isLt hlast]
  unfold Cert.Spec.colSumSq
  rw [Cert.Spec.sum_blocks hTB]
  exact Finset.sum_congr rfl fun s _ => Finset.sum_congr rfl fun r _ => by rw [yBlk_apply V c s r j]

end Cert.KernelIdeal.Node1

end
-- ==== Proof.Node1Final.lean ====
/-
  The node half's three result arrays after the region's last grid point.

  The first output is written back at every point, block `t` onto rows `5000 t … 5000 t + 4999`: the 10
  blocks tile the 50000 rows, so the array ends holding the perceptron values of every row.  The two running
  rows are written back once, after the last point, when they hold the sums over all rows; their one block
  is their whole array.
-/
import proofs.«164139_j1597727834590_1_alg».proof.Proof.Node1Acc
import Idealize.ShloMosaic.Lib.Pipeline.Value

noncomputable section

namespace Cert.KernelIdeal.Node1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The array of perceptron values, -/
def arrY (c : Dev nD) : Buf (Elt Ideal) ((c : Thread nD τ).loc main_v35_0) := fun i => yOf V c (i 0) (i 1)
/-- the row of column sums, -/
def arrSum (c : Dev nD) : Buf (Elt Ideal) ((c : Thread nD τ).loc main_v35_1) := fun i => Cert.Spec.colSum (yOf V c) (i 1)
/-- and the row of column sums of squares. -/
def arrSumSq (c : Dev nD) : Buf (Elt Ideal) ((c : Thread nD τ).loc main_v35_2) := fun i => Cert.Spec.colSumSq (yOf V c) (i 1)

theorem arrY_apply (c : Dev nD) (r : Fin 50000) (j : Fin 128) : arrY V c (ix2 r j) = yOf V c r j := rfl
theorem arrSum_apply (c : Dev nD) (u : Fin 1) (j : Fin 128) : arrSum V c (ix2 u j) = Cert.Spec.colSum (yOf V c) j := rfl
theorem arrSumSq_apply (c : Dev nD) (u : Fin 1) (j : Fin 128) : arrSumSq V c (ix2 u j) = Cert.Spec.colSumSq (yOf V c) j := rfl

/-- The point that writes the running rows back is the last one. -/
theorem last_of_flush (t : Fin cfg2.N) (h : t.val % 10 = 9) : t.val + 1 = cfg2.N := by
  have hN : cfg2.N = 10 := N_2
  have := t.isLt
  omega

/-- The last point. -/
def tLast : Fin cfg2.N := ⟨9, by rw [show cfg2.N = 10 from N_2]; decide⟩

/-! ## The first output: the perceptron values -/

/-- A block whose row `r` is row `5000 t + r` of an array `G` is block `t` of `G`. -/
theorem blk5_of (c : Dev nD) (t : Fin cfg2.N) (X : Vec Ideal S5000x128 .f32)
    (G : Buf (Elt Ideal) ((c : Thread nD τ).loc main_v35_0))
    (h : ∀ (r : Fin 5000) (j : Fin 128), X (ix2 r j) = G (ix2 (Cert.Spec.blockIdx hTB t r) j)) :
    (cfg2.win 6).cut (grid2.coords t) X = ((cfg2.win 6).blk t).view.read (Elt Ideal) G := by
  obtain ⟨-, -, -, -, -, -, -, -, -, -, -, -, e0, e1, -⟩ := idx_facts t
  funext y
  obtain ⟨r, j, rfl⟩ : ∃ (r : Fin 5000) (j : Fin 128), y = ix2 r j := ⟨y 0, y 1, eq_ix2 y⟩
  show X (ix2 r j) = G (((cfg2.win 6).blk t).view.emb (ix2 r j))
  rw [h r j]
  refine congrArg G (funext fun a => Fin.ext ?_)
  match a with
  | ⟨0, _⟩ => show t.val * 5000 + r.val = win2_6.index t (0 : Fin 2) * 5000 + 1 * r.val; rw [e0]; omega
  | ⟨1, _⟩ => show j.val = win2_6.index t (1 : Fin 2) * 128 + 1 * j.val; rw [e1]; omega

/-- What point `t` writes back is block `t` of the array of perceptron values. -/
theorem flushed5 (c : Dev nD) (t : Fin cfg2.N) :
    (dat2 V c).flushed 6 t = ((cfg2.win 6).blk t).view.read (Elt Ideal) (arrY V c) := by
  show (cfg2.win 6).cut (grid2.coords t) ((dat2 V c).after 6 t) = _
  rw [after2_6, y_at V c t.val t.isLt]
  exact blk5_of c t _ _ fun r j => (yBlk_apply V c t r j).trans (arrY_apply V c _ j).symm

/-- An index of the array is in point `t`'s block iff each coordinate is in the block's range on its axis. -/
theorem mem_blk5 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v35_0).slice (win2_6.rect t)).set ↔ _
  rw [View.set_slice_whole, Rect.mem_set_unit]
  exact Iff.rfl

/-- THE ARRAY OF PERCEPTRON VALUES: row `i` is in the block of point `i / 5000`. -/
theorem arr5 (c : Dev nD) : (dat2 V c).arrAt 6 cfg2.N = arrY V c :=
  (dat2 V c).arrAt_eq_of_cover 6 (arrY V c) (fun t _ => flushed5 V c t) fun i => by
    have hN : cfg2.N = 10 := N_2
    have h0 : (i 0).val < 50000 := (i 0).isLt
    have h1 : (i 1).val < 128 := (i 1).isLt
    have hlt : (i 0).val / 5000 < cfg2.N := by rw [hN]; omega
    refine ⟨⟨(i 0).val / 5000, hlt⟩, flush2_6 _, ?_⟩
    obtain ⟨-, -, -, -, -, -, -, -, -, -, -, -, e0, e1, -⟩ := idx_facts ⟨(i 0).val / 5000, hlt⟩
    rw [mem_blk5]
    intro a
    match a with
    | ⟨0, _⟩ =>
      show win2_6.index ⟨(i 0).val / 5000, hlt⟩ (0 : Fin 2) * 5000 ≤ (i 0).val
        ∧ (i 0).val < win2_6.index ⟨(i 0).val / 5000, hlt⟩ (0 : Fin 2) * 5000 + 5000
      rw [e0]; dsimp only; omega
    | ⟨1, _⟩ =>
      show win2_6.index ⟨(i 0).val / 5000, hlt⟩ (1 : Fin 2) * 128 ≤ (i 1).val
        ∧ (i 1).val < win2_6.index ⟨(i 0).val / 5000, hlt⟩ (1 : Fin 2) * 128 + 128
      rw [e1]; omega

/-! ## The running row of column sums -/

/-- A row equal to an array `G`'s one row is `G`'s one block. -/
theorem blk6_of (c : Dev nD) (t : Fin cfg2.N) (X : Vec Ideal S1x128 .f32)
    (G : Buf (Elt Ideal) ((c : Thread nD τ).loc main_v35_1))
    (h : ∀ j : Fin 128, X (ix2 (0 : Fin 1) j) = G (ix2 (0 : Fin 1) j)) :
    (cfg2.win 7).cut (grid2.coords t) X = ((cfg2.win 7).blk t).view.read (Elt Ideal) G := by
  obtain ⟨-, -, -, -, -, -, -, -, -, -, -, -, -, -, e0, e1, -⟩ := idx_facts t
  funext y
  obtain ⟨u, j, rfl⟩ : ∃ (u : Fin 1) (j : Fin 128), y = ix2 u j := ⟨y 0, y 1, eq_ix2 y⟩
  obtain rfl : u = 0 := Subsingleton.elim _ _
  show X (ix2 (0 : Fin 1) j) = G (((cfg2.win 7).blk t).view.emb (ix2 (0 : Fin 1) j))
  rw [h j]
  refine congrArg G (funext fun a => Fin.ext ?_)
  match a with
  | ⟨0, _⟩ => show 0 = win2_7.index t (0 : Fin 2) * 1 + 1 * 0; rw [e0]
  | ⟨1, _⟩ => show j.val = win2_7.index t (1 : Fin 2) * 128 + 1 * j.val; rw [e1]; omega

/-- What the last point writes back is the row of column sums. -/
theorem flushed6 (c : Dev nD) (t : Fin cfg2.N) (hf : (cfg2.win 7).flush t = true) :
    (dat2 V c).flushed 7 t = ((cfg2.win 7).blk t).view.read (Elt Ideal) (arrSum V c) := by
  have hl := last_of_flush t ((flush2_7 t).mp hf)
  show (cfg2.win 7).cut (grid2.coords t) ((dat2 V c).after 7 t) = _
  rw [after2_7]
  exact blk6_of c t _ _ fun j => (sum_last V c j t hl).trans (arrSum_apply V c 0 j).symm

/-- An index of the row is in point `t`'s block iff each coordinate is in the block's range on its axis. -/
theorem mem_blk6 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v35_1).slice (win2_7.rect t)).set ↔ _
  rw [View.set_slice_whole, Rect.mem_set_unit]
  exact Iff.rfl

/-- THE ROW OF COLUMN SUMS: its one block, written back after the last point, is the whole row. -/
theorem arr6 (c : Dev nD) : (dat2 V c).arrAt 7 cfg2.N = arrSum V c :=
  (dat2 V c).arrAt_eq_of_cover 7 (arrSum V c) (fun t hf => flushed6 V c t hf) fun i => by
    have h0 : (i 0).val < 1 := (i 0).isLt
    have h1 : (i 1).val < 128 := (i 1).isLt
    refine ⟨tLast, (flush2_7 tLast).mpr rfl, ?_⟩
    obtain ⟨-, -, -, -, -, -, -, -, -, -, -, -, -, -, e0, e1, -⟩ := idx_facts tLast
    rw [mem_blk6]
    intro a
    match a with
    | ⟨0, _⟩ =>
      show win2_7.index tLast (0 : Fin 2) * 1 ≤ (i 0).val ∧ (i 0).val < win2_7.index tLast (0 : Fin 2) * 1 + 1
      rw [e0]; omega
    | ⟨1, _⟩ =>
      show win2_7.index tLast (1 : Fin 2) * 128 ≤ (i 1).val ∧ (i 1).val < win2_7.index tLast (1 : Fin 2) * 128 + 128
      rw [e1]; omega

/-! ## The running row of column sums of squares -/

/-- A row equal to an array `G`'s one row is `G`'s one block. -/
theorem blk7_of (c : Dev nD) (t : Fin cfg2.N) (X : Vec Ideal S1x128 .f32)
    (G : Buf (Elt Ideal) ((c : Thread nD τ).loc main_v35_2))
    (h : ∀ j : Fin 128, X (ix2 (0 : Fin 1) j) = G (ix2 (0 : Fin 1) j)) :
    (cfg2.win 8).cut (grid2.coords t) X = ((cfg2.win 8).blk t).view.read (Elt Ideal) G := by
  obtain ⟨-, -, -, -, -, -, -, -, -, -, -, -, -, -, -, -, e0, e1⟩ := idx_facts t
  funext y
  obtain ⟨u, j, rfl⟩ : ∃ (u : Fin 1) (j : Fin 128), y = ix2 u j := ⟨y 0, y 1, eq_ix2 y⟩
  obtain rfl : u = 0 := Subsingleton.elim _ _
  show X (ix2 (0 : Fin 1) j) = G (((cfg2.win 8).blk t).view.emb (ix2 (0 : Fin 1) j))
  rw [h j]
  refine congrArg G (funext fun a => Fin.ext ?_)
  match a with
  | ⟨0, _⟩ => show 0 = win2_8.index t (0 : Fin 2) * 1 + 1 * 0; rw [e0]
  | ⟨1, _⟩ => show j.val = win2_8.index t (1 : Fin 2) * 128 + 1 * j.val; rw [e1]; omega

/-- What the last point writes back is the row of column sums of squares. -/
theorem flushed7 (c : Dev nD) (t : Fin cfg2.N) (hf : (cfg2.win 8).flush t = true) :
    (dat2 V c).flushed 8 t = ((cfg2.win 8).blk t).view.read (Elt Ideal) (arrSumSq V c) := by
  have hl := last_of_flush t ((flush2_8 t).mp hf)
  show (cfg2.win 8).cut (grid2.coords t) ((dat2 V c).after 8 t) = _
  rw [after2_8]
  exact blk7_of c t _ _ fun j => (sumsq_last V c j t hl).trans (arrSumSq_apply V c 0 j).symm

/-- An index of the row is in point `t`'s block iff each coordinate is in the block's range on its axis. -/
theorem mem_blk7 (t : Fin cfg2.N) (i : S1x128.Idx) :
    i ∈ ((cfg2.win 8).blk t).view.set ↔ ∀ a : Fin 2, win2_8.index t a * S1x128.size a ≤ (i a).val
      ∧ (i a).val < win2_8.index t a * S1x128.size a + S1x128.size a := by
  show i ∈ ((View.whole main_v35_2).slice (win2_8.rect t)).set ↔ _
  rw [View.set_slice_whole, Rect.mem_set_unit]
  exact Iff.rfl

/-- THE ROW OF COLUMN SUMS OF SQUARES: its one block, written back after the last point, is the whole row. -/
theorem arr7 (c : Dev nD) : (dat2 V c).arrAt 8 cfg2.N = arrSumSq V c :=
  (dat2 V c).arrAt_eq_of_cover 8 (arrSumSq V c) (fun t hf => flushed7 V c t hf) fun i => by
    have h0 : (i 0).val < 1 := (i 0).isLt
    have h1 : (i 1).val < 128 := (i 1).isLt
    refine ⟨tLast, (flush2_8 tLast).mpr rfl, ?_⟩
    obtain ⟨-, -, -, -, -, -, -, -, -, -, -, -, -, -, -, -, e0, e1⟩ := idx_facts tLast
    rw [mem_blk7]
    intro a
    match a with
    | ⟨0, _⟩ =>
      show win2_8.index tLast (0 : Fin 2) * 1 ≤ (i 0).val ∧ (i 0).val < win2_8.index tLast (0 : Fin 2) * 1 + 1
      rw [e0]; omega
    | ⟨1, _⟩ =>
      show win2_8.index tLast (1 : Fin 2) * 128 ≤ (i 1).val ∧ (i 1).val < win2_8.index tLast (1 : Fin 2) * 128 + 128
      rw [e1]; omega

/-! ## The three results, entry by entry -/

/-- The first result array ends holding the perceptron values, row by row. -/
theorem y_final (c : Dev nD) (r : Fin 50000) (j : Fin 128) :
    (Gen.dat2 V c).arrAt 6 cfg2.N (ix2 r j) = yOf V c r j :=
  (congrFun (arr5 V c) (ix2 r j)).trans (arrY_apply V c r j)

/-- The second ends holding each column's sum over all rows. -/
theorem sum_final (c : Dev nD) (j : Fin 128) :
    (Gen.dat2 V c).arrAt 7 cfg2.N (ix2 (0 : Fin 1) j) = Cert.Spec.colSum (yOf V c) j :=
  (congrFun (arr6 V c) (ix2 (0 : Fin 1) j)).trans (arrSum_apply V c 0 j)

/-- The third ends holding each column's sum of squares over all rows. -/
theorem sumsq_final (c : Dev nD) (j : Fin 128) :
    (Gen.dat2 V c).arrAt 8 cfg2.N (ix2 (0 : Fin 1) j) = Cert.Spec.colSumSq (yOf V c) j :=
  (congrFun (arr7 V c) (ix2 (0 : Fin 1) j)).trans (arrSumSq_apply V c 0 j)

end Cert.KernelIdeal.Node1

end
-- ==== Proof.Node1.lean ====
/-
  The node half's accumulating region, read as values: after its last grid point the first result array holds
  the perceptron values of every row, the second the column sums of those values, the third the column sums
  of their squares.  The three statements (`y_final`, `sum_final`, `sumsq_final`) are proved in
  Proof/Node1Final.lean, over the block arithmetic (Node1Pay), the two cases of a grid point (Node1Case), the
  blocks as stretches of rows (Node1Blk) and the induction over the points (Node1Acc).
-/
import proofs.«164139_j1597727834590_1_alg».proof.Proof.Node1Final
-- ==== Proof.Node2Value.lean ====
/-
  The second pass of the node half, read as a value: over any contents `V` of the buffers when the pass is entered,
  the table it leaves holds, at row `r` and column `j`, the normalized, scaled, shifted entry of the first pass's table
  plus the residual entry: (y - mean) * (var + eps)^(-1/2) * gamma + beta + res.  The pass walks the 50000 rows in
  10 blocks of 5000; each block's result is the same function of the buffers read at the block's rows, so the blocks
  together are one function of the whole tables.
-/
import proofs.«164139_j1597727834590_1_alg».proof.Proof.Gen.KernelIdeal.Frame
import proofs.«164139_j1597727834590_1_alg».proof.Proof.Spec
import Idealize.ShloMosaic.Lib.ValueIdx
import Idealize.ShloMosaic.Lib.Pipeline.Value

noncomputable section

namespace Cert.KernelIdeal.Node2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The small constant added to the variance under the square root, as the program spells it. -/
abbrev eps : EReal := Ideal.ofBits .f32 0x3727C5AC#32

/-! ## The body's arithmetic at one entry of a block -/

/-- A row of 128 repeated down the 5000 rows of a block, read at row `r` and column `j`, is the row's entry `j`. -/
theorem rowDown_apply {α : Type} (x : S1x128.Idx → α) (r : Fin 5000) (j : Fin 128) :
    broadcastTo S5000x128 x broadcasts_S1x128_S5000x128 (ix2 r j) = x (ix2 (0 : Fin 1) j) :=
  broadcastTo_apply x _ _ _ (fun a => by
    match a with
    | ⟨0, _⟩ => rfl
    | ⟨1, _⟩ => rfl)

/-- What the body stores at row `r`, column `j` of its block: the entry of `y` less the column's mean, times the
    inverse square root of the column's variance plus `eps`, times the column's scale, plus its shift, plus the
    residual entry. -/
theorem pay_apply (v0 : Vec Ideal S5000x128 .f32) (v2 v7 v13 v17 : Vec Ideal S1x128 .f32) (v21 : Vec Ideal S5000x128 .f32)
    (r : Fin 5000) (j : Fin 128) :
    k3_pay1 v0 v2 v7 v13 v17 v21 (ix2 r j)
      = (v0 (ix2 r j) - v7 (ix2 (0 : Fin 1) j)) * Ideal.rsqrt (v2 (ix2 (0 : Fin 1) j) + eps)
          * v13 (ix2 (0 : Fin 1) j) + v17 (ix2 (0 : Fin 1) j) + v21 (ix2 r j) := by
  unfold k3_pay1
  simp only [shapeCast_self, addf_apply, mulf_apply, subf_apply, rowDown_apply]
  rfl

/-- The same at any index `y` of the block. -/
theorem pay_at (v0 : Vec Ideal S5000x128 .f32) (v2 v7 v13 v17 : Vec Ideal S1x128 .f32) (v21 : Vec Ideal S5000x128 .f32)
    (y : S5000x128.Idx) :
    k3_pay1 v0 v2 v7 v13 v17 v21 y
      = (v0 y - v7 (ix2 (0 : Fin 1) (y 1))) * Ideal.rsqrt (v2 (ix2 (0 : Fin 1) (y 1)) + eps)
          * v13 (ix2 (0 : Fin 1) (y 1)) + v17 (ix2 (0 : Fin 1) (y 1)) + v21 y := by
  obtain ⟨p, q, rfl⟩ : ∃ (p : Fin 5000) (q : Fin 128), y = ix2 p q := ⟨y 0, y 1, eq_ix2 y⟩
  exact pay_apply v0 v2 v7 v13 v17 v21 p q

/-! ## The whole table -/

/-- The normalized table as one function of six tables: at index `i`, the entry of `Y` at `i` less column `i 1`'s
    mean, times the inverse square root of the column's variance plus `eps`, times the column's scale, plus its
    shift, plus the residual entry at `i`. -/
def Gf (Y Res : S50000x128.Idx → EReal) (M Vr Gm Bt : S1x128.Idx → EReal) : S50000x128.Idx → EReal := fun i =>
  (Y i - M (ix2 (0 : Fin 1) (i 1))) * Ideal.rsqrt (Vr (ix2 (0 : Fin 1) (i 1)) + eps) * Gm (ix2 (0 : Fin 1) (i 1))
    + Bt (ix2 (0 : Fin 1) (i 1)) + Res i

/-- The table the pass leaves, as that function of the buffers it reads. -/
abbrev G (c : Dev nD) : S50000x128.Idx → EReal :=
  Gf (V c main_v35_0) (V c main_arg0) (V c main_v37) (V c main_v41) (V c main_v33) (V c main_v34)

theorem hz : (![0, 0] : Fin 2 → Nat) = fun _ => 0 := funext fun a => by fin_cases a <;> rfl

/-- The windows' index maps over the grid: the three tables move one block of 5000 rows per point, the four rows
    stay put. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## Each input block, read where the output block's entry sits in the whole table

An entry `y` of point `t`'s block sits in a table at row `t * 5000 + y 0`, column `y 1`; a row buffer's one block is
the whole row. -/

/-- The block of `y` at point `t`, at `y`, is the table's entry under the output block's entry. -/
theorem read_y (c : Dev nD) (t : Fin cfg3.N) (y : ((cfg3.win 6).xblock (grid3.coords t)).Idx) :
    iblk3 V c 0 t y = (V c main_v35_0 : S50000x128.Idx → EReal) (((cfg3.win 6).blk t).view.emb y) := by
  obtain ⟨a0, a1, b0, b1, m0, m1, s0, s1, g0, g1, h0, h1, o0, o1⟩ := idx_facts t
  show (V c main_v35_0 : S50000x128.Idx → EReal) (((cfg3.win 0).blk t).view.emb y) = _
  refine congrArg (V c main_v35_0 : S50000x128.Idx → EReal) (funext fun a => Fin.ext ?_)
  match a with
  | ⟨0, _⟩ =>
    show win3_0.index t (0 : Fin 2) * 5000 + 1 * (y 0).val = win3_6.index t (0 : Fin 2) * 5000 + 1 * (y 0).val
    omega
  | ⟨1, _⟩ =>
    show win3_0.index t (1 : Fin 2) * 128 + 1 * (y 1).val = win3_6.index t (1 : Fin 2) * 128 + 1 * (y 1).val
    omega

/-- The same for the residual table. -/
theorem read_res (c : Dev nD) (t : Fin cfg3.N) (y : ((cfg3.win 6).xblock (grid3.coords t)).Idx) :
    iblk3 V c 1 t y = (V c main_arg0 : S50000x128.Idx → EReal) (((cfg3.win 6).blk t).view.emb y) := by
  obtain ⟨a0, a1, b0, b1, m0, m1, s0, s1, g0, g1, h0, h1, o0, o1⟩ := idx_facts t
  show (V c main_arg0 : S50000x128.Idx → EReal) (((cfg3.win 1).blk t).view.emb y) = _
  refine congrArg (V c main_arg0 : S50000x128.Idx → EReal) (funext fun a => Fin.ext ?_)
  match a with
  | ⟨0, _⟩ =>
    show win3_1.index t (0 : Fin 2) * 5000 + 1 * (y 0).val = win3_6.index t (0 : Fin 2) * 5000 + 1 * (y 0).val
    omega
  | ⟨1, _⟩ =>
    show win3_1.index t (1 : Fin 2) * 128 + 1 * (y 1).val = win3_6.index t (1 : Fin 2) * 128 + 1 * (y 1).val
    omega

/-- The mean row's block is the whole row: its entry at the block's column is the row's entry at the table's column. -/
theorem read_mean (c : Dev nD) (t : Fin cfg3.N) (y : ((cfg3.win 6).xblock (grid3.coords t)).Idx) :
    iblk3 V c 2 t (ix2 (0 : Fin 1) (y 1))
      = (V c main_v37 : S1x128.Idx → EReal) (ix2 (0 : Fin 1) ((((cfg3.win 6).blk t).view.emb y) 1)) := by
  obtain ⟨a0, a1, b0, b1, m0, m1, s0, s1, g0, g1, h0, h1, o0, o1⟩ := idx_facts t
  show (V c main_v37 : S1x128.Idx → EReal) (((cfg3.win 2).blk t).view.emb (ix2 (0 : Fin 1) (y 1))) = _
  refine congrArg (V c main_v37 : S1x128.Idx → EReal) (funext fun a => Fin.ext ?_)
  match a with
  | ⟨0, _⟩ =>
    show win3_2.index t (0 : Fin 2) * 1 + 1 * 0 = 0
    omega
  | ⟨1, _⟩ =>
    show win3_2.index t (1 : Fin 2) * 128 + 1 * (y 1).val = win3_6.index t (1 : Fin 2) * 128 + 1 * (y 1).val
    omega

/-- The same for the variance row. -/
theorem read_var (c : Dev nD) (t : Fin cfg3.N) (y : ((cfg3.win 6).xblock (grid3.coords t)).Idx) :
    iblk3 V c 3 t (ix2 (0 : Fin 1) (y 1))
      = (V c main_v41 : S1x128.Idx → EReal) (ix2 (0 : Fin 1) ((((cfg3.win 6).blk t).view.emb y) 1)) := by
  obtain ⟨a0, a1, b0, b1, m0, m1, s0, s1, g0, g1, h0, h1, o0, o1⟩ := idx_facts t
  show (V c main_v41 : S1x128.Idx → EReal) (((cfg3.win 3).blk t).view.emb (ix2 (0 : Fin 1) (y 1))) = _
  refine congrArg (V c main_v41 : S1x128.Idx → EReal) (funext fun a => Fin.ext ?_)
  match a with
  | ⟨0, _⟩ =>
    show win3_3.index t (0 : Fin 2) * 1 + 1 * 0 = 0
    omega
  | ⟨1, _⟩ =>
    show win3_3.index t (1 : Fin 2) * 128 + 1 * (y 1).val = win3_6.index t (1 : Fin 2) * 128 + 1 * (y 1).val
    omega

/-- The same for the scale row. -/
theorem read_scale (c : Dev nD) (t : Fin cfg3.N) (y : ((cfg3.win 6).xblock (grid3.coords t)).Idx) :
    iblk3 V c 4 t (ix2 (0 : Fin 1) (y 1))
      = (V c main_v33 : S1x128.Idx → EReal) (ix2 (0 : Fin 1) ((((cfg3.win 6).blk t).view.emb y) 1)) := by
  obtain ⟨a0, a1, b0, b1, m0, m1, s0, s1, g0, g1, h0, h1, o0, o1⟩ := idx_facts t
  show (V c main_v33 : S1x128.Idx → EReal) (((cfg3.win 4).blk t).view.emb (ix2 (0 : Fin 1) (y 1))) = _
  refine congrArg (V c main_v33 : S1x128.Idx → EReal) (funext fun a => Fin.ext ?_)
  match a with
  | ⟨0, _⟩ =>
    show win3_4.index t (0 : Fin 2) * 1 + 1 * 0 = 0
    omega
  | ⟨1, _⟩ =>
    show win3_4.index t (1 : Fin 2) * 128 + 1 * (y 1).val = win3_6.index t (1 : Fin 2) * 128 + 1 * (y 1).val
    omega

/-- The same for the shift row. -/
theorem read_shift (c : Dev nD) (t : Fin cfg3.N) (y : ((cfg3.win 6).xblock (grid3.coords t)).Idx) :
    iblk3 V c 5 t (ix2 (0 : Fin 1) (y 1))
      = (V c main_v34 : S1x128.Idx → EReal) (ix2 (0 : Fin 1) ((((cfg3.win 6).blk t).view.emb y) 1)) := by
  obtain ⟨a0, a1, b0, b1, m0, m1, s0, s1, g0, g1, h0, h1, o0, o1⟩ := idx_facts t
  show (V c main_v34 : S1x128.Idx → EReal) (((cfg3.win 5).blk t).view.emb (ix2 (0 : Fin 1) (y 1))) = _
  refine congrArg (V c main_v34 : S1x128.Idx → EReal) (funext fun a => Fin.ext ?_)
  match a with
  | ⟨0, _⟩ =>
    show win3_5.index t (0 : Fin 2) * 1 + 1 * 0 = 0
    omega
  | ⟨1, _⟩ =>
    show win3_5.index t (1 : Fin 2) * 128 + 1 * (y 1).val = win3_6.index t (1 : Fin 2) * 128 + 1 * (y 1).val
    omega

/-- What point `t` writes back is block `t` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  funext y
  refine (pay_at (iblk3 V c 0 t) (iblk3 V c 3 t) (iblk3 V c 2 t) (iblk3 V c 4 t) (iblk3 V c 5 t) (iblk3 V c 1 t) y).trans ?_
  show _ = G V c (((cfg3.win 6).blk t).view.emb y)
  unfold G Gf
  rw [read_y V c t y, read_res V c t y, read_mean V c t y, read_var V c t y, read_scale V c t y, read_shift V c t y]

/-- An index of the table is in point `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v42).slice (win3_6.rect t)).set ↔ _
  rw [View.set_slice_whole, Rect.mem_set_unit]
  exact Iff.rfl

/-- Every index of the table is in some point's block: row `r` is in block `r / 5000`. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : grid3.N = 10 := N_3
  have hlt : (i 0).val / 5000 < grid3.N := by omega
  obtain ⟨a0, a1, b0, b1, m0, m1, s0, s1, g0, g1, h0, h1, o0, o1⟩ := idx_facts ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    have ht : ((⟨(i 0).val / 5000, hlt⟩ : Fin cfg3.N) : Nat) = (i 0).val / 5000 := rfl
    omega
  | ⟨1, _⟩ =>
    show win3_6.index ⟨(i 0).val / 5000, hlt⟩ (1 : Fin 2) * 128 ≤ (i 1).val
      ∧ (i 1).val < win3_6.index ⟨(i 0).val / 5000, hlt⟩ (1 : Fin 2) * 128 + 128
    omega

/-- The table after the pass is `G`. -/
theorem final (c : Dev nD) : (dat3 V c).arrAt 6 cfg3.N = G V c :=
  (dat3 V c).arrAt_eq_of_cover 6 (G V c) (fun t _ => flushed_eq V c t) cover

/-- The table after the pass, entry by entry. -/
theorem out_final (c : Dev nD) (r : Fin 50000) (j : Fin 128) :
    (Gen.dat3 V c).arrAt 6 cfg3.N (ix2 r j)
      = Cert.Spec.bnOut (Ideal.ofBits .f32 0x3727C5AC#32) (fun r l => V c main_v35_0 (ix2 r l))
          (fun k => V c main_v37 (ix2 (0 : Fin 1) k)) (fun k => V c main_v41 (ix2 (0 : Fin 1) k))
          (fun k => V c main_v33 (ix2 (0 : Fin 1) k)) (fun k => V c main_v34 (ix2 (0 : Fin 1) k))
          (fun r l => V c main_arg0 (ix2 r l)) r j :=
  (congrFun (final V c) (ix2 r j)).trans rfl

end Cert.KernelIdeal.Node2V

end
-- ==== Proof.Node2.lean ====
/-
  The second pass of the node half, read as a value: over any contents `V` of the buffers when the pass is entered,
  the table it leaves holds, at row `r` and column `j`, the normalized, scaled, shifted entry of the first pass's table
  plus the residual entry: (y - mean) * (var + eps)^(-1/2) * gamma + beta + res.
-/
import proofs.«164139_j1597727834590_1_alg».proof.Proof.Node2Value

noncomputable section

namespace Cert.KernelIdeal.Node2

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem out_final (c : Dev nD) (r : Fin 50000) (j : Fin 128) :
    (Gen.dat3 V c).arrAt 6 cfg3.N (ix2 r j)
      = Cert.Spec.bnOut (Ideal.ofBits .f32 0x3727C5AC#32) (fun r l => V c main_v35_0 (ix2 r l))
          (fun k => V c main_v37 (ix2 (0 : Fin 1) k)) (fun k => V c main_v41 (ix2 (0 : Fin 1) k))
          (fun k => V c main_v33 (ix2 (0 : Fin 1) k)) (fun k => V c main_v34 (ix2 (0 : Fin 1) k))
          (fun r l => V c main_arg0 (ix2 r l)) r j :=
  Cert.KernelIdeal.Node2V.out_final V c r j

end Cert.KernelIdeal.Node2

end
-- ==== Proof.HostK1.lean ====
/-
  The host operations between the first pass and the second pass of one half of the layer: from the two
  column sums the first pass leaves (the sum and the sum of squares of each of the 128 columns over the 800000
  rows) they make the column's mean, sum / N, and its variance from the moments, sumsq / N - mean * mean, where
  N is 800000 as a binary32 word.  Read here at every column index, over any contents of the buffers before the
  stretch.
-/
import proofs.«164139_j1597727834590_1_alg».proof.Proof.Gen.KernelIdeal.Launch
import Idealize.ShloMosaic.Lib.ValueIdx
import Idealize.ShloMosaic.Lib.Pipeline.Value

noncomputable section

namespace Cert.KernelIdeal.HostK

open Cert.KernelIdeal Cert.KernelIdeal.Gen Idealize.ShloMosaic Idealize.ShloMosaic.TcCoe Idealize.SL.Sem
open Idealize.ShloMosaic.ValueIdx

variable (W : Valuation τ sig (Elt Ideal))

/-- The number of rows, 800000, as the program spells it: a binary32 word. -/
abbrev N8 : EReal := Ideal.ofBits .f32 0x49435000#32

/-- The mean row is the sum row divided, entry by entry, by the broadcast row count. -/
theorem h1_mean_eq :
    (StableHlo.after (hostOps1 (F := Ideal)) W (Proc.devRef .tc main_v22) : S1x128.Idx → EReal)
      = Host.divf (F := Ideal) (W (Proc.devRef .tc main_v20_1))
          (broadcastInDim S1x128 ![] bcast_S_S1x128 (constant (F := Ideal) S_ .f32 0x49435000#32)) := by
  after_results

/-- The mean of column `k`: the column's sum divided by the row count. -/
theorem h1_mean (k : Fin 128) :
    StableHlo.after (hostOps1 (F := Ideal)) W (Proc.devRef .tc main_v22) (ix2 (0 : Fin 1) k)
      = Ideal.div (W (Proc.devRef .tc main_v20_1) (ix2 (0 : Fin 1) k)) N8 :=
  (congrFun (h1_mean_eq W) (ix2 (0 : Fin 1) k)).trans rfl

/-- The variance row is the sum-of-squares row over the row count, minus the square of the mean row. -/
theorem h1_var_eq :
    (StableHlo.after (hostOps1 (F := Ideal)) W (Proc.devRef .tc main_v26) : S1x128.Idx → EReal)
      = subf (Host.divf (F := Ideal) (W (Proc.devRef .tc main_v20_2))
          (broadcastInDim S1x128 ![] bcast_S_S1x128 (constant (F := Ideal) S_ .f32 0x49435000#32)))
         (mulf (Host.divf (F := Ideal) (W (Proc.devRef .tc main_v20_1))
          (broadcastInDim S1x128 ![] bcast_S_S1x128 (constant (F := Ideal) S_ .f32 0x49435000#32)))
          (Host.divf (F := Ideal) (W (Proc.devRef .tc main_v20_1))
          (broadcastInDim S1x128 ![] bcast_S_S1x128 (constant (F := Ideal) S_ .f32 0x49435000#32)))) := by
  after_results

/-- The variance of column `k` from its moments: the mean of the squares minus the square of the mean. -/
theorem h1_var (k : Fin 128) :
    StableHlo.after (hostOps1 (F := Ideal)) W (Proc.devRef .tc main_v26) (ix2 (0 : Fin 1) k)
      = Ideal.div (W (Proc.devRef .tc main_v20_2) (ix2 (0 : Fin 1) k)) N8
        - Ideal.div (W (Proc.devRef .tc main_v20_1) (ix2 (0 : Fin 1) k)) N8
          * Ideal.div (W (Proc.devRef .tc main_v20_1) (ix2 (0 : Fin 1) k)) N8 :=
  (congrFun (h1_var_eq W) (ix2 (0 : Fin 1) k)).trans rfl

end Cert.KernelIdeal.HostK

end
-- ==== Proof.HostK3.lean ====
/-
  The host operations between the first pass and the second pass of one half of the layer: from the two
  column sums the first pass leaves (the sum and the sum of squares of each of the 128 columns over the 50000
  rows) they make the column's mean, sum / N, and its variance from the moments, sumsq / N - mean * mean, where
  N is 50000 as a binary32 word.  Read here at every column index, over any contents of the buffers before the
  stretch.
-/
import proofs.«164139_j1597727834590_1_alg».proof.Proof.Gen.KernelIdeal.Launch
import Idealize.ShloMosaic.Lib.ValueIdx
import Idealize.ShloMosaic.Lib.Pipeline.Value

noncomputable section

namespace Cert.KernelIdeal.HostK

open Cert.KernelIdeal Cert.KernelIdeal.Gen Idealize.ShloMosaic Idealize.ShloMosaic.TcCoe Idealize.SL.Sem
open Idealize.ShloMosaic.ValueIdx

variable (W : Valuation τ sig (Elt Ideal))

/-- The number of rows, 50000, as the program spells it: a binary32 word. -/
abbrev N5 : EReal := Ideal.ofBits .f32 0x47435000#32

/-- The mean row is the sum row divided, entry by entry, by the broadcast row count. -/
theorem h3_mean_eq :
    (StableHlo.after (hostOps3 (F := Ideal)) W (Proc.devRef .tc main_v37) : S1x128.Idx → EReal)
      = Host.divf (F := Ideal) (W (Proc.devRef .tc main_v35_1))
          (broadcastInDim S1x128 ![] bcast_S_S1x128 (constant (F := Ideal) S_ .f32 0x47435000#32)) := by
  after_results

/-- The mean of column `k`: the column's sum divided by the row count. -/
theorem h3_mean (k : Fin 128) :
    StableHlo.after (hostOps3 (F := Ideal)) W (Proc.devRef .tc main_v37) (ix2 (0 : Fin 1) k)
      = Ideal.div (W (Proc.devRef .tc main_v35_1) (ix2 (0 : Fin 1) k)) N5 :=
  (congrFun (h3_mean_eq W) (ix2 (0 : Fin 1) k)).trans rfl

/-- The variance row is the sum-of-squares row over the row count, minus the square of the mean row. -/
theorem h3_var_eq :
    (StableHlo.after (hostOps3 (F := Ideal)) W (Proc.devRef .tc main_v41) : S1x128.Idx → EReal)
      = subf (Host.divf (F := Ideal) (W (Proc.devRef .tc main_v35_2))
          (broadcastInDim S1x128 ![] bcast_S_S1x128 (constant (F := Ideal) S_ .f32 0x47435000#32)))
         (mulf (Host.divf (F := Ideal) (W (Proc.devRef .tc main_v35_1))
          (broadcastInDim S1x128 ![] bcast_S_S1x128 (constant (F := Ideal) S_ .f32 0x47435000#32)))
          (Host.divf (F := Ideal) (W (Proc.devRef .tc main_v35_1))
          (broadcastInDim S1x128 ![] bcast_S_S1x128 (constant (F := Ideal) S_ .f32 0x47435000#32)))) := by
  after_results

/-- The variance of column `k` from its moments: the mean of the squares minus the square of the mean. -/
theorem h3_var (k : Fin 128) :
    StableHlo.after (hostOps3 (F := Ideal)) W (Proc.devRef .tc main_v41) (ix2 (0 : Fin 1) k)
      = Ideal.div (W (Proc.devRef .tc main_v35_2) (ix2 (0 : Fin 1) k)) N5
        - Ideal.div (W (Proc.devRef .tc main_v35_1) (ix2 (0 : Fin 1) k)) N5
          * Ideal.div (W (Proc.devRef .tc main_v35_1) (ix2 (0 : Fin 1) k)) N5 :=
  (congrFun (h3_var_eq W) (ix2 (0 : Fin 1) k)).trans rfl

end Cert.KernelIdeal.HostK

end
-- ==== Proof.HostK.lean ====
/-
  The four stretches of host operations of the layer, read as values over any contents `W` of the buffers before
  the stretch.  Before the edge half: the message table `me` (each edge's two endpoint rows of the node table, added,
  plus the edge's own row) and four rows reshaped from vectors of 128.  Between the two passes of a half: each
  column's mean and its variance from the moments.  Before the node half: the sums of the new edge rows over the
  edges arriving at each node (`agg`) and four more reshaped rows.
-/
import proofs.«164139_j1597727834590_1_alg».proof.Proof.Gen.KernelIdeal.Launch
import proofs.«164139_j1597727834590_1_alg».proof.Proof.HostK1
import proofs.«164139_j1597727834590_1_alg».proof.Proof.HostK3
import Idealize.ShloMosaic.Lib.ValueIdx
import Idealize.ShloMosaic.Lib.Pipeline.Value

noncomputable section

namespace Cert.KernelIdeal.HostK

open Cert.KernelIdeal Cert.KernelIdeal.Gen Idealize.ShloMosaic Idealize.ShloMosaic.TcCoe Idealize.SL.Sem
open Idealize.ShloMosaic.ValueIdx

variable (W : Valuation τ sig (Elt Ideal))

/-- An endpoint index made a row index of the node table: a negative index counts from the end (50000 is added),
    and the vector of 800000 indices is laid out as a column. -/
def rowIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The message table: row `i` is the node table's row at edge `i`'s source plus its row at edge `i`'s destination
    plus the edge's own row. -/
def me (h : FVec Ideal S50000x128 .f32) (e : FVec Ideal S800000x128 .f32) (src dst : IVec S800000 32) :
    FVec Ideal S800000x128 .f32 :=
  addf (F := Ideal) (addf (F := Ideal) (Host.gather gather_S50000x128_S800000x1_S800000x128_1_0_n_n_0_1_1128 h (rowIdx src))
             (Host.gather gather_S50000x128_S800000x1_S800000x128_1_0_n_n_0_1_1128 h (rowIdx dst))) e

/-- A vector of 128 laid out as one row: entry `k` of the row is entry `k` of the vector. -/
theorem row_of_vec (x : S128.Idx → EReal) (k : Fin 128) :
    shapeCast S1x128 x shapeCasts_S128_S1x128 (ix2 (0 : Fin 1) k) = x (ix1 k) :=
  shapeCast_apply x _ _ _ (by
    rw [Shape.rowMajor_val_one, Shape.rowMajor_val_two]
    show k.val = 0 * 128 + k.val
    omega)

theorem h0_me :
    (StableHlo.after (hostOps0 (F := Ideal)) W (Proc.devRef .tc main_v15) : FVec Ideal S800000x128 .f32)
      = me (W (Proc.devRef .tc main_arg0)) (W (Proc.devRef .tc main_arg1)) (W (Proc.devRef .tc main_arg2)) (W (Proc.devRef .tc main_arg3)) := by
  unfold me rowIdx
  after_results_simp <;> rfl

theorem h0_v16 (k : Fin 128) :
    StableHlo.after (hostOps0 (F := Ideal)) W (Proc.devRef .tc main_v16) (ix2 (0 : Fin 1) k) = W (Proc.devRef .tc main_arg9) (ix1 k) := by
  have e : (StableHlo.after (hostOps0 (F := Ideal)) W (Proc.devRef .tc main_v16) : S1x128.Idx → EReal)
      = shapeCast S1x128 (W (Proc.devRef .tc main_arg9) : S128.Idx → EReal) shapeCasts_S128_S1x128 := by
    after_results_simp <;> rfl
  exact (congrFun e (ix2 (0 : Fin 1) k)).trans (row_of_vec _ k)
theorem h0_v17 (k : Fin 128) :
    StableHlo.after (hostOps0 (F := Ideal)) W (Proc.devRef .tc main_v17) (ix2 (0 : Fin 1) k) = W (Proc.devRef .tc main_arg11) (ix1 k) := by
  have e : (StableHlo.after (hostOps0 (F := Ideal)) W (Proc.devRef .tc main_v17) : S1x128.Idx → EReal)
      = shapeCast S1x128 (W (Proc.devRef .tc main_arg11) : S128.Idx → EReal) shapeCasts_S128_S1x128 := by
    after_results_simp <;> rfl
  exact (congrFun e (ix2 (0 : Fin 1) k)).trans (row_of_vec _ k)
theorem h0_v18 (k : Fin 128) :
    StableHlo.after (hostOps0 (F := Ideal)) W (Proc.devRef .tc main_v18) (ix2 (0 : Fin 1) k) = W (Proc.devRef .tc main_arg14) (ix1 k) := by
  have e : (StableHlo.after (hostOps0 (F := Ideal)) W (Proc.devRef .tc main_v18) : S1x128.Idx → EReal)
      = shapeCast S1x128 (W (Proc.devRef .tc main_arg14) : S128.Idx → EReal) shapeCasts_S128_S1x128 := by
    after_results_simp <;> rfl
  exact (congrFun e (ix2 (0 : Fin 1) k)).trans (row_of_vec _ k)
theorem h0_v19 (k : Fin 128) :
    StableHlo.after (hostOps0 (F := Ideal)) W (Proc.devRef .tc main_v19) (ix2 (0 : Fin 1) k) = W (Proc.devRef .tc main_arg15) (ix1 k) := by
  have e : (StableHlo.after (hostOps0 (F := Ideal)) W (Proc.devRef .tc main_v19) : S1x128.Idx → EReal)
      = shapeCast S1x128 (W (Proc.devRef .tc main_arg15) : S128.Idx → EReal) shapeCasts_S128_S1x128 := by
    after_results_simp <;> rfl
  exact (congrFun e (ix2 (0 : Fin 1) k)).trans (row_of_vec _ k)

/-- The aggregate: into a table of zeros, each new edge row added at the row its destination index names. -/
def agg (dst : IVec S800000 32) (eNew : FVec Ideal S800000x128 .f32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) eNew

theorem h2_agg :
    (StableHlo.after (hostOps2 (F := Ideal)) W (Proc.devRef .tc main_v30) : FVec Ideal S50000x128 .f32)
      = agg (W (Proc.devRef .tc main_arg3)) (W (Proc.devRef .tc main_v27)) := by
  unfold agg
  after_results <;> rfl

theorem h2_v31 (k : Fin 128) :
    StableHlo.after (hostOps2 (F := Ideal)) W (Proc.devRef .tc main_v31) (ix2 (0 : Fin 1) k) = W (Proc.devRef .tc main_arg5) (ix1 k) := by
  have e : (StableHlo.after (hostOps2 (F := Ideal)) W (Proc.devRef .tc main_v31) : S1x128.Idx → EReal)
      = shapeCast S1x128 (W (Proc.devRef .tc main_arg5) : S128.Idx → EReal) shapeCasts_S128_S1x128 := by
    after_results <;> rfl
  exact (congrFun e (ix2 (0 : Fin 1) k)).trans (row_of_vec _ k)
theorem h2_v32 (k : Fin 128) :
    StableHlo.after (hostOps2 (F := Ideal)) W (Proc.devRef .tc main_v32) (ix2 (0 : Fin 1) k) = W (Proc.devRef .tc main_arg7) (ix1 k) := by
  have e : (StableHlo.after (hostOps2 (F := Ideal)) W (Proc.devRef .tc main_v32) : S1x128.Idx → EReal)
      = shapeCast S1x128 (W (Proc.devRef .tc main_arg7) : S128.Idx → EReal) shapeCasts_S128_S1x128 := by
    after_results <;> rfl
  exact (congrFun e (ix2 (0 : Fin 1) k)).trans (row_of_vec _ k)
theorem h2_v33 (k : Fin 128) :
    StableHlo.after (hostOps2 (F := Ideal)) W (Proc.devRef .tc main_v33) (ix2 (0 : Fin 1) k) = W (Proc.devRef .tc main_arg12) (ix1 k) := by
  have e : (StableHlo.after (hostOps2 (F := Ideal)) W (Proc.devRef .tc main_v33) : S1x128.Idx → EReal)
      = shapeCast S1x128 (W (Proc.devRef .tc main_arg12) : S128.Idx → EReal) shapeCasts_S128_S1x128 := by
    after_results <;> rfl
  exact (congrFun e (ix2 (0 : Fin 1) k)).trans (row_of_vec _ k)
theorem h2_v34 (k : Fin 128) :
    StableHlo.after (hostOps2 (F := Ideal)) W (Proc.devRef .tc main_v34) (ix2 (0 : Fin 1) k) = W (Proc.devRef .tc main_arg13) (ix1 k) := by
  have e : (StableHlo.after (hostOps2 (F := Ideal)) W (Proc.devRef .tc main_v34) : S1x128.Idx → EReal)
      = shapeCast S1x128 (W (Proc.devRef .tc main_arg13) : S128.Idx → EReal) shapeCasts_S128_S1x128 := by
    after_results <;> rfl
  exact (congrFun e (ix2 (0 : Fin 1) k)).trans (row_of_vec _ k)

end Cert.KernelIdeal.HostK

end
-- ==== Proof.KernelValue.lean ====
/-
  The idealized kernel's two results, index by index, as functions of the launch memory.

  The edge half: the message table `me` (host operations) goes through the perceptron row by row (region 0, which
  also leaves each column's sum and sum of squares), the host makes each column's mean and its variance from the two
  moments, and region 1 normalizes, scales, shifts and adds the edge table: the new edge table is
  `bnMoments N ε (mlp me …) γ β e` with `N` the word of 800000.  The node half is the same on the node table plus the
  aggregate of the new edge rows (a host scatter-add, kept as one term), with `N` the word of 50000.  Each value is
  read where it is produced and carried to where it is used by the fact that nothing in between writes its buffer.
-/
import proofs.«164139_j1597727834590_1_alg».proof.Proof.Gen.KernelIdeal.Frame
import proofs.«164139_j1597727834590_1_alg».proof.Proof.Walk
import proofs.«164139_j1597727834590_1_alg».proof.Proof.SpecCongr
import proofs.«164139_j1597727834590_1_alg».proof.Proof.Edge1
import proofs.«164139_j1597727834590_1_alg».proof.Proof.Edge2
import proofs.«164139_j1597727834590_1_alg».proof.Proof.Node1
import proofs.«164139_j1597727834590_1_alg».proof.Proof.Node2
import proofs.«164139_j1597727834590_1_alg».proof.Proof.HostK

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Keep Cert.KernelIdeal.Walk Cert.KernelIdeal.HostK Cert.Spec

variable (m : (ℓ : Loc nD τ sig) → Buf (Elt Ideal) ℓ) (ρ : Dev nD → PrngReg) (c : Dev nD)

/-- The word the kernel adds to a variance. -/
abbrev eps : EReal := Ideal.ofBits .f32 0x3727C5AC#32

/-! ## The edge half -/

/-- The message table of the launch memory. -/
abbrev meM : S800000x128.Idx → EReal :=
  HostK.me (m ((c : Thread nD τ).loc main_arg0)) (m ((c : Thread nD τ).loc main_arg1))
    (m ((c : Thread nD τ).loc main_arg2)) (m ((c : Thread nD τ).loc main_arg3))

/-- The edge perceptron's values on the message table. -/
abbrev yE : Fin 800000 → Fin 128 → EReal :=
  mlp (fun r l => meM m c (ix2 r l)) (fun l k => m ((c : Thread nD τ).loc main_arg8) (ix2 l k))
    (fun k => m ((c : Thread nD τ).loc main_arg9) (ix1 k)) (fun l k => m ((c : Thread nD τ).loc main_arg10) (ix2 l k))
    (fun k => m ((c : Thread nD τ).loc main_arg11) (ix1 k))

/-- Region 0 finds the message table, the two weight matrices as launched and the two bias rows as launched. -/
theorem yOf_V1 (r : Fin 800000) (j : Fin 128) : Edge1.yOf (V1 m ρ) c r j = yE m c r j :=
  mlp_congr r j (fun l => congrFun (h0_me (W0 m ρ c)) (ix2 r l))
    (fun l k => congrFun (W1_eq m ρ c main_arg8 (by decide)) (ix2 l k))
    (fun k => h0_v16 (W0 m ρ c) k)
    (fun k => congrFun (W1_eq m ρ c main_arg10 (by decide)) (ix2 k j))
    (h0_v17 (W0 m ρ c) j)

theorem y_W2 (r : Fin 800000) (j : Fin 128) : W2 m ρ c (Proc.devRef .tc main_v20_0) (ix2 r j) = yE m c r j :=
  (congrFun (W2_arr m ρ c 5) (ix2 r j)).trans ((Edge1.y_final (V1 m ρ) c r j).trans (yOf_V1 m ρ c r j))

theorem sum_W2 (j : Fin 128) : W2 m ρ c (Proc.devRef .tc main_v20_1) (ix2 (0 : Fin 1) j) = colSum (yE m c) j :=
  (congrFun (W2_arr m ρ c 6) (ix2 (0 : Fin 1) j)).trans
    ((Edge1.sum_final (V1 m ρ) c j).trans (colSum_congr j fun r => yOf_V1 m ρ c r j))

theorem sumsq_W2 (j : Fin 128) : W2 m ρ c (Proc.devRef .tc main_v20_2) (ix2 (0 : Fin 1) j) = colSumSq (yE m c) j :=
  (congrFun (W2_arr m ρ c 7) (ix2 (0 : Fin 1) j)).trans
    ((Edge1.sumsq_final (V1 m ρ) c j).trans (colSumSq_congr j fun r => yOf_V1 m ρ c r j))

theorem y_V3 (r : Fin 800000) (j : Fin 128) : V3 m ρ c main_v20_0 (ix2 r j) = yE m c r j :=
  (congrFun (keep1 (W2 m ρ c) main_v20_0 (by decide)) (ix2 r j)).trans (y_W2 m ρ c r j)

theorem mean_V3 (k : Fin 128) : V3 m ρ c main_v22 (ix2 (0 : Fin 1) k) = meanOf N8 (yE m c) k := by
  refine (h1_mean (W2 m ρ c) k).trans ?_
  rw [sum_W2 m ρ c k]
  rfl

theorem var_V3 (k : Fin 128) : V3 m ρ c main_v26 (ix2 (0 : Fin 1) k) = varMoments N8 (yE m c) k := by
  refine (h1_var (W2 m ρ c) k).trans ?_
  rw [sumsq_W2 m ρ c k, sum_W2 m ρ c k]
  rfl

theorem gamma_V3 (k : Fin 128) : V3 m ρ c main_v18 (ix2 (0 : Fin 1) k) = m ((c : Thread nD τ).loc main_arg14) (ix1 k) :=
  (congrFun ((keep1 (W2 m ρ c) main_v18 (by decide)).trans (W2_of_ne m ρ c main_v18 (by decide))) (ix2 (0 : Fin 1) k)).trans
    (h0_v18 (W0 m ρ c) k)

theorem beta_V3 (k : Fin 128) : V3 m ρ c main_v19 (ix2 (0 : Fin 1) k) = m ((c : Thread nD τ).loc main_arg15) (ix1 k) :=
  (congrFun ((keep1 (W2 m ρ c) main_v19 (by decide)).trans (W2_of_ne m ρ c main_v19 (by decide))) (ix2 (0 : Fin 1) k)).trans
    (h0_v19 (W0 m ρ c) k)

/-- The new edge table as region 1 leaves it. -/
theorem eNew_W4 (r : Fin 800000) (j : Fin 128) : W4 m ρ c (Proc.devRef .tc main_v27) (ix2 r j)
    = bnMoments N8 eps (yE m c) (fun k => m ((c : Thread nD τ).loc main_arg14) (ix1 k))
        (fun k => m ((c : Thread nD τ).loc main_arg15) (ix1 k)) (fun r l => m ((c : Thread nD τ).loc main_arg1) (ix2 r l)) r j :=
  (congrFun (W4_arr m ρ c 6) (ix2 r j)).trans ((Edge2.out_final (V3 m ρ) c r j).trans
    (bnOut_congr r j (y_V3 m ρ c r j) (mean_V3 m ρ c j) (var_V3 m ρ c j) (gamma_V3 m ρ c j) (beta_V3 m ρ c j)
      (congrFun (W3_arg1 m ρ c) (ix2 r j))))

/-- The kernel's second result, the new edge table, index by index. -/
theorem eNew_apply (r : Fin 800000) (j : Fin 128) : W8 m ρ c (Proc.devRef .tc main_v27) (ix2 r j)
    = bnMoments N8 eps (yE m c) (fun k => m ((c : Thread nD τ).loc main_arg14) (ix1 k))
        (fun k => m ((c : Thread nD τ).loc main_arg15) (ix1 k)) (fun r l => m ((c : Thread nD τ).loc main_arg1) (ix2 r l)) r j :=
  (congrFun (W8_v27 m ρ c) (ix2 r j)).trans (eNew_W4 m ρ c r j)

/-! ## The node half -/

/-- The aggregate of the new edge rows at each node, of the launch memory's destination indices. -/
abbrev aggM : S50000x128.Idx → EReal :=
  HostK.agg (m ((c : Thread nD τ).loc main_arg3)) (W4 m ρ c (Proc.devRef .tc main_v27))

/-- The node perceptron's values on the node table plus the aggregate. -/
abbrev yN : Fin 50000 → Fin 128 → EReal :=
  mlp (fun r l => @HAdd.hAdd EReal EReal EReal instHAdd (m ((c : Thread nD τ).loc main_arg0) (ix2 r l)) (aggM m ρ c (ix2 r l)))
    (fun l k => m ((c : Thread nD τ).loc main_arg4) (ix2 l k)) (fun k => m ((c : Thread nD τ).loc main_arg5) (ix1 k))
    (fun l k => m ((c : Thread nD τ).loc main_arg6) (ix2 l k)) (fun k => m ((c : Thread nD τ).loc main_arg7) (ix1 k))

theorem agg_V5 : (V5 m ρ c main_v30 : S50000x128.Idx → EReal) = aggM m ρ c := by
  refine (h2_agg (W4 m ρ c)).trans ?_
  show HostK.agg (W4 m ρ c (Proc.devRef .tc main_arg3)) _ = HostK.agg (m ((c : Thread nD τ).loc main_arg3)) _
  rw [W4_eq m ρ c main_arg3 (by decide) (by decide) (by decide) (by decide)]

theorem arg_V5 (b : Ref sig .tc) (h0 : b ∉ written0) (s0 : ∀ w, Pipeline.arrRef spec0 w ≠ b) (h1 : b ∉ written1)
    (s1 : ∀ w, Pipeline.arrRef spec1 w ≠ b) (h2 : b ∉ written2) : V5 m ρ c b = m ((c : Thread nD τ).loc b) :=
  W5_eq m ρ c b h0 s0 h1 s1 h2

theorem yOf_V5 (r : Fin 50000) (j : Fin 128) : Node1.yOf (V5 m ρ) c r j = yN m ρ c r j :=
  mlp_congr r j
    (fun l => congrArg₂ (@HAdd.hAdd EReal EReal EReal instHAdd)
      (congrFun (arg_V5 m ρ c main_arg0 (by decide) (by decide) (by decide) (by decide) (by decide)) (ix2 r l))
      (congrFun (agg_V5 m ρ c) (ix2 r l)))
    (fun l k => congrFun (arg_V5 m ρ c main_arg4 (by decide) (by decide) (by decide) (by decide) (by decide)) (ix2 l k))
    (fun k => (h2_v31 (W4 m ρ c) k).trans
      (congrFun (W4_eq m ρ c main_arg5 (by decide) (by decide) (by decide) (by decide)) (ix1 k)))
    (fun k => congrFun (arg_V5 m ρ c main_arg6 (by decide) (by decide) (by decide) (by decide) (by decide)) (ix2 k j))
    ((h2_v32 (W4 m ρ c) j).trans
      (congrFun (W4_eq m ρ c main_arg7 (by decide) (by decide) (by decide) (by decide)) (ix1 j)))

theorem y_W6 (r : Fin 50000) (j : Fin 128) : W6 m ρ c (Proc.devRef .tc main_v35_0) (ix2 r j) = yN m ρ c r j :=
  (congrFun (W6_arr m ρ c 6) (ix2 r j)).trans ((Node1.y_final (V5 m ρ) c r j).trans (yOf_V5 m ρ c r j))

theorem sum_W6 (j : Fin 128) : W6 m ρ c (Proc.devRef .tc main_v35_1) (ix2 (0 : Fin 1) j) = colSum (yN m ρ c) j :=
  (congrFun (W6_arr m ρ c 7) (ix2 (0 : Fin 1) j)).trans
    ((Node1.sum_final (V5 m ρ) c j).trans (colSum_congr j fun r => yOf_V5 m ρ c r j))

theorem sumsq_W6 (j : Fin 128) : W6 m ρ c (Proc.devRef .tc main_v35_2) (ix2 (0 : Fin 1) j) = colSumSq (yN m ρ c) j :=
  (congrFun (W6_arr m ρ c 8) (ix2 (0 : Fin 1) j)).trans
    ((Node1.sumsq_final (V5 m ρ) c j).trans (colSumSq_congr j fun r => yOf_V5 m ρ c r j))

theorem y_V7 (r : Fin 50000) (j : Fin 128) : V7 m ρ c main_v35_0 (ix2 r j) = yN m ρ c r j :=
  (congrFun (keep3 (W6 m ρ c) main_v35_0 (by decide)) (ix2 r j)).trans (y_W6 m ρ c r j)

theorem mean_V7 (k : Fin 128) : V7 m ρ c main_v37 (ix2 (0 : Fin 1) k) = meanOf N5 (yN m ρ c) k := by
  refine (h3_mean (W6 m ρ c) k).trans ?_
  rw [sum_W6 m ρ c k]
  rfl

theorem var_V7 (k : Fin 128) : V7 m ρ c main_v41 (ix2 (0 : Fin 1) k) = varMoments N5 (yN m ρ c) k := by
  refine (h3_var (W6 m ρ c) k).trans ?_
  rw [sumsq_W6 m ρ c k, sum_W6 m ρ c k]
  rfl

theorem gamma_V7 (k : Fin 128) : V7 m ρ c main_v33 (ix2 (0 : Fin 1) k) = m ((c : Thread nD τ).loc main_arg12) (ix1 k) :=
  (congrFun ((keep3 (W6 m ρ c) main_v33 (by decide)).trans (W6_of_ne m ρ c main_v33 (by decide))) (ix2 (0 : Fin 1) k)).trans
    ((h2_v33 (W4 m ρ c) k).trans (congrFun (W4_eq m ρ c main_arg12 (by decide) (by decide) (by decide) (by decide)) (ix1 k)))

theorem beta_V7 (k : Fin 128) : V7 m ρ c main_v34 (ix2 (0 : Fin 1) k) = m ((c : Thread nD τ).loc main_arg13) (ix1 k) :=
  (congrFun ((keep3 (W6 m ρ c) main_v34 (by decide)).trans (W6_of_ne m ρ c main_v34 (by decide))) (ix2 (0 : Fin 1) k)).trans
    ((h2_v34 (W4 m ρ c) k).trans (congrFun (W4_eq m ρ c main_arg13 (by decide) (by decide) (by decide) (by decide)) (ix1 k)))

/-- The kernel's first result, the new node table, index by index. -/
theorem hNew_apply (r : Fin 50000) (j : Fin 128) : W8 m ρ c (Proc.devRef .tc main_v42) (ix2 r j)
    = bnMoments N5 eps (yN m ρ c) (fun k => m ((c : Thread nD τ).loc main_arg12) (ix1 k))
        (fun k => m ((c : Thread nD τ).loc main_arg13) (ix1 k)) (fun r l => m ((c : Thread nD τ).loc main_arg0) (ix2 r l)) r j :=
  (congrFun (W8_arr m ρ c 6) (ix2 r j)).trans ((Node2.out_final (V7 m ρ) c r j).trans
    (bnOut_congr r j (y_V7 m ρ c r j) (mean_V7 m ρ c j) (var_V7 m ρ c j) (gamma_V7 m ρ c j) (beta_V7 m ρ c j)
      (congrFun (W7_arg0 m ρ c) (ix2 r j))))

end Cert.KernelIdeal.Value

end
-- ==== Proof.Consts.lean ====
/-
  The float words both programs spell, as the extended reals they denote: the row counts 800000 and 50000 the
  column means are divided by, and the positive ε added to a variance before the inverse square root.
-/
import Idealize.ShloMosaic.PureOps.Ideal

noncomputable section

namespace Cert.Consts

open Idealize.ShloMosaic

/-- The word of `8.0e5` denotes the real 800000, the number of edge rows. -/
theorem ofBits_8e5 : Ideal.ofBits .f32 0x49435000#32 = ((800000 : ℝ) : EReal) := by
  simp [Ideal.ofBits, Ideal.ieee, -EReal.coe_mul]; norm_num

/-- The word of `5.0e4` denotes the real 50000, the number of node rows. -/
theorem ofBits_5e4 : Ideal.ofBits .f32 0x47435000#32 = ((50000 : ℝ) : EReal) := by
  simp [Ideal.ofBits, Ideal.ieee, -EReal.coe_mul]; norm_num

/-- The word nearest `1e-5` denotes a positive real: what is added to a variance stays away from zero. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

end Cert.Consts

end
-- ==== Proof.RefValueLayout.lean ====
/-
  Two layout readings the reference's normalization uses everywhere: a vector of `n` entries laid out as a one-row
  table reads its entry in that row, and the same row spread down `m` rows reads the vector's entry in every row.
  And the host's inverse square root at an index.
-/
import Idealize.ShloMosaic.Lib.KernelVsHost
import Idealize.ShloMosaic.Lib.IdealHost

noncomputable section

namespace Cert.ReferenceIdeal.RefValue

open Idealize.ShloMosaic Idealize.ShloMosaic.ValueIdx

/-- A vector laid out as a one-row table, read in that row. -/
theorem vecRow_apply {α : Type} {n : Nat} (h1 : (⟨1, ![n]⟩ : Shape).BroadcastsInDim ⟨2, ![1, n]⟩ ![1])
    (v : (⟨1, ![n]⟩ : Shape).Idx → α) (j : Fin n) :
    broadcastInDim ⟨2, ![1, n]⟩ ![1] h1 v (ix2 (0 : Fin 1) j) = v (ix1 j) := by
  refine broadcastInDim_apply ![1] h1 v (ix2 (0 : Fin 1) j) (ix1 j) ?_
  intro a
  match a with
  | ⟨0, _⟩ =>
    show j.val = if n = 1 then 0 else j.val
    split
    · have := j.isLt; omega
    · rfl

/-- The same row spread down `m` rows: every row reads the vector. -/
theorem vecRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (j : Fin n) :
    broadcastInDim ⟨2, ![m, n]⟩ ![0, 1] h2 (broadcastInDim ⟨2, ![1, n]⟩ ![1] h1 v) (ix2 r j) = v (ix1 j) :=
  (broadcastInDim_oneRow_apply h2 _ r j).trans (vecRow_apply h1 v j)

/-- The host's inverse square root at an index is the extended reals' of the element. -/
theorem hostRsqrt_apply {s : Shape} {φ : FTy} (x : FVec Ideal s φ) (i : s.Idx) :
    Host.rsqrt x i = Ideal.rsqrt (x i) := rfl

/-- The integer zero converted is the extended real zero. -/
theorem sitofp_zero_word : (FloatOps.sitofp .f32 (0#32 : BitVec 32) : Ideal .f32) = (0 : EReal) := by
  show ((((0#32 : BitVec 32).toInt : ℤ) : ℝ) : EReal) = 0
  simp

/-- Zero is below a positive count: the comparison's bit is one. -/
theorem cmp_ogt_pos {N : EReal} (h : 0 < N) : Ideal.cmp .ogt N 0 = 1#1 := by
  simp [Ideal.cmp, h]

end Cert.ReferenceIdeal.RefValue

end
-- ==== Proof.RefValueE.lean ====
/-
  The edge half of the reference read at an entry: the matrix products, the rectifier, the column sums, means and
  variances and the normalization, each against the specification's index-level function; together, the new edge
  table is the specification's centred normalization of the perceptron.
-/
import proofs.«164139_j1597727834590_1_alg».proof.Proof.RefRunDefs
import proofs.«164139_j1597727834590_1_alg».proof.Proof.Spec
import proofs.«164139_j1597727834590_1_alg».proof.Proof.Consts
import proofs.«164139_j1597727834590_1_alg».proof.Proof.RefValueLayout

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The matrix product at an index -/

theorem lhsE_0 (i : S800000x128.Idx) (q : dot_S800000x128_S128x128_S800000x128_1_0_0_1_n_n.contr.Idx) : (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide),
    dif_pos (show (0 : Fin S800000x128.rank) ∈ dot_S800000x128_S128x128_S800000x128_1_0_0_1_n_n.lhsNonContracting by decide)]
  rfl
theorem lhsE_1 (i : S800000x128.Idx) (q : dot_S800000x128_S128x128_S800000x128_1_0_0_1_n_n.contr.Idx) : (dot_S800000x128_S128x128_S800000x128_1_0_0_1_n_n.lhsIdx i q 1).val = (q ⟨0, by decide⟩).val :=
  dot_S800000x128_S128x128_S800000x128_1_0_0_1_n_n.lhsIdx_val_of_single rfl i q
theorem rhsE_0 (i : S800000x128.Idx) (q : dot_S800000x128_S128x128_S800000x128_1_0_0_1_n_n.contr.Idx) : (dot_S800000x128_S128x128_S800000x128_1_0_0_1_n_n.rhsIdx i q 0).val = (q ⟨0, by decide⟩).val :=
  dot_S800000x128_S128x128_S800000x128_1_0_0_1_n_n.rhsIdx_val_of_single rfl i q
theorem rhsE_1 (i : S800000x128.Idx) (q : dot_S800000x128_S128x128_S800000x128_1_0_0_1_n_n.contr.Idx) : (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide),
    dif_pos (show (1 : Fin S128x128.rank) ∈ dot_S800000x128_S128x128_S800000x128_1_0_0_1_n_n.rhsNonContracting by decide)]
  rfl

/-- Entry `(r, j)` of the table times a matrix: row `r` of the table against column `j` of the matrix. -/
theorem dotE_apply (x : FVec Ideal S800000x128 .f32) (W : FVec Ideal S128x128 .f32) (r : Fin 800000) (j : Fin 128) :
    Host.dotGeneral dot_S800000x128_S128x128_S800000x128_1_0_0_1_n_n none x W (ix2 r j) = ∑ l : Fin 128, x (ix2 r l) * W (ix2 l j) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 r j) ((contrEquiv1 dot_S800000x128_S128x128_S800000x128_1_0_0_1_n_n 128 rfl rfl).symm k) = ix2 r k :=
    funext fun a => Fin.ext (by
      match a with
      | ⟨0, _⟩ => exact lhsE_0 _ _
      | ⟨1, _⟩ => exact (lhsE_1 _ _).trans hk)
  have er : dot_S800000x128_S128x128_S800000x128_1_0_0_1_n_n.rhsIdx (ix2 r j) ((contrEquiv1 dot_S800000x128_S128x128_S800000x128_1_0_0_1_n_n 128 rfl rfl).symm k) = ix2 k j :=
    funext fun a => Fin.ext (by
      match a with
      | ⟨0, _⟩ => exact (rhsE_0 _ _).trans hk
      | ⟨1, _⟩ => exact rhsE_1 _ _)
  rw [el, er]

/-- The perceptron at an entry is the specification's. -/
theorem mlpE_apply (x : FVec Ideal S800000x128 .f32) (W1 : FVec Ideal S128x128 .f32) (b1 : FVec Ideal S128 .f32)
    (W2 : FVec Ideal S128x128 .f32) (b2 : FVec Ideal S128 .f32) (r : Fin 800000) (j : Fin 128) :
    mlpE x W1 b1 W2 b2 (ix2 r j)
      = Cert.Spec.mlp (fun r l => x (ix2 r l)) (fun l k => W1 (ix2 l k)) (fun k => b1 (ix1 k))
          (fun l k => W2 (ix2 l k)) (fun k => b2 (ix1 k)) r j := by
  unfold mlpE Cert.Spec.mlp Cert.Spec.lin
  rw [addf_apply, dotE_apply, vecRows_apply]
  refine congrArg (· + b2 (ix1 j)) (Finset.sum_congr rfl fun l _ => ?_)
  rw [maximumf_apply, addf_apply, dotE_apply, vecRows_apply, broadcastInDim_scalar_apply, constant_apply,
    Ideal.ofBits_zero_f32]

/-! ## The column sums, means and variances at a column -/

/-- The host's sum over the rows from the zero word, at column `j`: the sum of the column. -/
theorem sumE_apply (y : FVec Ideal S800000x128 .f32) (j : Fin 128) :
    Host.reduceAdd y (constant (F := Ideal) S_ .f32 0x00000000#32) reducesTo_S800000x128_S128_d0 h_S_ (ix1 j)
      = ∑ r : Fin 800000, y (ix2 r j) := by
  simp only [Host.reduceAdd, Ideal.hostReduceAdd_def]
  rw [Ideal.hostReduceAdd_single reducesTo_S800000x128_S128_d0 (by decide), constant_apply, Ideal.ofBits_zero_f32, zero_add]
  refine Finset.sum_congr rfl fun k _ => ?_
  exact congrArg y (funext fun a => Fin.ext (by match a with | ⟨0, _⟩ => rfl | ⟨1, _⟩ => rfl))

theorem meanE_apply (y : FVec Ideal S800000x128 .f32) (j : Fin 128) :
    meanE y (ix1 j) = Cert.Spec.meanOf (Ideal.ofBits .f32 0x49435000#32) (fun r l => y (ix2 r l)) j := by
  unfold meanE Cert.Spec.meanOf Cert.Spec.colSum
  rw [hostDivf_apply, sumE_apply, broadcastInDim_scalar_apply, constant_apply]

/-- The deviation of an entry from its column's mean, the mean as the variance recomputes it. -/
theorem devE_apply (y : FVec Ideal S800000x128 .f32) (r : Fin 800000) (j : Fin 128) :
    devE y (ix2 r j) = y (ix2 r j) - Cert.Spec.meanOf (Ideal.ofBits .f32 0x49435000#32) (fun r l => y (ix2 r l)) j := by
  unfold devE Cert.Spec.meanOf Cert.Spec.colSum
  rw [subf_apply, broadcastInDim_oneRow_apply, hostDivf_apply, vecRow_apply, sumE_apply,
    broadcastInDim_scalar_apply, constant_apply]

/-- The variance's divisor is the row count: the correction it subtracts is the integer zero. -/
theorem dofE_eq : dofE (F := Ideal) ix0 = (Ideal.ofBits .f32 0x49435000#32) := by
  unfold dofE
  rw [subf_apply, constant_apply, sitofp_apply]
  show (Ideal.ofBits .f32 0x49435000#32) - (FloatOps.sitofp .f32 (0#32 : BitVec 32) : Ideal .f32) = _
  rw [sitofp_zero_word, sub_zero]

theorem varE_apply (y : FVec Ideal S800000x128 .f32) (j : Fin 128) :
    varE y (ix1 j) = Cert.Spec.varCentred (Ideal.ofBits .f32 0x49435000#32) (fun r l => y (ix2 r l)) j := by
  have hpos : (0 : EReal) < (Ideal.ofBits .f32 0x49435000#32) := by
    rw [Cert.Consts.ofBits_8e5]
    exact_mod_cast (by norm_num : (0 : ℝ) < 800000)
  unfold varE Cert.Spec.varCentred
  rw [select_apply, broadcastInDim_scalar_apply, cmpf_apply, dofE_eq, constant_apply, Ideal.ofBits_zero_f32,
    Ideal.cmpf_def, cmp_ogt_pos hpos, select_one, hostDivf_apply, broadcastInDim_scalar_apply, dofE_eq,
    sumE_apply]
  refine congrArg (fun t => Ideal.div t (Ideal.ofBits .f32 0x49435000#32)) (Finset.sum_congr rfl fun r _ => ?_)
  rw [mulf_apply, devE_apply]

/-! ## The normalization at an entry -/

theorem bnE_apply (y : FVec Ideal S800000x128 .f32) (mean var γ β : FVec Ideal S128 .f32) (res : FVec Ideal S800000x128 .f32)
    (r : Fin 800000) (j : Fin 128) :
    bnE y mean var γ β res (ix2 r j)
      = (y (ix2 r j) - mean (ix1 j)) * Ideal.rsqrt (var (ix1 j) + Ideal.ofBits .f32 0x3727C5AC#32) * γ (ix1 j)
          + β (ix1 j) + res (ix2 r j) := by
  unfold bnE
  rw [addf_apply, addf_apply, mulf_apply, mulf_apply, subf_apply, vecRows_apply, vecRows_apply, vecRows_apply,
    vecRows_apply, hostRsqrt_apply, addf_apply, broadcastInDim_scalar_apply, constant_apply]

/-! ## The new edge table -/

theorem edgeOut_at (me e : FVec Ideal S800000x128 .f32) (Wb1 : FVec Ideal S128x128 .f32) (bb1 : FVec Ideal S128 .f32)
    (Wb2 : FVec Ideal S128x128 .f32) (bb2 γb βb : FVec Ideal S128 .f32) (r : Fin 800000) (j : Fin 128) :
    edgeOut me e Wb1 bb1 Wb2 bb2 γb βb (ix2 r j)
      = Cert.Spec.bnCentred (Ideal.ofBits .f32 0x49435000#32) (Ideal.ofBits .f32 0x3727C5AC#32)
          (Cert.Spec.mlp (fun r l => me (ix2 r l)) (fun l k => Wb1 (ix2 l k)) (fun k => bb1 (ix1 k))
            (fun l k => Wb2 (ix2 l k)) (fun k => bb2 (ix1 k)))
          (fun k => γb (ix1 k)) (fun k => βb (ix1 k)) (fun r l => e (ix2 r l)) r j := by
  have hY : (fun r l => mlpE me Wb1 bb1 Wb2 bb2 (ix2 r l))
      = Cert.Spec.mlp (fun r l => me (ix2 r l)) (fun l k => Wb1 (ix2 l k)) (fun k => bb1 (ix1 k))
          (fun l k => Wb2 (ix2 l k)) (fun k => bb2 (ix1 k)) :=
    funext fun r => funext fun l => mlpE_apply me Wb1 bb1 Wb2 bb2 r l
  unfold edgeOut
  rw [bnE_apply, meanE_apply, varE_apply, hY, mlpE_apply]
  rfl

end Cert.ReferenceIdeal.RefValue

end
-- ==== Proof.RefValueN.lean ====
/-
  The node half of the reference read at an entry, as the edge half: the new node table is the specification's
  centred normalization of the perceptron of the node table plus the summed edge rows.
-/
import proofs.«164139_j1597727834590_1_alg».proof.Proof.RefRunDefs
import proofs.«164139_j1597727834590_1_alg».proof.Proof.Spec
import proofs.«164139_j1597727834590_1_alg».proof.Proof.Consts
import proofs.«164139_j1597727834590_1_alg».proof.Proof.RefValueLayout

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The matrix product at an index -/

theorem lhsN_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhsN_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhsN_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhsN_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- Entry `(r, j)` of the table times a matrix: row `r` of the table against column `j` of the matrix. -/
theorem dotN_apply (x : FVec Ideal S50000x128 .f32) (W : FVec Ideal S128x128 .f32) (r : Fin 50000) (j : Fin 128) :
    Host.dotGeneral dot_S50000x128_S128x128_S50000x128_1_0_0_1_n_n none x W (ix2 r j) = ∑ l : Fin 128, x (ix2 r l) * W (ix2 l j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k :=
    funext fun a => Fin.ext (by
      match a with
      | ⟨0, _⟩ => exact lhsN_0 _ _
      | ⟨1, _⟩ => exact (lhsN_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j :=
    funext fun a => Fin.ext (by
      match a with
      | ⟨0, _⟩ => exact (rhsN_0 _ _).trans hk
      | ⟨1, _⟩ => exact rhsN_1 _ _)
  rw [el, er]

/-- The perceptron at an entry is the specification's. -/
theorem mlpN_apply (x : FVec Ideal S50000x128 .f32) (W1 : FVec Ideal S128x128 .f32) (b1 : FVec Ideal S128 .f32)
    (W2 : FVec Ideal S128x128 .f32) (b2 : FVec Ideal S128 .f32) (r : Fin 50000) (j : Fin 128) :
    mlpN x W1 b1 W2 b2 (ix2 r j)
      = Cert.Spec.mlp (fun r l => x (ix2 r l)) (fun l k => W1 (ix2 l k)) (fun k => b1 (ix1 k))
          (fun l k => W2 (ix2 l k)) (fun k => b2 (ix1 k)) r j := by
  unfold mlpN Cert.Spec.mlp Cert.Spec.lin
  rw [addf_apply, dotN_apply, vecRows_apply]
  refine congrArg (· + b2 (ix1 j)) (Finset.sum_congr rfl fun l _ => ?_)
  rw [maximumf_apply, addf_apply, dotN_apply, vecRows_apply, broadcastInDim_scalar_apply, constant_apply,
    Ideal.ofBits_zero_f32]

/-! ## The column sums, means and variances at a column -/

/-- The host's sum over the rows from the zero word, at column `j`: the sum of the column. -/
theorem sumN_apply (y : FVec Ideal S50000x128 .f32) (j : Fin 128) :
    Host.reduceAdd y (constant (F := Ideal) S_ .f32 0x00000000#32) reducesTo_S50000x128_S128_d0 h_S_ (ix1 j)
      = ∑ r : Fin 50000, y (ix2 r j) := by
  simp only [Host.reduceAdd, Ideal.hostReduceAdd_def]
  rw [Ideal.hostReduceAdd_single reducesTo_S50000x128_S128_d0 (by decide), constant_apply, Ideal.ofBits_zero_f32, zero_add]
  refine Finset.sum_congr rfl fun k _ => ?_
  exact congrArg y (funext fun a => Fin.ext (by match a with | ⟨0, _⟩ => rfl | ⟨1, _⟩ => rfl))

theorem meanN_apply (y : FVec Ideal S50000x128 .f32) (j : Fin 128) :
    meanN y (ix1 j) = Cert.Spec.meanOf (Ideal.ofBits .f32 0x47435000#32) (fun r l => y (ix2 r l)) j := by
  unfold meanN Cert.Spec.meanOf Cert.Spec.colSum
  rw [hostDivf_apply, sumN_apply, broadcastInDim_scalar_apply, constant_apply]

/-- The deviation of an entry from its column's mean, the mean as the variance recomputes it. -/
theorem devN_apply (y : FVec Ideal S50000x128 .f32) (r : Fin 50000) (j : Fin 128) :
    devN y (ix2 r j) = y (ix2 r j) - Cert.Spec.meanOf (Ideal.ofBits .f32 0x47435000#32) (fun r l => y (ix2 r l)) j := by
  unfold devN Cert.Spec.meanOf Cert.Spec.colSum
  rw [subf_apply, broadcastInDim_oneRow_apply, hostDivf_apply, vecRow_apply, sumN_apply,
    broadcastInDim_scalar_apply, constant_apply]

/-- The variance's divisor is the row count: the correction it subtracts is the integer zero. -/
theorem dofN_eq : dofN (F := Ideal) ix0 = (Ideal.ofBits .f32 0x47435000#32) := by
  unfold dofN
  rw [subf_apply, constant_apply, sitofp_apply]
  show (Ideal.ofBits .f32 0x47435000#32) - (FloatOps.sitofp .f32 (0#32 : BitVec 32) : Ideal .f32) = _
  rw [sitofp_zero_word, sub_zero]

theorem varN_apply (y : FVec Ideal S50000x128 .f32) (j : Fin 128) :
    varN y (ix1 j) = Cert.Spec.varCentred (Ideal.ofBits .f32 0x47435000#32) (fun r l => y (ix2 r l)) j := by
  have hpos : (0 : EReal) < (Ideal.ofBits .f32 0x47435000#32) := by
    rw [Cert.Consts.ofBits_5e4]
    exact_mod_cast (by norm_num : (0 : ℝ) < 50000)
  unfold varN Cert.Spec.varCentred
  rw [select_apply, broadcastInDim_scalar_apply, cmpf_apply, dofN_eq, constant_apply, Ideal.ofBits_zero_f32,
    Ideal.cmpf_def, cmp_ogt_pos hpos, select_one, hostDivf_apply, broadcastInDim_scalar_apply, dofN_eq,
    sumN_apply]
  refine congrArg (fun t => Ideal.div t (Ideal.ofBits .f32 0x47435000#32)) (Finset.sum_congr rfl fun r _ => ?_)
  rw [mulf_apply, devN_apply]

/-! ## The normalization at an entry -/

theorem bnN_apply (y : FVec Ideal S50000x128 .f32) (mean var γ β : FVec Ideal S128 .f32) (res : FVec Ideal S50000x128 .f32)
    (r : Fin 50000) (j : Fin 128) :
    bnN y mean var γ β res (ix2 r j)
      = (y (ix2 r j) - mean (ix1 j)) * Ideal.rsqrt (var (ix1 j) + Ideal.ofBits .f32 0x3727C5AC#32) * γ (ix1 j)
          + β (ix1 j) + res (ix2 r j) := by
  unfold bnN
  rw [addf_apply, addf_apply, mulf_apply, mulf_apply, subf_apply, vecRows_apply, vecRows_apply, vecRows_apply,
    vecRows_apply, hostRsqrt_apply, addf_apply, broadcastInDim_scalar_apply, constant_apply]

/-! ## The new node table -/

theorem nodeOut_at (h agg : FVec Ideal S50000x128 .f32) (Wa1 : FVec Ideal S128x128 .f32) (ba1 : FVec Ideal S128 .f32)
    (Wa2 : FVec Ideal S128x128 .f32) (ba2 γa βa : FVec Ideal S128 .f32) (r : Fin 50000) (j : Fin 128) :
    nodeOut h agg Wa1 ba1 Wa2 ba2 γa βa (ix2 r j)
      = Cert.Spec.bnCentred (Ideal.ofBits .f32 0x47435000#32) (Ideal.ofBits .f32 0x3727C5AC#32)
          (Cert.Spec.mlp (fun r l => h (ix2 r l) + agg (ix2 r l)) (fun l k => Wa1 (ix2 l k)) (fun k => ba1 (ix1 k))
            (fun l k => Wa2 (ix2 l k)) (fun k => ba2 (ix1 k)))
          (fun k => γa (ix1 k)) (fun k => βa (ix1 k)) (fun r l => h (ix2 r l)) r j := by
  have hY : (fun r l => mlpN (addf h agg) Wa1 ba1 Wa2 ba2 (ix2 r l))
      = Cert.Spec.mlp (fun r l => h (ix2 r l) + agg (ix2 r l)) (fun l k => Wa1 (ix2 l k)) (fun k => ba1 (ix1 k))
          (fun l k => Wa2 (ix2 l k)) (fun k => ba2 (ix1 k)) :=
    funext fun r => funext fun l => mlpN_apply (addf h agg) Wa1 ba1 Wa2 ba2 r l
  unfold nodeOut
  rw [bnN_apply, meanN_apply, varN_apply, hY, mlpN_apply]
  rfl

end Cert.ReferenceIdeal.RefValue

end
-- ==== Proof.RefValue.lean ====
/-
  The reference's two results read at an entry: each is the specification's centred normalization — the variance as
  the mean of the squared deviations — of the specification's two-layer perceptron, plus the residual table.
-/
import proofs.«164139_j1597727834590_1_alg».proof.Proof.RefValueE
import proofs.«164139_j1597727834590_1_alg».proof.Proof.RefValueN

noncomputable section

namespace Cert.ReferenceIdeal.RefValue

open Cert.ReferenceIdeal Cert.ReferenceIdeal.Gen Cert.ReferenceIdeal.RefRun Idealize.ShloMosaic Idealize.ShloMosaic.ValueIdx
open scoped BigOperators

theorem edgeOut_apply (me e : FVec Ideal S800000x128 .f32) (Wb1 : FVec Ideal S128x128 .f32) (bb1 : FVec Ideal S128 .f32)
    (Wb2 : FVec Ideal S128x128 .f32) (bb2 γb βb : FVec Ideal S128 .f32) (r : Fin 800000) (j : Fin 128) :
    edgeOut me e Wb1 bb1 Wb2 bb2 γb βb (ix2 r j)
      = Cert.Spec.bnCentred (Ideal.ofBits .f32 0x49435000#32) (Ideal.ofBits .f32 0x3727C5AC#32)
          (Cert.Spec.mlp (fun r l => me (ix2 r l)) (fun l k => Wb1 (ix2 l k)) (fun k => bb1 (ix1 k))
            (fun l k => Wb2 (ix2 l k)) (fun k => bb2 (ix1 k)))
          (fun k => γb (ix1 k)) (fun k => βb (ix1 k)) (fun r l => e (ix2 r l)) r j :=
  edgeOut_at me e Wb1 bb1 Wb2 bb2 γb βb r j

theorem nodeOut_apply (h agg : FVec Ideal S50000x128 .f32) (Wa1 : FVec Ideal S128x128 .f32) (ba1 : FVec Ideal S128 .f32)
    (Wa2 : FVec Ideal S128x128 .f32) (ba2 γa βa : FVec Ideal S128 .f32) (r : Fin 50000) (j : Fin 128) :
    nodeOut h agg Wa1 ba1 Wa2 ba2 γa βa (ix2 r j)
      = Cert.Spec.bnCentred (Ideal.ofBits .f32 0x47435000#32) (Ideal.ofBits .f32 0x3727C5AC#32)
          (Cert.Spec.mlp (fun r l => h (ix2 r l) + agg (ix2 r l)) (fun l k => Wa1 (ix2 l k)) (fun k => ba1 (ix1 k))
            (fun l k => Wa2 (ix2 l k)) (fun k => ba2 (ix1 k)))
          (fun k => γa (ix1 k)) (fun k => βa (ix1 k)) (fun r l => h (ix2 r l)) r j :=
  nodeOut_at h agg Wa1 ba1 Wa2 ba2 γa βa r j

end Cert.ReferenceIdeal.RefValue

end
-- ==== Proof.Finite.lean ====
/-
  What the precondition says: it is the conjunction, over the fourteen float arguments, of "every entry has absolute
  value below +∞"; an extended real whose absolute value `max x (-x)` is below `⊤` is neither `⊤` nor `⊥`, so it is
  a real number.  The two index arguments are not constrained.
-/
import proofs.«164139_j1597727834590_1_alg».proof.Pre_finite_inputs
import proofs.«164139_j1597727834590_1_alg».proof.Proof.SpecLaws
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Spec

variable [Cert.Pre_finite_inputs.Facts]

open Cert.Pre_finite_inputs.Facts

/-- The shape of a scalar has one index. -/
instance : Subsingleton S_.Idx := ⟨fun a b => funext fun d => d.elim0⟩

/-- The word of `+inf` denotes `⊤`. -/
theorem inf_word : Ideal.ofBits .f32 0x7F800000#32 = ⊤ := by simp [Ideal.ofBits, Ideal.ieee]

/-- An extended real of absolute value below `⊤` is a real. -/
theorem isReal_of_abs_lt_top (x : EReal) (h : max x (-x) < ⊤) : IsReal x := by
  induction x with
  | bot => exact absurd h (by simp)
  | coe a => exact ⟨a, rfl⟩
  | top => exact absurd h (by simp)

/-- One entry's conjunct: the comparison `|a i| < +inf` came out true, so `a i` is a real. -/
theorem elem {s : Shape} (a : FVec Ideal s .f32) (bc : S_.BroadcastsInDim s (![] : Fin 0 → Fin s.rank)) (i : s.Idx)
    (h : cmpf .olt (Host.absf a) (broadcastInDim s ![] bc (constant S_ .f32 0x7F800000#32)) i = 1#1) : IsReal (a i) := by
  have h' : Ideal.cmp .olt (max (a i) (-(a i))) (Ideal.ofBits .f32 0x7F800000#32) = 1#1 := h
  rw [inf_word] at h'
  apply isReal_of_abs_lt_top
  have : (BitVec.ofBool (decide (max (a i) (-(a i)) < ⊤))) = 1#1 := h'
  revert this
  by_cases hlt : max (a i) (-(a i)) < ⊤
  · exact fun _ => hlt
  · rw [decide_eq_false hlt]; intro hh; exact absurd hh (by decide)

/-- One argument's conjunct: `jnp.all(|a| < inf)` came out true, so every entry of `a` is a real. -/
theorem all_real {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a) (broadcastInDim s ![] bc (constant S_ .f32 0x7F800000#32)))
      (constantI S_ 1 1#1) hr hu ValueIdx.ix0 = 1#1) (i : s.Idx) : IsReal (a i) :=
  elem a bc i (Host.reduce_andi_all _ _ hr hu ValueIdx.ix0 h i)

/-- The precondition, decoded: every entry of every float argument is a real. -/
theorem pre_real (a0 : FVec Ideal S50000x128 .f32) (a1 : FVec Ideal S800000x128 .f32) (a2 a3 : IVec S800000 32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S128x128 .f32) (a11 : FVec Ideal S128 .f32)
    (a12 a13 a14 a15 : FVec Ideal S128 .f32)
    (h : fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i)) ∧ (∀ i, IsReal (a15 i)) := by
  have h0 := congrFun h ValueIdx.ix0
  dsimp only [fn, fn_part1, fn_part2, fn_part3, fn_part4] at h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h1⟩ := IntOp.andi_eq_one.1 h0
  exact ⟨all_real a0 _ _ _ h0, all_real a1 _ _ _ h1, all_real a4 _ _ _ h4, all_real a5 _ _ _ h5, all_real a6 _ _ _ h6,
    all_real a7 _ _ _ h7, all_real a8 _ _ _ h8, all_real a9 _ _ _ h9, all_real a10 _ _ _ h10, all_real a11 _ _ _ h11,
    all_real a12 _ _ _ h12, all_real a13 _ _ _ h13, all_real a14 _ _ _ h14, all_real a15 _ _ _ h15⟩

end Cert.Finite

end
-- ==== Proof.HostFinite.lean ====
/-
  Finiteness through the two host operations that move rows: a gather only copies entries of its operand, and an
  accumulating scatter adds to each entry of its operand the finitely many updates that land on it.
-/
import proofs.«164139_j1597727834590_1_alg».proof.Proof.SpecLaws
import Idealize.ShloMosaic.PureOps.Ideal

noncomputable section

namespace Cert.HostFinite

open Idealize.ShloMosaic Cert.Spec

/-- Every entry of a gather is an entry of the gathered table. -/
theorem gather_isReal {s si t : Shape} {w : Nat} (d : GatherDims s si t) (x : s.Idx → EReal) (idx : IVec si w)
    (hx : ∀ i, IsReal (x i)) (j : t.Idx) : IsReal (Host.gather d x idx j) := hx _

/-- An accumulating scatter of finite updates into a finite table is finite. -/
theorem scatterAdd_isReal {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ hu)

end Cert.HostFinite

end
-- ==== Proof.Bridge.lean ====
/-
  The two programs compute one function.

  Both build the message table with the same host operations, so it is one term (`me_eq`); on it the reference's
  new edge table is `bnCentred N ε (mlp me …) γ β e` and the idealized kernel's is `bnMoments N ε (mlp me …) γ β e`,
  with `N` the word of 800000: the real 800000, the number of rows.  The two normalizations agree on a table of
  finite entries (Proof/SpecLaws.lean), and the perceptron's values are finite because the precondition makes every
  float argument finite and a gather only copies entries.  So the new edge tables are equal (`edge_eq`).  The
  aggregate is then the same scatter-add of the same table (`agg_eq`); it is finite because the new edge table is
  (a variance is nonnegative and `ε` positive, so the inverse square root is of a positive real); and the node half
  repeats the argument with 50000 rows (`node_eq`).
-/
import proofs.«164139_j1597727834590_1_alg».proof.Proof.KernelValue
import proofs.«164139_j1597727834590_1_alg».proof.Proof.RefValue
import proofs.«164139_j1597727834590_1_alg».proof.Proof.SpecLaws
import proofs.«164139_j1597727834590_1_alg».proof.Proof.Consts
import proofs.«164139_j1597727834590_1_alg».proof.Proof.Finite
import proofs.«164139_j1597727834590_1_alg».proof.Proof.HostFinite
import proofs.«164139_j1597727834590_1_alg».proof.Proof.Gen.Pre_finite_inputs
import proofs.«164139_j1597727834590_1_alg».proof.Defs
import Idealize.ShloMosaic.PureOps.Ideal.Laws

noncomputable section

namespace Cert.Bridge

open Idealize.ShloMosaic Idealize.ShloMosaic.TcCoe Idealize.ShloMosaic.ValueIdx Idealize.SL.Sem
open Cert.KernelIdeal Cert.KernelIdeal.Gen Cert.KernelIdeal.Value Cert.KernelIdeal.HostK Cert.Spec Cert.HostFinite

/-! ## The shared host terms -/

/-- The message table is one term in both programs. -/
theorem me_eq (h : FVec Ideal S50000x128 .f32) (e : FVec Ideal S800000x128 .f32) (src dst : IVec S800000 32) :
    Cert.ReferenceIdeal.RefRun.me (F := Ideal) h e src dst = HostK.me h e src dst := rfl

/-- So is the aggregate of a given edge table. -/
theorem agg_eq (dst : IVec S800000 32) (eNew : FVec Ideal S800000x128 .f32) :
    Cert.ReferenceIdeal.RefRun.agg (F := Ideal) dst eNew = HostK.agg dst eNew := rfl

/-! ## The row counts -/

theorem N8_eq : N8 = ((800000 : ℝ) : EReal) := Cert.Consts.ofBits_8e5
theorem N5_eq : N5 = ((50000 : ℝ) : EReal) := Cert.Consts.ofBits_5e4

variable (m : (ℓ : Loc nD τ sig) → Buf (Elt Ideal) ℓ) (ρ : Dev nD → PrngReg) (c : Dev nD)

/-- What the precondition gives at core `c`: every entry of every float argument is a real. -/
def ArgsReal : Prop :=
  (∀ i, IsReal (m ((c : Thread nD τ).loc main_arg0) i)) ∧ (∀ i, IsReal (m ((c : Thread nD τ).loc main_arg1) i))
  ∧ (∀ i, IsReal (m ((c : Thread nD τ).loc main_arg4) i)) ∧ (∀ i, IsReal (m ((c : Thread nD τ).loc main_arg5) i))
  ∧ (∀ i, IsReal (m ((c : Thread nD τ).loc main_arg6) i)) ∧ (∀ i, IsReal (m ((c : Thread nD τ).loc main_arg7) i))
  ∧ (∀ i, IsReal (m ((c : Thread nD τ).loc main_arg8) i)) ∧ (∀ i, IsReal (m ((c : Thread nD τ).loc main_arg9) i))
  ∧ (∀ i, IsReal (m ((c : Thread nD τ).loc main_arg10) i)) ∧ (∀ i, IsReal (m ((c : Thread nD τ).loc main_arg11) i))
  ∧ (∀ i, IsReal (m ((c : Thread nD τ).loc main_arg12) i)) ∧ (∀ i, IsReal (m ((c : Thread nD τ).loc main_arg13) i))
  ∧ (∀ i, IsReal (m ((c : Thread nD τ).loc main_arg14) i)) ∧ (∀ i, IsReal (m ((c : Thread nD τ).loc main_arg15) i))

theorem argsReal_of_pre (hpre : Cert.Pre_KernelIdeal m) : ArgsReal m c :=
  Cert.Finite.pre_real _ _ _ _ _ _ _ _ _ _ _ _ _ _ _ _ (hpre c)

/-! ## The edge half -/

/-- The message table of finite arguments is finite. -/
theorem me_real (ha : ArgsReal m c) (i : S800000x128.Idx) : IsReal (meM m c i) :=
  ((gather_isReal _ _ _ ha.1 i).add (gather_isReal _ _ _ ha.1 i)).add (ha.2.1 i)

/-- So are the edge perceptron's values. -/
theorem yE_real (ha : ArgsReal m c) (r : Fin 800000) (j : Fin 128) : IsReal (yE m c r j) :=
  mlp_isReal _ _ _ _ _ (fun r l => me_real m c ha (ix2 r l)) (fun l k => ha.2.2.2.2.2.2.1 (ix2 l k))
    (fun k => ha.2.2.2.2.2.2.2.1 (ix1 k)) (fun l k => ha.2.2.2.2.2.2.2.2.1 (ix2 l k))
    (fun k => ha.2.2.2.2.2.2.2.2.2.1 (ix1 k)) r j

/-- The kernel's new edge table with the variance taken as the reference takes it. -/
theorem eNew_centred (ha : ArgsReal m c) (r : Fin 800000) (j : Fin 128) :
    W8 m ρ c (Proc.devRef .tc main_v27) (ix2 r j)
      = bnCentred N8 eps (yE m c) (fun k => m ((c : Thread nD τ).loc main_arg14) (ix1 k))
          (fun k => m ((c : Thread nD τ).loc main_arg15) (ix1 k)) (fun r l => m ((c : Thread nD τ).loc main_arg1) (ix2 r l)) r j := by
  rw [eNew_apply m ρ c r j, N8_eq,
    bnMoments_eq_bnCentred (800000 : ℝ) (by norm_num) (by norm_num) eps (yE m c) (yE_real m c ha)]

/-- The new edge table is finite. -/
theorem eNew_real (ha : ArgsReal m c) (i : S800000x128.Idx) : IsReal (W8 m ρ c (Proc.devRef .tc main_v27) i) := by
  obtain ⟨r, j, rfl⟩ : ∃ (r : Fin 800000) (j : Fin 128), i = ix2 r j := ⟨i 0, i 1, eq_ix2 i⟩
  obtain ⟨ε, hε, he⟩ := Cert.Consts.ofBits_eps
  rw [eNew_centred m ρ c ha r j, N8_eq, show (eps : EReal) = (ε : EReal) from he]
  exact bnCentred_isReal (800000 : ℝ) (by norm_num) ε hε (yE m c) (yE_real m c ha) _ _
    (fun k => ha.2.2.2.2.2.2.2.2.2.2.2.2.1 (ix1 k)) (fun k => ha.2.2.2.2.2.2.2.2.2.2.2.2.2 (ix1 k)) _
    (fun r l => ha.2.1 (ix2 r l)) r j

/-- THE EDGE RESULTS AGREE: the reference's new edge table, of the kernel's launch arguments, is the kernel's. -/
theorem edge_eq (ha : ArgsReal m c) :
    Cert.ReferenceIdeal.RefRun.edgeOut (F := Ideal)
        (Cert.ReferenceIdeal.RefRun.me (F := Ideal) (m ((c : Thread nD τ).loc main_arg0)) (m ((c : Thread nD τ).loc main_arg1))
          (m ((c : Thread nD τ).loc main_arg2)) (m ((c : Thread nD τ).loc main_arg3)))
        (m ((c : Thread nD τ).loc main_arg1)) (m ((c : Thread nD τ).loc main_arg8)) (m ((c : Thread nD τ).loc main_arg9))
        (m ((c : Thread nD τ).loc main_arg10)) (m ((c : Thread nD τ).loc main_arg11)) (m ((c : Thread nD τ).loc main_arg14))
        (m ((c : Thread nD τ).loc main_arg15))
      = W8 m ρ c (Proc.devRef .tc main_v27) := by
  funext i
  obtain ⟨r, j, rfl⟩ : ∃ (r : Fin 800000) (j : Fin 128), i = ix2 r j := ⟨i 0, i 1, eq_ix2 i⟩
  rw [Cert.ReferenceIdeal.RefValue.edgeOut_apply, eNew_centred m ρ c ha r j, me_eq]

/-! ## The node half -/

/-- The aggregate of the kernel's new edge table is finite. -/
theorem agg_real (ha : ArgsReal m c) (i : S50000x128.Idx) : IsReal (aggM m ρ c i) :=
  scatterAdd_isReal _ _ _ _ (fun _ => ⟨0, Ideal.ofBits_zero_f32.trans EReal.coe_zero.symm⟩)
    (fun j => by rw [← Cert.KernelIdeal.Walk.W8_v27 m ρ c]; exact eNew_real m ρ c ha j) i

/-- So are the node perceptron's values. -/
theorem yN_real (ha : ArgsReal m c) (r : Fin 50000) (j : Fin 128) : IsReal (yN m ρ c r j) :=
  mlp_isReal _ _ _ _ _ (fun r l => (ha.1 (ix2 r l)).add (agg_real m ρ c ha (ix2 r l))) (fun l k => ha.2.2.1 (ix2 l k))
    (fun k => ha.2.2.2.1 (ix1 k)) (fun l k => ha.2.2.2.2.1 (ix2 l k)) (fun k => ha.2.2.2.2.2.1 (ix1 k)) r j

/-- The kernel's new node table with the variance taken as the reference takes it. -/
theorem hNew_centred (ha : ArgsReal m c) (r : Fin 50000) (j : Fin 128) :
    W8 m ρ c (Proc.devRef .tc main_v42) (ix2 r j)
      = bnCentred N5 eps (yN m ρ c) (fun k => m ((c : Thread nD τ).loc main_arg12) (ix1 k))
          (fun k => m ((c : Thread nD τ).loc main_arg13) (ix1 k)) (fun r l => m ((c : Thread nD τ).loc main_arg0) (ix2 r l)) r j := by
  rw [hNew_apply m ρ c r j, N5_eq,
    bnMoments_eq_bnCentred (50000 : ℝ) (by norm_num) (by norm_num) eps (yN m ρ c) (yN_real m ρ c ha)]

/-- THE NODE RESULTS AGREE: the reference's new node table, of the kernel's launch arguments, is the kernel's. -/
theorem node_eq (ha : ArgsReal m c) :
    Cert.ReferenceIdeal.RefRun.nodeOut (F := Ideal) (m ((c : Thread nD τ).loc main_arg0))
        (Cert.ReferenceIdeal.RefRun.agg (F := Ideal) (m ((c : Thread nD τ).loc main_arg3))
          (Cert.ReferenceIdeal.RefRun.edgeOut (F := Ideal)
            (Cert.ReferenceIdeal.RefRun.me (F := Ideal) (m ((c : Thread nD τ).loc main_arg0)) (m ((c : Thread nD τ).loc main_arg1))
              (m ((c : Thread nD τ).loc main_arg2)) (m ((c : Thread nD τ).loc main_arg3)))
            (m ((c : Thread nD τ).loc main_arg1)) (m ((c : Thread nD τ).loc main_arg8)) (m ((c : Thread nD τ).loc main_arg9))
            (m ((c : Thread nD τ).loc main_arg10)) (m ((c : Thread nD τ).loc main_arg11)) (m ((c : Thread nD τ).loc main_arg14))
            (m ((c : Thread nD τ).loc main_arg15))))
        (m ((c : Thread nD τ).loc main_arg4)) (m ((c : Thread nD τ).loc main_arg5)) (m ((c : Thread nD τ).loc main_arg6))
        (m ((c : Thread nD τ).loc main_arg7)) (m ((c : Thread nD τ).loc main_arg12)) (m ((c : Thread nD τ).loc main_arg13))
      = W8 m ρ c (Proc.devRef .tc main_v42) := by
  rw [edge_eq m ρ c ha, Cert.KernelIdeal.Walk.W8_v27 m ρ c, agg_eq]
  funext i
  obtain ⟨r, j, rfl⟩ : ∃ (r : Fin 50000) (j : Fin 128), i = ix2 r j := ⟨i 0, i 1, eq_ix2 i⟩
  refine (Cert.ReferenceIdeal.RefValue.nodeOut_apply _ _ _ _ _ _ _ _ r j).trans ?_
  exact (hNew_centred m ρ c ha r j).symm

end Cert.Bridge

end
-- ==== Proof.lean ====
/-
  The certificate of the graph layer: an edge half and a node half, each a two-layer perceptron on every row, a
  normalization of each column over all rows, and a residual.

  * The three frames: the kernel's and the idealized kernel's are the generated frames of the four regions among the
    host stretches; the reference's is its run with the values dropped.
  * The ideal pass rewrote nothing, so the idealization claim is trivial.
  * At the ideal instance the two programs end with equal results: the idealized kernel's two result arrays are read
    off its run (Proof/KernelRun.lean, Proof/KernelValue.lean), the reference's off its run (Proof/RefRun.lean,
    Proof/RefValue.lean), and they are the same functions of arguments that agree (Proof/Bridge.lean): the one
    difference, the variance taken from the moments or from the deviations, vanishes on finite tables, and the
    precondition makes every table finite.
-/
import proofs.«164139_j1597727834590_1_alg».proof.Defs
import proofs.«164139_j1597727834590_1_alg».proof.Proof.Gen.Kernel
import proofs.«164139_j1597727834590_1_alg».proof.Proof.Gen.Kernel.Frame
import proofs.«164139_j1597727834590_1_alg».proof.Proof.Gen.KernelIdeal
import proofs.«164139_j1597727834590_1_alg».proof.Proof.Gen.KernelIdeal.Frame
import proofs.«164139_j1597727834590_1_alg».proof.Proof.Gen.ReferenceIdeal
import proofs.«164139_j1597727834590_1_alg».proof.Proof.Gen.Pre_finite_inputs
import proofs.«164139_j1597727834590_1_alg».proof.Proof.KernelRun
import proofs.«164139_j1597727834590_1_alg».proof.Proof.RefRun
import proofs.«164139_j1597727834590_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results' values dropped. -/
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs run, and from arguments that agree the reference's two results are the idealized kernel's. -/
theorem algebraic : Cert.algebraic_KernelIdeal_ReferenceIdeal := by
  intro m ρ m' ρ' hpre hagree
  refine ⟨fun c => Cert.KernelIdeal.Gen.W8 m ρ c (Proc.devRef .tc Cert.KernelIdeal.main_v42),
    fun c => Cert.KernelIdeal.Gen.W8 m ρ c (Proc.devRef .tc Cert.KernelIdeal.main_v27),
    Cert.KernelIdeal.RunValue.run (F := Ideal) m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7, a8, a9, a10, a11, a12, a13, a14, a15⟩ := hagree c
    rw [a0, a1, a2, a3, a4, a5, a6, a7, a8, a9, a10, a11, a12, a13, a14, a15]
    exact Cert.Bridge.node_eq m ρ c (Cert.Bridge.argsReal_of_pre m c hpre)
  · obtain ⟨a0, a1, a2, a3, a4, a5, a6, a7, a8, a9, a10, a11, a12, a13, a14, a15⟩ := hagree c
    rw [a0, a1, a2, a3, a8, a9, a10, a11, a14, a15]
    exact Cert.Bridge.edge_eq m ρ c (Cert.Bridge.argsReal_of_pre m c hpre)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
